-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S12288x12288 : Shape := ⟨2, ![12288, 12288]⟩
abbrev S512x256 : Shape := ⟨2, ![512, 256]⟩
abbrev S256x1 : Shape := ⟨2, ![256, 1]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S12288x512 .f32) (main_arg1 : IVec S12288x12288 32) (main_arg2 : FVec F S512x256 .f32) (main_arg3 : FVec F S256x1 .f32) (main_arg4 : FVec F S256x1 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S12288x512 : Shape := ⟨2, ![12288, 512]⟩
abbrev S12288x12288 : Shape := ⟨2, ![12288, 12288]⟩
abbrev S512x256 : Shape := ⟨2, ![512, 256]⟩
abbrev S256x1 : Shape := ⟨2, ![256, 1]⟩
abbrev S1x256 : Shape := ⟨2, ![1, 256]⟩
abbrev S12288x256 : Shape := ⟨2, ![12288, 256]⟩
abbrev S12288x1 : Shape := ⟨2, ![12288, 1]⟩
abbrev S1024x512 : Shape := ⟨2, ![1024, 512]⟩
abbrev S1024x256 : Shape := ⟨2, ![1024, 256]⟩
abbrev S1024x1 : Shape := ⟨2, ![1024, 1]⟩
abbrev S1024 : Shape := ⟨1, ![1024]⟩
abbrev S1x12288 : Shape := ⟨2, ![1, 12288]⟩
abbrev S1x1024 : Shape := ⟨2, ![1, 1024]⟩
abbrev S1024x1024 : Shape := ⟨2, ![1024, 1024]⟩

abbrev nBuf : Space → Nat
  | .hbm => 12
  | .vmem => 23
  | .smem => 0
  | _ => 0

abbrev bufTy : (tb : Table) → Fin (tcTables nBuf tb) → BufTy
  | .hbm, ⟨0, _⟩ => ⟨S12288x512, .f32⟩
  | .hbm, ⟨1, _⟩ => ⟨S12288x12288, .i32⟩
  | .hbm, ⟨2, _⟩ => ⟨S512x256, .f32⟩
  | .hbm, ⟨3, _⟩ => ⟨S256x1, .f32⟩
  | .hbm, ⟨4, _⟩ => ⟨S256x1, .f32⟩
  | .hbm, ⟨5, _⟩ => ⟨S1x256, .f32⟩
  | .hbm, ⟨6, _⟩ => ⟨S1x256, .f32⟩
  | .hbm, ⟨7, _⟩ => ⟨S12288x256, .bf16⟩
  | .hbm, ⟨8, _⟩ => ⟨S12288x1, .f32⟩
  | .hbm, ⟨9, _⟩ => ⟨S12288x1, .f32⟩
  | .hbm, ⟨10, _⟩ => ⟨S1x12288, .f32⟩
  | .hbm, ⟨11, _⟩ => ⟨S12288x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S1024x256, .bf16⟩
  | .local _ .vmem, ⟨6, _⟩ => ⟨S1024x256, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1x1024, .f32⟩
  | .local _ .vmem, ⟨14, _⟩ => ⟨S1x1024, .f32⟩
  | .local _ .vmem, ⟨15, _⟩ => ⟨S1024x1024, .i32⟩
  | .local _ .vmem, ⟨16, _⟩ => ⟨S1024x1024, .i32⟩
  | .local _ .vmem, ⟨17, _⟩ => ⟨S12288x256, .bf16⟩
  | .local _ .vmem, ⟨18, _⟩ => ⟨S1024x256, .f32⟩
  | .local _ .vmem, ⟨19, _⟩ => ⟨S1024x256, .f32⟩
  | .local _ .vmem, ⟨20, _⟩ => ⟨S1024x1, .f32⟩
  | .local _ .vmem, ⟨21, _⟩ => ⟨S1024x1, .f32⟩
  | .local _ .vmem, ⟨22, _⟩ => ⟨S1024x256, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![12, 12], ![false, false]⟩

def k1_mult1 (i : grid1.Coords) : BitVec 32 :=
  let arg1 : BitVec 32 := BitVec.ofNat 32 (i 1).val
  let c1024_i32 : BitVec 32 := 1024#32
  let v38 : BitVec 32 := Scalar.muli arg1 c1024_i32
  v38
def k1_off1 (i : grid1.Coords) : Fin 2 → Nat :=
  let arg1 : BitVec 32 := BitVec.ofNat 32 (i 1).val
  let c1024_i32 : BitVec 32 := 1024#32
  let v38 : BitVec 32 := Scalar.muli arg1 c1024_i32
  let v39 : BitVec 32 := v38
  let v40 : Index := Scalar.indexCast v39
  let c0_19 : Index := 0#32
  ![v40.toNat, 0]
def k1_cond2 (i : grid1.Coords) : BitVec 1 :=
  let arg1 : BitVec 32 := BitVec.ofNat 32 (i 1).val
  let c11_i32 : BitVec 32 := 11#32
  let v55 : BitVec 1 := Scalar.cmpi .eq arg1 c11_i32
  let v56 : BitVec 32 := Scalar.extui v55
  let c0_i32_27 : BitVec 32 := 0#32
  let v57 : BitVec 1 := Scalar.cmpi .ne v56 c0_i32_27
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S12288x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  transposes_S256x1_S1x256_1_0 : S256x1.Transposes [1, 0] S1x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  transposes_S12288x1_S1x12288_1_0 : S12288x1.Transposes [1, 0] S1x12288
  shapeCasts_S1024x1_S1024x1 : S1024x1.ShapeCasts S1024x1
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  broadcasts_S1024x1_S1024x256 : S1024x1.Broadcasts S1024x256
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S12288x512.size a
  hwx0_0 : ∀ i : grid0.Coords, EltTy.bits .f32 = 32 ∨ (Rect.block (s := S12288x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S12288x256.size a
  hwx0_4 : ∀ i : grid0.Coords, EltTy.bits .bf16 = 32 ∨ (Rect.block (s := S12288x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S12288x1.size a
  hwx0_5 : ∀ i : grid0.Coords, EltTy.bits .f32 = 32 ∨ (Rect.block (s := S12288x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S12288x1.size a
  hwx0_6 : ∀ i : grid0.Coords, EltTy.bits .f32 = 32 ∨ (Rect.block (s := S12288x1) S1024x1.size (cc0_transform_6 i) (hinb0_6 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S12288x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S12288x1.size a
  hwx1_0 : ∀ i : grid1.Coords, EltTy.bits .f32 = 32 ∨ (Rect.block (s := S12288x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x12288.size a
  hwx1_1 : ∀ i : grid1.Coords, EltTy.bits .f32 = 32 ∨ (Rect.block (s := S1x12288) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S12288x12288.size a
  hwx1_2 : ∀ i : grid1.Coords, EltTy.bits .i32 = 32 ∨ (Rect.block (s := S12288x12288) S1024x1024.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S12288x256.size a ≤ S12288x256.size a
  hwx1_3 : ∀ i : grid1.Coords, EltTy.bits .bf16 = 32 ∨ (Rect.block (s := S12288x256) S12288x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S12288x256.size a
  hwx1_4 : ∀ i : grid1.Coords, EltTy.bits .f32 = 32 ∨ (Rect.block (s := S12288x256) S1024x256.size (cc1_transform_4 i) (hinb1_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_1) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S12288x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S12288x512 : Shape := ⟨2, ![12288, 512]⟩
abbrev S12288x12288 : Shape := ⟨2, ![12288, 12288]⟩
abbrev S512x256 : Shape := ⟨2, ![512, 256]⟩
abbrev S256x1 : Shape := ⟨2, ![256, 1]⟩
abbrev S12288x256 : Shape := ⟨2, ![12288, 256]⟩
abbrev S12288x1 : Shape := ⟨2, ![12288, 1]⟩
abbrev S1x12288 : Shape := ⟨2, ![1, 12288]⟩
abbrev S_ : Shape := ⟨0, ![]⟩
abbrev S12288 : Shape := ⟨1, ![12288]⟩

abbrev nBuf : Space → Nat
  | .hbm => 57
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S12288x12288, .i32⟩
  | .hbm, ⟨2, _⟩ => ⟨S512x256, .f32⟩
  | .hbm, ⟨3, _⟩ => ⟨S256x1, .f32⟩
  | .hbm, ⟨4, _⟩ => ⟨S256x1, .f32⟩
  | .hbm, ⟨5, _⟩ => ⟨S12288x256, .f32⟩
  | .hbm, ⟨6, _⟩ => ⟨S12288x1, .f32⟩
  | .hbm, ⟨7, _⟩ => ⟨S12288x1, .f32⟩
  | .hbm, ⟨8, _⟩ => ⟨S1x12288, .f32⟩
  | .hbm, ⟨9, _⟩ => ⟨S12288x12288, .f32⟩
  | .hbm, ⟨10, _⟩ => ⟨S12288x12288, .f32⟩
  | .hbm, ⟨11, _⟩ => ⟨S12288x12288, .f32⟩
  | .hbm, ⟨12, _⟩ => ⟨S_, .f32⟩
  | .hbm, ⟨13, _⟩ => ⟨S_, .f32⟩
  | .hbm, ⟨14, _⟩ => ⟨S12288x12288, .f32⟩
  | .hbm, ⟨15, _⟩ => ⟨S12288x12288, .i1⟩
  | .hbm, ⟨16, _⟩ => ⟨S_, .f32⟩
  | .hbm, ⟨17, _⟩ => ⟨S12288x12288, .f32⟩
  | .hbm, ⟨18, _⟩ => ⟨S12288x12288, .f32⟩
  | .hbm, ⟨19, _⟩ => ⟨S12288x12288, .f32⟩
  | .hbm, ⟨20, _⟩ => ⟨S_, .i32⟩
  | .hbm, ⟨21, _⟩ => ⟨S12288x12288, .i32⟩
  | .hbm, ⟨22, _⟩ => ⟨S12288x12288, .i1⟩
  | .hbm, ⟨23, _⟩ => ⟨S_, .f32⟩
  | .hbm, ⟨24, _⟩ => ⟨S_, .f32⟩
  | .hbm, ⟨25, _⟩ => ⟨S12288x12288, .f32⟩
  | .hbm, ⟨26, _⟩ => ⟨S12288x12288, .f32⟩
  | .hbm, ⟨27, _⟩ => ⟨S_, .f32⟩
  | .hbm, ⟨28, _⟩ => ⟨S12288, .f32⟩
  | .hbm, ⟨29, _⟩ => ⟨S_, .f32⟩
  | .hbm, ⟨30, _⟩ => ⟨S12288, .f32⟩
  | .hbm, ⟨31, _⟩ => ⟨S12288, .f32⟩
  | .hbm, ⟨32, _⟩ => ⟨S12288x1, .f32⟩
  | .hbm, ⟨33, _⟩ => ⟨S12288x12288, .f32⟩
  | .hbm, ⟨34, _⟩ => ⟨S12288x12288, .f32⟩
  | .hbm, ⟨35, _⟩ => ⟨S12288x12288, .f32⟩
  | .hbm, ⟨36, _⟩ => ⟨S_, .f32⟩
  | .hbm, ⟨37, _⟩ => ⟨S12288, .f32⟩
  | .hbm, ⟨38, _⟩ => ⟨S12288x1, .f32⟩
  | .hbm, ⟨39, _⟩ => ⟨S12288x12288, .f32⟩
  | .hbm, ⟨40, _⟩ => ⟨S12288x12288, .f32⟩
  | .hbm, ⟨41, _⟩ => ⟨S12288x256, .f32⟩
  | .hbm, ⟨42, _⟩ => ⟨S_, .f32⟩
  | .hbm, ⟨43, _⟩ => ⟨S12288x256, .f32⟩
  | .hbm, ⟨44, _⟩ => ⟨S12288x256, .i1⟩
  | .hbm, ⟨45, _⟩ => ⟨S_, .f32⟩
  | .hbm, ⟨46, _⟩ => ⟨S12288x256, .f32⟩
  | .hbm, ⟨47, _⟩ => ⟨S12288x256, .i1⟩
  | .hbm, ⟨48, _⟩ => ⟨S_, .f32⟩
  | .hbm, ⟨49, _⟩ => ⟨S_, .f32⟩
  | .hbm, ⟨50, _⟩ => ⟨S12288x256, .f32⟩
  | .hbm, ⟨51, _⟩ => ⟨S12288x256, .f32⟩
  | .hbm, ⟨52, _⟩ => ⟨S12288x256, .f32⟩
  | .hbm, ⟨53, _⟩ => ⟨S_, .f32⟩
  | .hbm, ⟨54, _⟩ => ⟨S12288x256, .f32⟩
  | .hbm, ⟨55, _⟩ => ⟨S12288x256, .f32⟩
  | .hbm, ⟨56, _⟩ => ⟨S12288x256, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_cst : Ref sig .tc := ⟨.hbm, 42, rfl⟩
abbrev main_call2_v0 : Ref sig .tc := ⟨.hbm, 43, rfl⟩
abbrev main_call2_v1 : Ref sig .tc := ⟨.hbm, 44, rfl⟩
abbrev main_call2_cst_0 : Ref sig .tc := ⟨.hbm, 45, rfl⟩
abbrev main_call2_v2 : Ref sig .tc := ⟨.hbm, 46, rfl⟩
abbrev main_call2_v3 : Ref sig .tc := ⟨.hbm, 47, rfl⟩
abbrev main_call2_cst_1 : Ref sig .tc := ⟨.hbm, 48, rfl⟩
abbrev main_call2_call0_v0 : Ref sig .tc := ⟨.hbm, 49, rfl⟩
abbrev main_call2_call0_v1 : Ref sig .tc := ⟨.hbm, 50, rfl⟩
abbrev main_call2_v4 : Ref sig .tc := ⟨.hbm, 51, rfl⟩
abbrev main_call2_v5 : Ref sig .tc := ⟨.hbm, 52, rfl⟩
abbrev main_call2_cst_2 : Ref sig .tc := ⟨.hbm, 53, rfl⟩
abbrev main_call2_v6 : Ref sig .tc := ⟨.hbm, 54, rfl⟩
abbrev main_call2_v7 : Ref sig .tc := ⟨.hbm, 55, rfl⟩
abbrev main_v23 : Ref sig .tc := ⟨.hbm, 56, rfl⟩

abbrev nD : Nat := 1
abbrev τ : Topo := Topo.v7x

variable {F : FTy → Type} [FloatOps F]

class Facts₀ : Prop where
  transposes_S12288x1_S1x12288_1_0 : S12288x1.Transposes [1, 0] S1x12288
  bcast_S12288x1_S12288x12288_0_1 : S12288x1.BroadcastsInDim S12288x12288 (![0, 1] : Fin 2 → Fin S12288x12288.rank)
  bcast_S1x12288_S12288x12288_0_1 : S1x12288.BroadcastsInDim S12288x12288 (![0, 1] : Fin 2 → Fin S12288x12288.rank)
  bcast_S_S12288x12288 : S_.BroadcastsInDim S12288x12288 (![] : Fin 0 → Fin S12288x12288.rank)
  reducesTo_S12288x12288_S12288_d1 : S12288x12288.ReducesTo [1] S12288
  h_S_ : 0 < S_.numel
  bcast_S_S12288 : S_.BroadcastsInDim S12288 (![] : Fin 0 → Fin S12288.rank)
  bcast_S12288_S12288x1_0 : S12288.BroadcastsInDim S12288x1 (![0] : Fin 1 → Fin S12288x1.rank)
  bcast_S_S12288x256 : S_.BroadcastsInDim S12288x256 (![] : Fin 0 → Fin S12288x256.rank)
  dot_S12288x512_S512x256_S12288x256_1_0_0_1_n_n_wf : DotDims.WF S12288x512 S512x256 S12288x256 [1] [0] [0] [1] [] []
  dot_S12288x256_S256x1_S12288x1_1_0_0_1_n_n_wf : DotDims.WF S12288x256 S256x1 S12288x1 [1] [0] [0] [1] [] []
  dot_S12288x12288_S12288x256_S12288x256_1_0_0_1_n_n_wf : DotDims.WF S12288x12288 S12288x256 S12288x256 [1] [0] [0] [1] [] []

variable [Facts₀]

def dot_S12288x512_S512x256_S12288x256_1_0_0_1_n_n : DotDims S12288x512 S512x256 S12288x256 where
  lhsContracting := [1]
  rhsContracting := [0]
  lhsNonContracting := [0]
  rhsNonContracting := [1]
  lhsBatch := []
  rhsBatch := []
  wf := dot_S12288x512_S512x256_S12288x256_1_0_0_1_n_n_wf
def dot_S12288x256_S256x1_S12288x1_1_0_0_1_n_n : DotDims S12288x256 S256x1 S12288x1 where
  lhsContracting := [1]
  rhsContracting := [0]
  lhsNonContracting := [0]
  rhsNonContracting := [1]
  lhsBatch := []
  rhsBatch := []
  wf := dot_S12288x256_S256x1_S12288x1_1_0_0_1_n_n_wf
def dot_S12288x12288_S12288x256_S12288x256_1_0_0_1_n_n : DotDims S12288x12288 S12288x256 S12288x256 where
  lhsContracting := [1]
  rhsContracting := [0]
  lhsNonContracting := [0]
  rhsNonContracting := [1]
  lhsBatch := []
  rhsBatch := []
  wf := dot_S12288x12288_S12288x256_S12288x256_1_0_0_1_n_n_wf

class Facts : Prop extends Facts₀ where

variable [Facts]
-- ==== Proof.KbRuns.lean ====
/-
  What the two kernels' runs share. The program is a graph-attention layer in two grids: a projection
  (h = x·W with the two attention scalars s1 = h·a1, s2 = h·a2 as lane sums, 12 row tiles) and a streaming
  masked softmax (12 row tiles × 12 column tiles, the running maximum, denominator and numerator kept in
  three scratch buffers from one column tile to the next). Here: each window's block at a grid point read off
  the array the grid finds on entry; that an input's staging buffer holds that block at every point; the
  second grid's two branch conditions (first column tile, last column tile) in closed form; where its output
  window is idle; and the scratch buffers as memrefs.
-/
import proofs.«114251_j82927228552027_2_alg».proof.Proof.Gen.Kernel.Launch
import proofs.«114251_j82927228552027_2_alg».proof.Proof.Gen.Kernel.Skeleton
import proofs.«114251_j82927228552027_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Entry
-- the core's buffer contents when a grid is entered
variable (V : (c : Dev nD) → (b : Ref sig .tc) → Buf (Elt F) ((c : Thread nD τ).loc b))

/-! ## The projection grid: blocks -/

/-- Window `w`'s block at row tile `t` of the projection grid, read off its array as found on entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-! ## The attention grid: blocks -/

/-- Window `w`'s block at point `t` (row tile, column tile) of the attention grid, read off its array as found on entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

end Entry

/-! ## The attention body's two branches, decided over the grid -/

/-- "This is the row's first column tile": the reset of the running maximum, denominator and numerator. -/
abbrev first1 (i : grid1.Coords) : Prop := (Scalar.cmpi .ne (Scalar.extui (Scalar.cmpi .eq (BitVec.ofNat 32 (i 1).val) 0#32)) 0#32) = 1#1
theorem hfirst1 : ∀ t : Fin cfg1.N, first1 (grid1.coords t) ↔ t.val % 12 = 0 :=
  (by decide +kernel : ∀ t : Fin grid1.N, first1 (grid1.coords t) ↔ t.val % 12 = 0)
/-- "This is the row's last column tile": the division and the final nonlinearity, stored to the output. -/
abbrev last1 (i : grid1.Coords) : Prop := k1_cond2 i = 1#1
theorem hlast1 : ∀ t : Fin cfg1.N, last1 (grid1.coords t) ↔ t.val % 12 = 11 :=
  (by decide +kernel : ∀ t : Fin grid1.N, last1 (grid1.coords t) ↔ t.val % 12 = 11)

/-! ## Where the attention grid's windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a row's last column tile nothing is stored into the output window, and it is not written back. -/
theorem idleAt1_4 : ∀ t : Fin cfg1.N, ¬last1 (grid1.coords t) → cfg1.idle 4 (grid1.coords t) = true := by decide +kernel
theorem noFlush1_4 : ∀ t : Fin cfg1.N, ¬last1 (grid1.coords t) → (cfg1.win 4).flush t = false := by decide +kernel
theorem liveAt1_4 : ∀ t : Fin cfg1.N, last1 (grid1.coords t) → cfg1.idle 4 (grid1.coords t) = false := by decide +kernel

/-! ## Staging and scratch memrefs -/

abbrev VO1_4 : View sig .tc .vmem S1024x256 .f32 := (Memref.whole cc1_stg4_0 : Memref sig .tc .vmem S1024x256 .f32).view
/-- The three scratch buffers: the running maximum, the running denominator, the running numerator. -/
abbrev scMax : Memref sig .tc .vmem S1024x1 .f32 := Memref.whole cc1_scratch0
abbrev scDen : Memref sig .tc .vmem S1024x1 .f32 := Memref.whole cc1_scratch1
abbrev scNum : Memref sig .tc .vmem S1024x256 .f32 := Memref.whole cc1_scratch2
abbrev VMax : View sig .tc .vmem S1024x1 .f32 := scMax.view
abbrev VDen : View sig .tc .vmem S1024x1 .f32 := scDen.view
abbrev VNum : View sig .tc .vmem S1024x256 .f32 := scNum.view

end Cert.Kernel.Hand

end
-- ==== Proof.KbRun0.lean ====
/-
  The projection body run once on whole staging memrefs: the four inputs at read contents, the three outputs
  (h in bf16, s1, s2) at anything; it ends with the inputs as they were and each output's memref with the
  body's stores written, as a list of pieces the run finds.
-/
import proofs.«114251_j82927228552027_2_alg».proof.Proof.KbRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def projRun (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole)
    (x0 : Vec F S1024x512 .f32) (x1 : Vec F S512x256 .f32) (x2 : Vec F S1x256 .f32) (x3 : Vec F S1x256 .f32) :
    Σ' (L4 : List (View.Piece (Elt F) S1024x256 .bf16)) (L5 : List (View.Piece (Elt F) S1024x1 .f32)), { L6 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc0__proj_kernel i arg1 harg1 arg2 harg2 arg3 harg3 arg4 harg4 arg5 harg5 arg6 harg6 arg7 harg7) K } := by
  refine ⟨?_, ?_, ?_, fun E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

end Cert.Kernel.Hand

end
-- ==== Proof.KbData0.lean ====
/-
  The projection grid's proof data, at the buffer contents the grid is entered from: what each window's
  staging buffer holds after the body at a row tile (an input its block; the three outputs the body's stores
  read back, which cover each buffer), and the body's obligation at every row tile.
-/
import proofs.«114251_j82927228552027_2_alg».proof.Proof.KbRun0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Staging memrefs at a row tile -/
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)

abbrev VO0_4 : View sig .tc .vmem S1024x256 .bf16 := (Memref.whole cc0_stg4_0 : Memref sig .tc .vmem S1024x256 .bf16).view
abbrev VO0_5 : View sig .tc .vmem S1024x1 .f32 := (Memref.whole cc0_stg5_0 : Memref sig .tc .vmem S1024x1 .f32).view
abbrev VO0_6 : View sig .tc .vmem S1024x1 .f32 := (Memref.whole cc0_stg6_0 : Memref sig .tc .vmem S1024x1 .f32).view

/-! ## The stores cover each output buffer -/

theorem cover0_4 (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) (y : S1024x256.Idx) :
    ∃ pc ∈ (projRun (F := F) c i arg1 harg1 arg2 harg2 arg3 harg3 arg4 harg4 arg5 harg5 arg6 harg6 arg7 harg7 x0 x1 x2 x3).1, y ∈ pc.1.set :=
  View.cover_of_tiledL (projRun (F := F) c i arg1 harg1 arg2 harg2 arg3 harg3 arg4 harg4 arg5 harg5 arg6 harg6 arg7 harg7 x0 x1 x2 x3).1 S1024x256.size (by sl_kernel_rfl) y
theorem cover0_5 (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) (y : S1024x1.Idx) :
    ∃ pc ∈ (projRun (F := F) c i arg1 harg1 arg2 harg2 arg3 harg3 arg4 harg4 arg5 harg5 arg6 harg6 arg7 harg7 x0 x1 x2 x3).2.1, y ∈ pc.1.set :=
  View.cover_of_tiledL (projRun (F := F) c i arg1 harg1 arg2 harg2 arg3 harg3 arg4 harg4 arg5 harg5 arg6 harg6 arg7 harg7 x0 x1 x2 x3).2.1 S1024x1.size (by sl_kernel_rfl) y
theorem cover0_6 (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) (y : S1024x1.Idx) :
    ∃ pc ∈ (projRun (F := F) c i arg1 harg1 arg2 harg2 arg3 harg3 arg4 harg4 arg5 harg5 arg6 harg6 arg7 harg7 x0 x1 x2 x3).2.2.1, y ∈ pc.1.set :=
  View.cover_of_tiledL (projRun (F := F) c i arg1 harg1 arg2 harg2 arg3 harg3 arg4 harg4 arg5 harg5 arg6 harg6 arg7 harg7 x0 x1 x2 x3).2.2.1 S1024x1.size (by sl_kernel_rfl) y

/-- What the body leaves in the h window's buffer (bf16): its stores read back. -/
def out0_4 (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) : Vec F S1024x256 .bf16 :=
  VO0_4.read (Elt F) (VO0_4.writes (Elt F) VO0_4.junk (projRun (F := F) c i arg1 harg1 arg2 harg2 arg3 harg3 arg4 harg4 arg5 harg5 arg6 harg6 arg7 harg7 x0 x1 x2 x3).1)
/-- What the body leaves in the s1 window's buffer. -/
def out0_5 (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) : Vec F S1024x1 .f32 :=
  VO0_5.read (Elt F) (VO0_5.writes (Elt F) VO0_5.junk (projRun (F := F) c i arg1 harg1 arg2 harg2 arg3 harg3 arg4 harg4 arg5 harg5 arg6 harg6 arg7 harg7 x0 x1 x2 x3).2.1)
/-- What the body leaves in the s2 window's buffer. -/
def out0_6 (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) : Vec F S1024x1 .f32 :=
  VO0_6.read (Elt F) (VO0_6.writes (Elt F) VO0_6.junk (projRun (F := F) c i arg1 harg1 arg2 harg2 arg3 harg3 arg4 harg4 arg5 harg5 arg6 harg6 arg7 harg7 x0 x1 x2 x3).2.2.1)

section Entry
variable (V : (c : Dev nD) → (b : Ref sig .tc) → Buf (Elt F) ((c : Thread nD τ).loc b))

/-- The projection grid's proof data on core `c`: arrays as found on entry; after the body each input's buffer at
    its block, each output's at the body's stores over the input blocks; the invariant the scoped rest and the
    generator register, untouched; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => out0_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t)
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t)
    | ⟨6, _⟩ => out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = out0_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t) := by dsimp only [dat0]
theorem after0_5 (c : Dev nD) (t : Fin cfg0.N) : (dat0 V c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t) := by dsimp only [dat0]
theorem after0_6 (c : Dev nD) (t : Fin cfg0.N) : (dat0 V c).after 6 t = out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d

/-! ## The body obligation at a row tile -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  unfold out0_4 out0_5 out0_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((projRun (F := F) c (grid0.coords t) _ _ _ _ _ _ _ _ _ _ _ _ _ _ (blk0 V c 0 t) (blk0 V c 1 t) (blk0 V c 2 t) (blk0 V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_4 c _ _ _ _ _ _ _ _ _ _ _ _ _ _ _ _ _ _ _)
  isplitl [H5]
  · unfold owns; iexists _; isplitr
    swap; · iexact H5
    ipureintro; exact View.read_writes_of_cover _ _ _ _ _ (cover0_5 c _ _ _ _ _ _ _ _ _ _ _ _ _ _ _ _ _ _ _)
  unfold owns; iexists _; isplitr
  swap; · iexact H6
  ipureintro; exact View.read_writes_of_cover _ _ _ _ _ (cover0_6 c _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Entry

end Cert.Kernel.Hand

end
-- ==== Proof.KbRun1A.lean ====
/-
  The attention body run once on whole memrefs at a row's FIRST column tile (the reset taken, the finish not): the scratch buffers at anything; the output window's buffer handed back untouched. It ends with the inputs as they were and every buffer it
  stored into with those stores written, as lists of pieces the run finds.
-/
import proofs.«114251_j82927228552027_2_alg».proof.Proof.KbRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
noncomputable def attnRunA (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i)
    (x0 : Vec F S1024x1 .f32) (x1 : Vec F S1x1024 .f32) (x2 : Vec F S1024x1024 .i32) (x3 : Vec F S12288x256 .bf16) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.KbRun1B.lean ====
/-
  The attention body run once on whole memrefs at a MIDDLE column tile (neither the reset nor the finish): the scratch buffers at what the tile before left; the output window's buffer handed back untouched. It ends with the inputs as they were and every buffer it
  stored into with those stores written, as lists of pieces the run finds.
-/
import proofs.«114251_j82927228552027_2_alg».proof.Proof.KbRun1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
noncomputable def attnRunB (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i)
    (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.KbRun1C.lean ====
/-
  The attention body run once on whole memrefs at a row's LAST column tile (the finish taken, the reset not): the scratch buffers at what the tile before left; the output window's buffer at anything, left with the stored result. It ends with the inputs as they were and every buffer it
  stored into with those stores written, as lists of pieces the run finds.
-/
import proofs.«114251_j82927228552027_2_alg».proof.Proof.KbRun1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
noncomputable def attnRunC (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i)
    (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.KbData1.lean ====
/-
  The attention grid's proof data, at the buffer contents the grid is entered from. Per case of the body's two
  branches, what its stores leave in the output window's buffer and in the three scratch buffers (running
  maximum, denominator, numerator), which the stores cover; then, point by point along the grid, what those
  four buffers hold after the body (a recursion: a middle or last column tile starts from what the tile before
  left in the scratch); the grid's invariant, which carries the three scratch buffers at exactly those
  contents from one point to the next; and the body's obligation at every point.
-/
import proofs.«114251_j82927228552027_2_alg».proof.Proof.KbRun1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Staging memrefs at a point -/
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)

/-! ## Per case: the stores cover each buffer they are made into, and what they leave -/

theorem cover1_A_s0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) (y : S1024x1.Idx) :
    ∃ pc ∈ (attnRunA (F := F) c i arg2 harg2 arg3 harg3 arg4 harg4 arg5 harg5 arg6 harg6 arg7 harg7 arg8 harg8 arg9 harg9 hc0 hc1 x0 x1 x2 x3).2.1, y ∈ pc.1.set :=
  View.cover_of_tiledL (attnRunA (F := F) c i arg2 harg2 arg3 harg3 arg4 harg4 arg5 harg5 arg6 harg6 arg7 harg7 arg8 harg8 arg9 harg9 hc0 hc1 x0 x1 x2 x3).2.1 S1024x1.size (by sl_kernel_rfl) y
theorem cover1_A_s1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) (y : S1024x1.Idx) :
    ∃ pc ∈ (attnRunA (F := F) c i arg2 harg2 arg3 harg3 arg4 harg4 arg5 harg5 arg6 harg6 arg7 harg7 arg8 harg8 arg9 harg9 hc0 hc1 x0 x1 x2 x3).2.2.1, y ∈ pc.1.set :=
  View.cover_of_tiledL (attnRunA (F := F) c i arg2 harg2 arg3 harg3 arg4 harg4 arg5 harg5 arg6 harg6 arg7 harg7 arg8 harg8 arg9 harg9 hc0 hc1 x0 x1 x2 x3).2.2.1 S1024x1.size (by sl_kernel_rfl) y
theorem cover1_A_s2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) (y : S1024x256.Idx) :
    ∃ pc ∈ (attnRunA (F := F) c i arg2 harg2 arg3 harg3 arg4 harg4 arg5 harg5 arg6 harg6 arg7 harg7 arg8 harg8 arg9 harg9 hc0 hc1 x0 x1 x2 x3).2.2.2.1, y ∈ pc.1.set :=
  View.cover_of_tiledL (attnRunA (F := F) c i arg2 harg2 arg3 harg3 arg4 harg4 arg5 harg5 arg6 harg6 arg7 harg7 arg8 harg8 arg9 harg9 hc0 hc1 x0 x1 x2 x3).2.2.2.1 S1024x256.size (by sl_kernel_rfl) y
def left1_A_o4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) : Vec F S1024x256 .f32 :=
  VO1_4.read (Elt F) (VO1_4.writes (Elt F) VO1_4.junk (attnRunA (F := F) c i arg2 harg2 arg3 harg3 arg4 harg4 arg5 harg5 arg6 harg6 arg7 harg7 arg8 harg8 arg9 harg9 hc0 hc1 x0 x1 x2 x3).1)
def left1_A_s0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) : Vec F S1024x1 .f32 :=
  VMax.read (Elt F) (VMax.writes (Elt F) VMax.junk (attnRunA (F := F) c i arg2 harg2 arg3 harg3 arg4 harg4 arg5 harg5 arg6 harg6 arg7 harg7 arg8 harg8 arg9 harg9 hc0 hc1 x0 x1 x2 x3).2.1)
def left1_A_s1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) : Vec F S1024x1 .f32 :=
  VDen.read (Elt F) (VDen.writes (Elt F) VDen.junk (attnRunA (F := F) c i arg2 harg2 arg3 harg3 arg4 harg4 arg5 harg5 arg6 harg6 arg7 harg7 arg8 harg8 arg9 harg9 hc0 hc1 x0 x1 x2 x3).2.2.1)
def left1_A_s2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) : Vec F S1024x256 .f32 :=
  VNum.read (Elt F) (VNum.writes (Elt F) VNum.junk (attnRunA (F := F) c i arg2 harg2 arg3 harg3 arg4 harg4 arg5 harg5 arg6 harg6 arg7 harg7 arg8 harg8 arg9 harg9 hc0 hc1 x0 x1 x2 x3).2.2.2.1)
theorem cover1_B_s0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x1.Idx) :
    ∃ pc ∈ (attnRunB (F := F) c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (attnRunB (F := F) c i arg2 harg2 arg3 harg3 arg4 harg4 arg5 harg5 arg6 harg6 arg7 harg7 arg8 harg8 arg9 harg9 hc0 hc1 x0 x1 x2 x3 xs0 xs1 xs2).2.1 S1024x1.size (by sl_kernel_rfl) y
theorem cover1_B_s1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x1.Idx) :
    ∃ pc ∈ (attnRunB (F := F) c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (attnRunB (F := F) c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y
theorem cover1_B_s2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x256.Idx) :
    ∃ pc ∈ (attnRunB (F := F) c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (attnRunB (F := F) c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y
def left1_B_o4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x256 .f32 :=
  VO1_4.read (Elt F) (VO1_4.writes (Elt F) VO1_4.junk (attnRunB (F := F) c i arg2 harg2 arg3 harg3 arg4 harg4 arg5 harg5 arg6 harg6 arg7 harg7 arg8 harg8 arg9 harg9 hc0 hc1 x0 x1 x2 x3 xs0 xs1 xs2).1)
def left1_B_s0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x1 .f32 :=
  VMax.read (Elt F) (VMax.writes (Elt F) VMax.junk (attnRunB (F := F) c i arg2 harg2 arg3 harg3 arg4 harg4 arg5 harg5 arg6 harg6 arg7 harg7 arg8 harg8 arg9 harg9 hc0 hc1 x0 x1 x2 x3 xs0 xs1 xs2).2.1)
def left1_B_s1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x1 .f32 :=
  VDen.read (Elt F) (VDen.writes (Elt F) VDen.junk (attnRunB (F := F) c i arg2 harg2 arg3 harg3 arg4 harg4 arg5 harg5 arg6 harg6 arg7 harg7 arg8 harg8 arg9 harg9 hc0 hc1 x0 x1 x2 x3 xs0 xs1 xs2).2.2.1)
def left1_B_s2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x256 .f32 :=
  VNum.read (Elt F) (VNum.writes (Elt F) VNum.junk (attnRunB (F := F) c i arg2 harg2 arg3 harg3 arg4 harg4 arg5 harg5 arg6 harg6 arg7 harg7 arg8 harg8 arg9 harg9 hc0 hc1 x0 x1 x2 x3 xs0 xs1 xs2).2.2.2.1)
theorem cover1_C_o4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x256.Idx) :
    ∃ pc ∈ (attnRunC (F := F) c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (attnRunC (F := F) c i arg2 harg2 arg3 harg3 arg4 harg4 arg5 harg5 arg6 harg6 arg7 harg7 arg8 harg8 arg9 harg9 hc0 hc1 x0 x1 x2 x3 xs0 xs1 xs2).1 S1024x256.size (by sl_kernel_rfl) y
theorem cover1_C_s0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x1.Idx) :
    ∃ pc ∈ (attnRunC (F := F) c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (attnRunC (F := F) c i arg2 harg2 arg3 harg3 arg4 harg4 arg5 harg5 arg6 harg6 arg7 harg7 arg8 harg8 arg9 harg9 hc0 hc1 x0 x1 x2 x3 xs0 xs1 xs2).2.1 S1024x1.size (by sl_kernel_rfl) y
theorem cover1_C_s1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x1.Idx) :
    ∃ pc ∈ (attnRunC (F := F) c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (attnRunC (F := F) c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y
theorem cover1_C_s2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x256.Idx) :
    ∃ pc ∈ (attnRunC (F := F) c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (attnRunC (F := F) c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y
def left1_C_o4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x256 .f32 :=
  VO1_4.read (Elt F) (VO1_4.writes (Elt F) VO1_4.junk (attnRunC (F := F) c i arg2 harg2 arg3 harg3 arg4 harg4 arg5 harg5 arg6 harg6 arg7 harg7 arg8 harg8 arg9 harg9 hc0 hc1 x0 x1 x2 x3 xs0 xs1 xs2).1)
def left1_C_s0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x1 .f32 :=
  VMax.read (Elt F) (VMax.writes (Elt F) VMax.junk (attnRunC (F := F) c i arg2 harg2 arg3 harg3 arg4 harg4 arg5 harg5 arg6 harg6 arg7 harg7 arg8 harg8 arg9 harg9 hc0 hc1 x0 x1 x2 x3 xs0 xs1 xs2).2.1)
def left1_C_s1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x1 .f32 :=
  VDen.read (Elt F) (VDen.writes (Elt F) VDen.junk (attnRunC (F := F) c i arg2 harg2 arg3 harg3 arg4 harg4 arg5 harg5 arg6 harg6 arg7 harg7 arg8 harg8 arg9 harg9 hc0 hc1 x0 x1 x2 x3 xs0 xs1 xs2).2.2.1)
def left1_C_s2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x256 .f32 :=
  VNum.read (Elt F) (VNum.writes (Elt F) VNum.junk (attnRunC (F := F) c i arg2 harg2 arg3 harg3 arg4 harg4 arg5 harg5 arg6 harg6 arg7 harg7 arg8 harg8 arg9 harg9 hc0 hc1 x0 x1 x2 x3 xs0 xs1 xs2).2.2.2.1)

section Entry
variable (V : (c : Dev nD) → (b : Ref sig .tc) → Buf (Elt F) ((c : Thread nD τ).loc b))

/-! ## Point by point -/

/-- What the output window's buffer and the three scratch buffers hold after the body at position `n` of the grid
    (row tiles outermost, column tiles innermost): the case the position selects, run on the point's blocks,
    a middle or last column tile over what position `n - 1` left in the scratch. -/
def leftAt1 (c : Dev nD) : (n : ℕ) → n < cfg1.N → Vec F S1024x256 .f32 × Vec F S1024x1 .f32 × Vec F S1024x1 .f32 × Vec F S1024x256 .f32
  | 0, hn => (left1_A_o4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scMax (Memref.isWhole_whole _) scDen (Memref.isWhole_whole _) scNum (Memref.isWhole_whole _) ((hfirst1 ⟨0, hn⟩).mpr (Nat.zero_mod _)) (fun h => (fun h => by (try dsimp only at h); omega) ((hlast1 ⟨0, hn⟩).mp h)) (blk1 V c 0 ⟨0, hn⟩) (blk1 V c 1 ⟨0, hn⟩) (blk1 V c 2 ⟨0, hn⟩) (blk1 V c 3 ⟨0, hn⟩),
        left1_A_s0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scMax (Memref.isWhole_whole _) scDen (Memref.isWhole_whole _) scNum (Memref.isWhole_whole _) ((hfirst1 ⟨0, hn⟩).mpr (Nat.zero_mod _)) (fun h => (fun h => by (try dsimp only at h); omega) ((hlast1 ⟨0, hn⟩).mp h)) (blk1 V c 0 ⟨0, hn⟩) (blk1 V c 1 ⟨0, hn⟩) (blk1 V c 2 ⟨0, hn⟩) (blk1 V c 3 ⟨0, hn⟩),
        left1_A_s1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scMax (Memref.isWhole_whole _) scDen (Memref.isWhole_whole _) scNum (Memref.isWhole_whole _) ((hfirst1 ⟨0, hn⟩).mpr (Nat.zero_mod _)) (fun h => (fun h => by (try dsimp only at h); omega) ((hlast1 ⟨0, hn⟩).mp h)) (blk1 V c 0 ⟨0, hn⟩) (blk1 V c 1 ⟨0, hn⟩) (blk1 V c 2 ⟨0, hn⟩) (blk1 V c 3 ⟨0, hn⟩),
        left1_A_s2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scMax (Memref.isWhole_whole _) scDen (Memref.isWhole_whole _) scNum (Memref.isWhole_whole _) ((hfirst1 ⟨0, hn⟩).mpr (Nat.zero_mod _)) (fun h => (fun h => by (try dsimp only at h); omega) ((hlast1 ⟨0, hn⟩).mp h)) (blk1 V c 0 ⟨0, hn⟩) (blk1 V c 1 ⟨0, hn⟩) (blk1 V c 2 ⟨0, hn⟩) (blk1 V c 3 ⟨0, hn⟩))
  | n + 1, hn =>
    if h0 : (n + 1) % 12 = 0 then
      if h1 : (n + 1) % 12 = 11 then
        False.elim (by omega)
      else
        (left1_A_o4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) ((hfirst1 ⟨n + 1, hn⟩).mpr h0) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩),
        left1_A_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) ((hfirst1 ⟨n + 1, hn⟩).mpr h0) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩),
        left1_A_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) ((hfirst1 ⟨n + 1, hn⟩).mpr h0) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩),
        left1_A_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) ((hfirst1 ⟨n + 1, hn⟩).mpr h0) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩))
    else
      if h1 : (n + 1) % 12 = 11 then
        (left1_C_o4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) ((hlast1 ⟨n + 1, hn⟩).mpr h1) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2,
        left1_C_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) ((hlast1 ⟨n + 1, hn⟩).mpr h1) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2,
        left1_C_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) ((hlast1 ⟨n + 1, hn⟩).mpr h1) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2,
        left1_C_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) ((hlast1 ⟨n + 1, hn⟩).mpr h1) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2)
      else
        (left1_B_o4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2,
        left1_B_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2,
        left1_B_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2,
        left1_B_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2)

theorem leftAt1_A (c : Dev nD) (t : Fin cfg1.N) (h0 : t.val % 12 = 0) (h1 : ¬t.val % 12 = 11) :
    leftAt1 V c t.val t.isLt = (left1_A_o4 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) ((hfirst1 t).mpr h0) (fun h => h1 ((hlast1 t).mp h)) (blk1 V c 0 t) (blk1 V c 1 t) (blk1 V c 2 t) (blk1 V c 3 t),
        left1_A_s0 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) ((hfirst1 t).mpr h0) (fun h => h1 ((hlast1 t).mp h)) (blk1 V c 0 t) (blk1 V c 1 t) (blk1 V c 2 t) (blk1 V c 3 t),
        left1_A_s1 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) ((hfirst1 t).mpr h0) (fun h => h1 ((hlast1 t).mp h)) (blk1 V c 0 t) (blk1 V c 1 t) (blk1 V c 2 t) (blk1 V c 3 t),
        left1_A_s2 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) ((hfirst1 t).mpr h0) (fun h => h1 ((hlast1 t).mp h)) (blk1 V c 0 t) (blk1 V c 1 t) (blk1 V c 2 t) (blk1 V c 3 t)) := by
  obtain ⟨n, hn⟩ := t
  cases n with
  | zero => exact rfl
  | succ n => exact (dif_pos h0).trans ((dif_neg h1).trans rfl)

theorem leftAt1_B (c : Dev nD) (t : Fin cfg1.N) (h0 : ¬t.val % 12 = 0) (h1 : ¬t.val % 12 = 11) :
    leftAt1 V c t.val t.isLt = (left1_B_o4 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) (fun h => h1 ((hlast1 t).mp h)) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2,
        left1_B_s0 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) (fun h => h1 ((hlast1 t).mp h)) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2,
        left1_B_s1 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) (fun h => h1 ((hlast1 t).mp h)) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2,
        left1_B_s2 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) (fun h => h1 ((hlast1 t).mp h)) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem leftAt1_C (c : Dev nD) (t : Fin cfg1.N) (h0 : ¬t.val % 12 = 0) (h1 : t.val % 12 = 11) :
    leftAt1 V c t.val t.isLt = (left1_C_o4 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) ((hlast1 t).mpr h1) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2,
        left1_C_s0 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) ((hlast1 t).mpr h1) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2,
        left1_C_s1 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) ((hlast1 t).mpr h1) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2,
        left1_C_s2 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) ((hlast1 t).mpr h1) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch carried from point to point -/

/-- What the grid is entered with: the other grid's staging buffers and the three scratch buffers at anything, the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scMax fullShare d) ∗ (∃ d, owns (c : Thread nD τ) scDen fullShare d) ∗ (∃ d, owns (c : Thread nD τ) scNum fullShare d)) ∗ (∃ r, prngReg c r)) := by
  unfold Pipeline.ΦA; rw [scopedRest1_eq]; simp only [scMax, scDen, scNum, owns_whole]; try rfl

/-- Before position `n`: at the first point what the grid is entered with; afterwards the same with each scratch
    buffer at what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scMax fullShare ((leftAt1 V c n hn).2.1) ∗ owns (c : Thread nD τ) scDen fullShare ((leftAt1 V c n hn).2.2.1) ∗ owns (c : Thread nD τ) scNum fullShare ((leftAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scMax fullShare ((leftAt1 V c n hn).2.1) ∗ owns (c : Thread nD τ) scDen fullShare ((leftAt1 V c n hn).2.2.1) ∗ owns (c : Thread nD τ) scNum fullShare ((leftAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scMax fullShare ((leftAt1 V c (n - 1) (by omega)).2.1) ∗ owns (c : Thread nD τ) scDen fullShare ((leftAt1 V c (n - 1) (by omega)).2.2.1) ∗ owns (c : Thread nD τ) scNum fullShare ((leftAt1 V c (n - 1) (by omega)).2.2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (leftAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = (leftAt1 V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-! ## The body obligation at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 144 := lt_of_lt_of_eq t.isLt (show cfg1.N = 144 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 12 = 0
  · by_cases h1 : t.val % 12 = 11
    · exfalso; omega
    · rw [Dat.leavesExact_idle (dat1 V c) 4 t (idleAt1_4 t (fun h => h1 ((hlast1 t).mp h))) (noFlush1_4 t (fun h => h1 ((hlast1 t).mp h)))]
      rw [leftAt1_A V c t h0 h1]
      unfold left1_A_s0 left1_A_s1 left1_A_s2; (try dsimp only)
      by_cases hz : t.val = 0
      ·
        rw [PhiS_castSucc V c t, PhiS_zero V c _ _ hz, PhiA1_eq]
        iintro ⟨⟨⟨R1, R2, R3, R4, R5, R6, R7, R8, R9, R10, R11, ⟨%z0, HS0⟩, ⟨%z1, HS1⟩, ⟨%z2, HS2⟩⟩, Hg⟩, Ho, ⟨%d0, H0⟩, ⟨%d1, H1⟩, ⟨%d2, H2⟩, ⟨%d3, H3⟩, ⟨%d4, H4⟩⟩
        iapply ((attnRunA (F := F) c (grid1.coords t) _ _ _ _ _ _ _ _ _ _ _ _ _ _ _ _ ((hfirst1 t).mpr h0) (fun h => h1 ((hlast1 t).mp h)) (blk1 V c 0 t) (blk1 V c 1 t) (blk1 V c 2 t) (blk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [R1 R2 R3 R4 R5 R6 R7 R8 R9 R10 R11 HS0 HS1 HS2 Hg]
        · isplitl [R1 R2 R3 R4 R5 R6 R7 R8 R9 R10 R11 HS0 HS1 HS2]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [HS0]
            · unfold owns; iexists _; isplitr
              swap; · iexact HS0
              ipureintro; exact View.read_writes_of_cover _ _ _ _ _ (cover1_A_s0 c _ _ _ _ _ _ _ _ _ _ _ _ _ _ _ _ _ _ _ _ _ _ _)
            isplitl [HS1]
            · unfold owns; iexists _; isplitr
              swap; · iexact HS1
              ipureintro; exact View.read_writes_of_cover _ _ _ _ _ (cover1_A_s1 c _ _ _ _ _ _ _ _ _ _ _ _ _ _ _ _ _ _ _ _ _ _ _)
            unfold owns; iexists _; isplitr
            swap; · iexact HS2
            ipureintro; exact View.read_writes_of_cover _ _ _ _ _ (cover1_A_s2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      ·
        rw [PhiS_castSucc V c t, PhiS_pos V c _ _ hz]
        iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
        iapply ((attnRunA (F := F) c (grid1.coords t) _ _ _ _ _ _ _ _ _ _ _ _ _ _ _ _ ((hfirst1 t).mpr h0) (fun h => h1 ((hlast1 t).mp h)) (blk1 V c 0 t) (blk1 V c 1 t) (blk1 V c 2 t) (blk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [R1 R2 R3 R4 R5 R6 R7 R8 R9 R10 R11 HS0 HS1 HS2 Hg]
        · isplitl [R1 R2 R3 R4 R5 R6 R7 R8 R9 R10 R11 HS0 HS1 HS2]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [HS0]
            · unfold owns; iexists _; isplitr
              swap; · iexact HS0
              ipureintro; exact View.read_writes_of_cover _ _ _ _ _ (cover1_A_s0 c _ _ _ _ _ _ _ _ _ _ _ _ _ _ _ _ _ _ _ _ _ _ _)
            isplitl [HS1]
            · unfold owns; iexists _; isplitr
              swap; · iexact HS1
              ipureintro; exact View.read_writes_of_cover _ _ _ _ _ (cover1_A_s1 c _ _ _ _ _ _ _ _ _ _ _ _ _ _ _ _ _ _ _ _ _ _ _)
            unfold owns; iexists _; isplitr
            swap; · iexact HS2
            ipureintro; exact View.read_writes_of_cover _ _ _ _ _ (cover1_A_s2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 12 = 11
    · rw [show (dat1 V c).leavesExact 4 t = owns (c : Thread nD τ) (ms1_4 t) fullShare ((dat1 V c).after 4 t) from by
        unfold Dat.leavesExact; rw [liveAt1_4 t ((hlast1 t).mpr h1)], after1_4]
      rw [leftAt1_C V c t h0 h1]
      unfold left1_C_o4 left1_C_s0 left1_C_s1 left1_C_s2; (try dsimp only)
      by_cases hz : t.val = 0
      · exfalso; omega
      ·
        rw [PhiS_castSucc V c t, PhiS_pos V c _ _ hz]
        iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
        iapply ((attnRunC (F := F) c (grid1.coords t) _ _ _ _ _ _ _ _ _ _ _ _ _ _ _ _ (fun h => h0 ((hfirst1 t).mp h)) ((hlast1 t).mpr h1) (blk1 V c 0 t) (blk1 V c 1 t) (blk1 V c 2 t) (blk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [R1 R2 R3 R4 R5 R6 R7 R8 R9 R10 R11 HS0 HS1 HS2 Hg]
        · isplitl [R1 R2 R3 R4 R5 R6 R7 R8 R9 R10 R11 HS0 HS1 HS2]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [HS0]
            · unfold owns; iexists _; isplitr
              swap; · iexact HS0
              ipureintro; exact View.read_writes_of_cover _ _ _ _ _ (cover1_C_s0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (cover1_C_s1 c _ _ _ _ _ _ _ _ _ _ _ _ _ _ _ _ _ _ _ _ _ _ _ _ _ _)
            unfold owns; iexists _; isplitr
            swap; · iexact HS2
            ipureintro; exact View.read_writes_of_cover _ _ _ _ _ (cover1_C_s2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_o4 c _ _ _ _ _ _ _ _ _ _ _ _ _ _ _ _ _ _ _ _ _ _ _ _ _ _)
    · rw [Dat.leavesExact_idle (dat1 V c) 4 t (idleAt1_4 t (fun h => h1 ((hlast1 t).mp h))) (noFlush1_4 t (fun h => h1 ((hlast1 t).mp h)))]
      rw [leftAt1_B V c t h0 h1]
      unfold left1_B_s0 left1_B_s1 left1_B_s2; (try dsimp only)
      by_cases hz : t.val = 0
      · exfalso; omega
      ·
        rw [PhiS_castSucc V c t, PhiS_pos V c _ _ hz]
        iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
        iapply ((attnRunB (F := F) c (grid1.coords t) _ _ _ _ _ _ _ _ _ _ _ _ _ _ _ _ (fun h => h0 ((hfirst1 t).mp h)) (fun h => h1 ((hlast1 t).mp h)) (blk1 V c 0 t) (blk1 V c 1 t) (blk1 V c 2 t) (blk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [R1 R2 R3 R4 R5 R6 R7 R8 R9 R10 R11 HS0 HS1 HS2 Hg]
        · isplitl [R1 R2 R3 R4 R5 R6 R7 R8 R9 R10 R11 HS0 HS1 HS2]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [HS0]
            · unfold owns; iexists _; isplitr
              swap; · iexact HS0
              ipureintro; exact View.read_writes_of_cover _ _ _ _ _ (cover1_B_s0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (cover1_B_s1 c _ _ _ _ _ _ _ _ _ _ _ _ _ _ _ _ _ _ _ _ _ _ _ _ _ _)
            unfold owns; iexists _; isplitr
            swap; · iexact HS2
            ipureintro; exact View.read_writes_of_cover _ _ _ _ _ (cover1_B_s2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

theorem body_obligation1 (c : Dev nD) : BodyObligation (dat1 (F := F) V c) (defs₀ (F := F)) Variants.none () Set.univ := fun t => by
  rw [bigSep_W1, bigSep_W1]
  exact sound_body1 V c t

/-- What the grid is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives that back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R1, R2, R3, R4, R5, R6, R7, R8, R9, R10, R11, HS0, HS1, HS2⟩, Hg⟩
  isplitl [R1 R2 R3 R4 R5 R6 R7 R8 R9 R10 R11 HS0 HS1 HS2]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 144 := N_1; omega)

end Entry

end Cert.Kernel.Hand

end
-- ==== Proof.KbMain.lean ====
/-
  The whole program: @main is a host stretch (two transposes of the attention vectors), the projection grid,
  a host stretch (the transpose of s2 to a row), the attention grid. The buffer contents at each boundary are
  a fold from the launch memory: a host stretch applies its operations, a grid leaves each of its arrays at
  what its write-backs fold to and every other buffer alone. Each grid enters the run as a record around the
  thread state "every unscoped buffer at the boundary's contents, the generator register at some state,
  nothing owed"; the attention grid's invariant is the one carrying the scratch. The run ends with every
  unscoped buffer at the last boundary's contents, from which the argument arrays walk back to the launch
  memory unchanged, and the result array is what the attention grid's write-backs fold to.
-/
import proofs.«114251_j82927228552027_2_alg».proof.Proof.KbData0
import proofs.«114251_j82927228552027_2_alg».proof.Proof.KbData1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev B0 : Dev nD → Valuation τ sig (Elt F) := fun c b => (s₀ m ρ).mem ((c : Dev nD), b)
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## The argument arrays walk back to the launch memory -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := (B4_arr m ρ c 2).trans (((dat1 (E3 m ρ) c).arrAt_in 2 rfl _).trans (A_eq1 (E3 m ρ) c 2))
    _ = B2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg2) := (B2_arr m ρ c 1).trans (((dat0 (E1 m ρ) c).arrAt_in 1 rfl _).trans (A_eq0 (E1 m ρ) c 1))
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The result array at the end is what the attention grid's write-backs fold to. -/
theorem B4_result (c : Dev nD) : B4 m ρ c (Proc.devRef .tc main_v4) = (dat1 (E3 m ρ) c).arrAt 4 cfg1.N :=
  B4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev Lz : GSem nD τ sig → Finset Unit := fun _ => ∅
abbrev lvz : GSem nD τ sig → Unit → ℕ := fun _ _ => 0
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B4 m ρ c) ∗ ∃ r, prngReg c r)

/-! ## The two grids as records -/

set_option backward.isDefEq.respectTransparency.types false in
def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lz lvz 1 fun _ _ => rfl
  pre c := iprop(StableHlo.held (c : Thread nD τ) (Pipeline.ucRefs τ sig) (B3 m ρ c) ∗ Rd c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : iprop(Pipeline.scopedRest (Ix := Unit) (Name := ℕ) (U := UR sig nD τ) (Lvl := ℕ) (Val := Elt F) spec1 c ∗ ∃ r, prngReg c r)
        ⊢ ((dat1 (E3 m ρ) c).Φ 0 : sProp 𝕄) := hin1 (E3 m ρ) c
    rw [show (pdats m ρ 1 c).Φ 0 = (dat1 (E3 m ρ) c).Φ 0 from rfl]
    iintro ⟨Hp, -, Hr⟩
    iapply key
    isplitl [Hr]; · iexact Hr
    iexact Hp
  hout c := by
    have key : ((dat1 (E3 m ρ) c).Φ (Fin.last cfg1.N) : sProp 𝕄)
        ⊢ iprop(Pipeline.scopedRest (Ix := Unit) (Name := ℕ) (U := UR sig nD τ) (Lvl := ℕ) (Val := Elt F) spec1 c ∗ ∃ r, prngReg c r) := hout1 (E3 m ρ) c
    rw [Pipeline.ownSems0_none, show (pdats m ρ 1 c).Φ (Fin.last _) = (dat1 (E3 m ρ) c).Φ (Fin.last cfg1.N) from rfl]
    iintro H
    ihave H' := key $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev items : List (Pipeline.Seg (pcfgs (F := F)) adm (pdats m ρ) () defs₀ 𝒱₀ Lz lvz) :=
  [ .host (hseg hostOps0 hostOps0_sub hostOps0_fresh' (B0 m ρ)),
    .region (reg0 m ρ),
    .host (hseg hostOps1 hostOps1_sub hostOps1_fresh' (B2 m ρ)),
    .region (reg1 m ρ) ]
theorem main_run (c : Dev nD) : main (F := F) c = Pipeline.Seg.run (items m ρ) := (main_chain c).trans (by chain_rfl)

set_option backward.isDefEq.respectTransparency.types false in
/-- Every weakly fair execution of @main terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ Lz lvz m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c)) (Tₙ := Tend m ρ)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

/-- The same run, naming the result array as well. -/
theorem run_result : θ_run defs (onTc (τ := τ) (main (F := F))) ⟨m, fun _ => 0, ρ⟩ (fun r => ∀ c : Dev nD,
      r.2.mem ((c.tc : Thread nD τ).loc main_v4) = (dat1 (E3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (B4_result m ρ c),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

end Cert.Kernel.Hand

end
-- ==== Proof.KiRuns.lean ====
/-
  What the two kernels' runs share. The program is a graph-attention layer in two grids: a projection
  (h = x·W with the two attention scalars s1 = h·a1, s2 = h·a2 as lane sums, 12 row tiles) and a streaming
  masked softmax (12 row tiles × 12 column tiles, the running maximum, denominator and numerator kept in
  three scratch buffers from one column tile to the next). Here: each window's block at a grid point read off
  the array the grid finds on entry; that an input's staging buffer holds that block at every point; the
  second grid's two branch conditions (first column tile, last column tile) in closed form; where its output
  window is idle; and the scratch buffers as memrefs.
-/
import proofs.«114251_j82927228552027_2_alg».proof.Proof.Gen.KernelIdeal.Launch
import proofs.«114251_j82927228552027_2_alg».proof.Proof.Gen.KernelIdeal.Skeleton
import proofs.«114251_j82927228552027_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Entry
-- the core's buffer contents when a grid is entered
variable (V : (c : Dev nD) → (b : Ref sig .tc) → Buf (Elt F) ((c : Thread nD τ).loc b))

/-! ## The projection grid: blocks -/

/-- Window `w`'s block at row tile `t` of the projection grid, read off its array as found on entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-! ## The attention grid: blocks -/

/-- Window `w`'s block at point `t` (row tile, column tile) of the attention grid, read off its array as found on entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

end Entry

/-! ## The attention body's two branches, decided over the grid -/

/-- "This is the row's first column tile": the reset of the running maximum, denominator and numerator. -/
abbrev first1 (i : grid1.Coords) : Prop := (Scalar.cmpi .ne (Scalar.extui (Scalar.cmpi .eq (BitVec.ofNat 32 (i 1).val) 0#32)) 0#32) = 1#1
theorem hfirst1 : ∀ t : Fin cfg1.N, first1 (grid1.coords t) ↔ t.val % 12 = 0 :=
  (by decide +kernel : ∀ t : Fin grid1.N, first1 (grid1.coords t) ↔ t.val % 12 = 0)
/-- "This is the row's last column tile": the division and the final nonlinearity, stored to the output. -/
abbrev last1 (i : grid1.Coords) : Prop := k1_cond2 i = 1#1
theorem hlast1 : ∀ t : Fin cfg1.N, last1 (grid1.coords t) ↔ t.val % 12 = 11 :=
  (by decide +kernel : ∀ t : Fin grid1.N, last1 (grid1.coords t) ↔ t.val % 12 = 11)

/-! ## Where the attention grid's windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a row's last column tile nothing is stored into the output window, and it is not written back. -/
theorem idleAt1_4 : ∀ t : Fin cfg1.N, ¬last1 (grid1.coords t) → cfg1.idle 4 (grid1.coords t) = true := by decide +kernel
theorem noFlush1_4 : ∀ t : Fin cfg1.N, ¬last1 (grid1.coords t) → (cfg1.win 4).flush t = false := by decide +kernel
theorem liveAt1_4 : ∀ t : Fin cfg1.N, last1 (grid1.coords t) → cfg1.idle 4 (grid1.coords t) = false := by decide +kernel

/-! ## Staging and scratch memrefs -/

abbrev VO1_4 : View sig .tc .vmem S1024x256 .f32 := (Memref.whole cc1_stg4_0 : Memref sig .tc .vmem S1024x256 .f32).view
/-- The three scratch buffers: the running maximum, the running denominator, the running numerator. -/
abbrev scMax : Memref sig .tc .vmem S1024x1 .f32 := Memref.whole cc1_scratch0
abbrev scDen : Memref sig .tc .vmem S1024x1 .f32 := Memref.whole cc1_scratch1
abbrev scNum : Memref sig .tc .vmem S1024x256 .f32 := Memref.whole cc1_scratch2
abbrev VMax : View sig .tc .vmem S1024x1 .f32 := scMax.view
abbrev VDen : View sig .tc .vmem S1024x1 .f32 := scDen.view
abbrev VNum : View sig .tc .vmem S1024x256 .f32 := scNum.view

end Cert.KernelIdeal.Hand

end
-- ==== Proof.KiRun0.lean ====
/-
  The projection body run once on whole staging memrefs: the four inputs at read contents, the three outputs
  (h in bf16, s1, s2) at anything; it ends with the inputs as they were and each output's memref with the
  body's stores written, as a list of pieces the run finds.
-/
import proofs.«114251_j82927228552027_2_alg».proof.Proof.KiRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def projRun (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole)
    (x0 : Vec F S1024x512 .f32) (x1 : Vec F S512x256 .f32) (x2 : Vec F S1x256 .f32) (x3 : Vec F S1x256 .f32) :
    Σ' (L4 : List (View.Piece (Elt F) S1024x256 .bf16)) (L5 : List (View.Piece (Elt F) S1024x1 .f32)), { L6 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc0__proj_kernel i arg1 harg1 arg2 harg2 arg3 harg3 arg4 harg4 arg5 harg5 arg6 harg6 arg7 harg7) K } := by
  refine ⟨?_, ?_, ?_, fun E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

end Cert.KernelIdeal.Hand

end
-- ==== Proof.KiData0.lean ====
/-
  The projection grid's proof data, at the buffer contents the grid is entered from: what each window's
  staging buffer holds after the body at a row tile (an input its block; the three outputs the body's stores
  read back, which cover each buffer), and the body's obligation at every row tile.
-/
import proofs.«114251_j82927228552027_2_alg».proof.Proof.KiRun0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Staging memrefs at a row tile -/
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)

abbrev VO0_4 : View sig .tc .vmem S1024x256 .bf16 := (Memref.whole cc0_stg4_0 : Memref sig .tc .vmem S1024x256 .bf16).view
abbrev VO0_5 : View sig .tc .vmem S1024x1 .f32 := (Memref.whole cc0_stg5_0 : Memref sig .tc .vmem S1024x1 .f32).view
abbrev VO0_6 : View sig .tc .vmem S1024x1 .f32 := (Memref.whole cc0_stg6_0 : Memref sig .tc .vmem S1024x1 .f32).view

/-! ## The stores cover each output buffer -/

theorem cover0_4 (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) (y : S1024x256.Idx) :
    ∃ pc ∈ (projRun (F := F) c i arg1 harg1 arg2 harg2 arg3 harg3 arg4 harg4 arg5 harg5 arg6 harg6 arg7 harg7 x0 x1 x2 x3).1, y ∈ pc.1.set :=
  View.cover_of_tiledL (projRun (F := F) c i arg1 harg1 arg2 harg2 arg3 harg3 arg4 harg4 arg5 harg5 arg6 harg6 arg7 harg7 x0 x1 x2 x3).1 S1024x256.size (by sl_kernel_rfl) y
theorem cover0_5 (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) (y : S1024x1.Idx) :
    ∃ pc ∈ (projRun (F := F) c i arg1 harg1 arg2 harg2 arg3 harg3 arg4 harg4 arg5 harg5 arg6 harg6 arg7 harg7 x0 x1 x2 x3).2.1, y ∈ pc.1.set :=
  View.cover_of_tiledL (projRun (F := F) c i arg1 harg1 arg2 harg2 arg3 harg3 arg4 harg4 arg5 harg5 arg6 harg6 arg7 harg7 x0 x1 x2 x3).2.1 S1024x1.size (by sl_kernel_rfl) y
theorem cover0_6 (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) (y : S1024x1.Idx) :
    ∃ pc ∈ (projRun (F := F) c i arg1 harg1 arg2 harg2 arg3 harg3 arg4 harg4 arg5 harg5 arg6 harg6 arg7 harg7 x0 x1 x2 x3).2.2.1, y ∈ pc.1.set :=
  View.cover_of_tiledL (projRun (F := F) c i arg1 harg1 arg2 harg2 arg3 harg3 arg4 harg4 arg5 harg5 arg6 harg6 arg7 harg7 x0 x1 x2 x3).2.2.1 S1024x1.size (by sl_kernel_rfl) y

/-- What the body leaves in the h window's buffer (bf16): its stores read back. -/
def out0_4 (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) : Vec F S1024x256 .bf16 :=
  VO0_4.read (Elt F) (VO0_4.writes (Elt F) VO0_4.junk (projRun (F := F) c i arg1 harg1 arg2 harg2 arg3 harg3 arg4 harg4 arg5 harg5 arg6 harg6 arg7 harg7 x0 x1 x2 x3).1)
/-- What the body leaves in the s1 window's buffer. -/
def out0_5 (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) : Vec F S1024x1 .f32 :=
  VO0_5.read (Elt F) (VO0_5.writes (Elt F) VO0_5.junk (projRun (F := F) c i arg1 harg1 arg2 harg2 arg3 harg3 arg4 harg4 arg5 harg5 arg6 harg6 arg7 harg7 x0 x1 x2 x3).2.1)
/-- What the body leaves in the s2 window's buffer. -/
def out0_6 (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) : Vec F S1024x1 .f32 :=
  VO0_6.read (Elt F) (VO0_6.writes (Elt F) VO0_6.junk (projRun (F := F) c i arg1 harg1 arg2 harg2 arg3 harg3 arg4 harg4 arg5 harg5 arg6 harg6 arg7 harg7 x0 x1 x2 x3).2.2.1)

section Entry
variable (V : (c : Dev nD) → (b : Ref sig .tc) → Buf (Elt F) ((c : Thread nD τ).loc b))

/-- The projection grid's proof data on core `c`: arrays as found on entry; after the body each input's buffer at
    its block, each output's at the body's stores over the input blocks; the invariant the scoped rest and the
    generator register, untouched; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => out0_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t)
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t)
    | ⟨6, _⟩ => out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = out0_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t) := by dsimp only [dat0]
theorem after0_5 (c : Dev nD) (t : Fin cfg0.N) : (dat0 V c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t) := by dsimp only [dat0]
theorem after0_6 (c : Dev nD) (t : Fin cfg0.N) : (dat0 V c).after 6 t = out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d

/-! ## The body obligation at a row tile -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  unfold out0_4 out0_5 out0_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((projRun (F := F) c (grid0.coords t) _ _ _ _ _ _ _ _ _ _ _ _ _ _ (blk0 V c 0 t) (blk0 V c 1 t) (blk0 V c 2 t) (blk0 V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_4 c _ _ _ _ _ _ _ _ _ _ _ _ _ _ _ _ _ _ _)
  isplitl [H5]
  · unfold owns; iexists _; isplitr
    swap; · iexact H5
    ipureintro; exact View.read_writes_of_cover _ _ _ _ _ (cover0_5 c _ _ _ _ _ _ _ _ _ _ _ _ _ _ _ _ _ _ _)
  unfold owns; iexists _; isplitr
  swap; · iexact H6
  ipureintro; exact View.read_writes_of_cover _ _ _ _ _ (cover0_6 c _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Entry

end Cert.KernelIdeal.Hand

end
-- ==== Proof.KiRun1A.lean ====
/-
  The attention body run once on whole memrefs at a row's FIRST column tile (the reset taken, the finish not): the scratch buffers at anything; the output window's buffer handed back untouched. It ends with the inputs as they were and every buffer it
  stored into with those stores written, as lists of pieces the run finds.
-/
import proofs.«114251_j82927228552027_2_alg».proof.Proof.KiRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
noncomputable def attnRunA (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i)
    (x0 : Vec F S1024x1 .f32) (x1 : Vec F S1x1024 .f32) (x2 : Vec F S1024x1024 .i32) (x3 : Vec F S12288x256 .bf16) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KiRun1B.lean ====
/-
  The attention body run once on whole memrefs at a MIDDLE column tile (neither the reset nor the finish): the scratch buffers at what the tile before left; the output window's buffer handed back untouched. It ends with the inputs as they were and every buffer it
  stored into with those stores written, as lists of pieces the run finds.
-/
import proofs.«114251_j82927228552027_2_alg».proof.Proof.KiRun1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
noncomputable def attnRunB (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i)
    (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KiRun1C.lean ====
/-
  The attention body run once on whole memrefs at a row's LAST column tile (the finish taken, the reset not): the scratch buffers at what the tile before left; the output window's buffer at anything, left with the stored result. It ends with the inputs as they were and every buffer it
  stored into with those stores written, as lists of pieces the run finds.
-/
import proofs.«114251_j82927228552027_2_alg».proof.Proof.KiRun1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
noncomputable def attnRunC (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i)
    (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KiData1.lean ====
/-
  The attention grid's proof data, at the buffer contents the grid is entered from. Per case of the body's two
  branches, what its stores leave in the output window's buffer and in the three scratch buffers (running
  maximum, denominator, numerator), which the stores cover; then, point by point along the grid, what those
  four buffers hold after the body (a recursion: a middle or last column tile starts from what the tile before
  left in the scratch); the grid's invariant, which carries the three scratch buffers at exactly those
  contents from one point to the next; and the body's obligation at every point.
-/
import proofs.«114251_j82927228552027_2_alg».proof.Proof.KiRun1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Staging memrefs at a point -/
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)

/-! ## Per case: the stores cover each buffer they are made into, and what they leave -/

theorem cover1_A_s0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) (y : S1024x1.Idx) :
    ∃ pc ∈ (attnRunA (F := F) c i arg2 harg2 arg3 harg3 arg4 harg4 arg5 harg5 arg6 harg6 arg7 harg7 arg8 harg8 arg9 harg9 hc0 hc1 x0 x1 x2 x3).2.1, y ∈ pc.1.set :=
  View.cover_of_tiledL (attnRunA (F := F) c i arg2 harg2 arg3 harg3 arg4 harg4 arg5 harg5 arg6 harg6 arg7 harg7 arg8 harg8 arg9 harg9 hc0 hc1 x0 x1 x2 x3).2.1 S1024x1.size (by sl_kernel_rfl) y
theorem cover1_A_s1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) (y : S1024x1.Idx) :
    ∃ pc ∈ (attnRunA (F := F) c i arg2 harg2 arg3 harg3 arg4 harg4 arg5 harg5 arg6 harg6 arg7 harg7 arg8 harg8 arg9 harg9 hc0 hc1 x0 x1 x2 x3).2.2.1, y ∈ pc.1.set :=
  View.cover_of_tiledL (attnRunA (F := F) c i arg2 harg2 arg3 harg3 arg4 harg4 arg5 harg5 arg6 harg6 arg7 harg7 arg8 harg8 arg9 harg9 hc0 hc1 x0 x1 x2 x3).2.2.1 S1024x1.size (by sl_kernel_rfl) y
theorem cover1_A_s2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) (y : S1024x256.Idx) :
    ∃ pc ∈ (attnRunA (F := F) c i arg2 harg2 arg3 harg3 arg4 harg4 arg5 harg5 arg6 harg6 arg7 harg7 arg8 harg8 arg9 harg9 hc0 hc1 x0 x1 x2 x3).2.2.2.1, y ∈ pc.1.set :=
  View.cover_of_tiledL (attnRunA (F := F) c i arg2 harg2 arg3 harg3 arg4 harg4 arg5 harg5 arg6 harg6 arg7 harg7 arg8 harg8 arg9 harg9 hc0 hc1 x0 x1 x2 x3).2.2.2.1 S1024x256.size (by sl_kernel_rfl) y
def left1_A_o4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) : Vec F S1024x256 .f32 :=
  VO1_4.read (Elt F) (VO1_4.writes (Elt F) VO1_4.junk (attnRunA (F := F) c i arg2 harg2 arg3 harg3 arg4 harg4 arg5 harg5 arg6 harg6 arg7 harg7 arg8 harg8 arg9 harg9 hc0 hc1 x0 x1 x2 x3).1)
def left1_A_s0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) : Vec F S1024x1 .f32 :=
  VMax.read (Elt F) (VMax.writes (Elt F) VMax.junk (attnRunA (F := F) c i arg2 harg2 arg3 harg3 arg4 harg4 arg5 harg5 arg6 harg6 arg7 harg7 arg8 harg8 arg9 harg9 hc0 hc1 x0 x1 x2 x3).2.1)
def left1_A_s1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) : Vec F S1024x1 .f32 :=
  VDen.read (Elt F) (VDen.writes (Elt F) VDen.junk (attnRunA (F := F) c i arg2 harg2 arg3 harg3 arg4 harg4 arg5 harg5 arg6 harg6 arg7 harg7 arg8 harg8 arg9 harg9 hc0 hc1 x0 x1 x2 x3).2.2.1)
def left1_A_s2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) : Vec F S1024x256 .f32 :=
  VNum.read (Elt F) (VNum.writes (Elt F) VNum.junk (attnRunA (F := F) c i arg2 harg2 arg3 harg3 arg4 harg4 arg5 harg5 arg6 harg6 arg7 harg7 arg8 harg8 arg9 harg9 hc0 hc1 x0 x1 x2 x3).2.2.2.1)
theorem cover1_B_s0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x1.Idx) :
    ∃ pc ∈ (attnRunB (F := F) c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (attnRunB (F := F) c i arg2 harg2 arg3 harg3 arg4 harg4 arg5 harg5 arg6 harg6 arg7 harg7 arg8 harg8 arg9 harg9 hc0 hc1 x0 x1 x2 x3 xs0 xs1 xs2).2.1 S1024x1.size (by sl_kernel_rfl) y
theorem cover1_B_s1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x1.Idx) :
    ∃ pc ∈ (attnRunB (F := F) c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (attnRunB (F := F) c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y
theorem cover1_B_s2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x256.Idx) :
    ∃ pc ∈ (attnRunB (F := F) c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (attnRunB (F := F) c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y
def left1_B_o4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x256 .f32 :=
  VO1_4.read (Elt F) (VO1_4.writes (Elt F) VO1_4.junk (attnRunB (F := F) c i arg2 harg2 arg3 harg3 arg4 harg4 arg5 harg5 arg6 harg6 arg7 harg7 arg8 harg8 arg9 harg9 hc0 hc1 x0 x1 x2 x3 xs0 xs1 xs2).1)
def left1_B_s0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x1 .f32 :=
  VMax.read (Elt F) (VMax.writes (Elt F) VMax.junk (attnRunB (F := F) c i arg2 harg2 arg3 harg3 arg4 harg4 arg5 harg5 arg6 harg6 arg7 harg7 arg8 harg8 arg9 harg9 hc0 hc1 x0 x1 x2 x3 xs0 xs1 xs2).2.1)
def left1_B_s1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x1 .f32 :=
  VDen.read (Elt F) (VDen.writes (Elt F) VDen.junk (attnRunB (F := F) c i arg2 harg2 arg3 harg3 arg4 harg4 arg5 harg5 arg6 harg6 arg7 harg7 arg8 harg8 arg9 harg9 hc0 hc1 x0 x1 x2 x3 xs0 xs1 xs2).2.2.1)
def left1_B_s2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x256 .f32 :=
  VNum.read (Elt F) (VNum.writes (Elt F) VNum.junk (attnRunB (F := F) c i arg2 harg2 arg3 harg3 arg4 harg4 arg5 harg5 arg6 harg6 arg7 harg7 arg8 harg8 arg9 harg9 hc0 hc1 x0 x1 x2 x3 xs0 xs1 xs2).2.2.2.1)
theorem cover1_C_o4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x256.Idx) :
    ∃ pc ∈ (attnRunC (F := F) c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (attnRunC (F := F) c i arg2 harg2 arg3 harg3 arg4 harg4 arg5 harg5 arg6 harg6 arg7 harg7 arg8 harg8 arg9 harg9 hc0 hc1 x0 x1 x2 x3 xs0 xs1 xs2).1 S1024x256.size (by sl_kernel_rfl) y
theorem cover1_C_s0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x1.Idx) :
    ∃ pc ∈ (attnRunC (F := F) c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (attnRunC (F := F) c i arg2 harg2 arg3 harg3 arg4 harg4 arg5 harg5 arg6 harg6 arg7 harg7 arg8 harg8 arg9 harg9 hc0 hc1 x0 x1 x2 x3 xs0 xs1 xs2).2.1 S1024x1.size (by sl_kernel_rfl) y
theorem cover1_C_s1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x1.Idx) :
    ∃ pc ∈ (attnRunC (F := F) c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (attnRunC (F := F) c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y
theorem cover1_C_s2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) (y : S1024x256.Idx) :
    ∃ pc ∈ (attnRunC (F := F) c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (attnRunC (F := F) c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y
def left1_C_o4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x256 .f32 :=
  VO1_4.read (Elt F) (VO1_4.writes (Elt F) VO1_4.junk (attnRunC (F := F) c i arg2 harg2 arg3 harg3 arg4 harg4 arg5 harg5 arg6 harg6 arg7 harg7 arg8 harg8 arg9 harg9 hc0 hc1 x0 x1 x2 x3 xs0 xs1 xs2).1)
def left1_C_s0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x1 .f32 :=
  VMax.read (Elt F) (VMax.writes (Elt F) VMax.junk (attnRunC (F := F) c i arg2 harg2 arg3 harg3 arg4 harg4 arg5 harg5 arg6 harg6 arg7 harg7 arg8 harg8 arg9 harg9 hc0 hc1 x0 x1 x2 x3 xs0 xs1 xs2).2.1)
def left1_C_s1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x1 .f32 :=
  VDen.read (Elt F) (VDen.writes (Elt F) VDen.junk (attnRunC (F := F) c i arg2 harg2 arg3 harg3 arg4 harg4 arg5 harg5 arg6 harg6 arg7 harg7 arg8 harg8 arg9 harg9 hc0 hc1 x0 x1 x2 x3 xs0 xs1 xs2).2.2.1)
def left1_C_s2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) : Vec F S1024x256 .f32 :=
  VNum.read (Elt F) (VNum.writes (Elt F) VNum.junk (attnRunC (F := F) c i arg2 harg2 arg3 harg3 arg4 harg4 arg5 harg5 arg6 harg6 arg7 harg7 arg8 harg8 arg9 harg9 hc0 hc1 x0 x1 x2 x3 xs0 xs1 xs2).2.2.2.1)

section Entry
variable (V : (c : Dev nD) → (b : Ref sig .tc) → Buf (Elt F) ((c : Thread nD τ).loc b))

/-! ## Point by point -/

/-- What the output window's buffer and the three scratch buffers hold after the body at position `n` of the grid
    (row tiles outermost, column tiles innermost): the case the position selects, run on the point's blocks,
    a middle or last column tile over what position `n - 1` left in the scratch. -/
def leftAt1 (c : Dev nD) : (n : ℕ) → n < cfg1.N → Vec F S1024x256 .f32 × Vec F S1024x1 .f32 × Vec F S1024x1 .f32 × Vec F S1024x256 .f32
  | 0, hn => (left1_A_o4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scMax (Memref.isWhole_whole _) scDen (Memref.isWhole_whole _) scNum (Memref.isWhole_whole _) ((hfirst1 ⟨0, hn⟩).mpr (Nat.zero_mod _)) (fun h => (fun h => by (try dsimp only at h); omega) ((hlast1 ⟨0, hn⟩).mp h)) (blk1 V c 0 ⟨0, hn⟩) (blk1 V c 1 ⟨0, hn⟩) (blk1 V c 2 ⟨0, hn⟩) (blk1 V c 3 ⟨0, hn⟩),
        left1_A_s0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scMax (Memref.isWhole_whole _) scDen (Memref.isWhole_whole _) scNum (Memref.isWhole_whole _) ((hfirst1 ⟨0, hn⟩).mpr (Nat.zero_mod _)) (fun h => (fun h => by (try dsimp only at h); omega) ((hlast1 ⟨0, hn⟩).mp h)) (blk1 V c 0 ⟨0, hn⟩) (blk1 V c 1 ⟨0, hn⟩) (blk1 V c 2 ⟨0, hn⟩) (blk1 V c 3 ⟨0, hn⟩),
        left1_A_s1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scMax (Memref.isWhole_whole _) scDen (Memref.isWhole_whole _) scNum (Memref.isWhole_whole _) ((hfirst1 ⟨0, hn⟩).mpr (Nat.zero_mod _)) (fun h => (fun h => by (try dsimp only at h); omega) ((hlast1 ⟨0, hn⟩).mp h)) (blk1 V c 0 ⟨0, hn⟩) (blk1 V c 1 ⟨0, hn⟩) (blk1 V c 2 ⟨0, hn⟩) (blk1 V c 3 ⟨0, hn⟩),
        left1_A_s2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scMax (Memref.isWhole_whole _) scDen (Memref.isWhole_whole _) scNum (Memref.isWhole_whole _) ((hfirst1 ⟨0, hn⟩).mpr (Nat.zero_mod _)) (fun h => (fun h => by (try dsimp only at h); omega) ((hlast1 ⟨0, hn⟩).mp h)) (blk1 V c 0 ⟨0, hn⟩) (blk1 V c 1 ⟨0, hn⟩) (blk1 V c 2 ⟨0, hn⟩) (blk1 V c 3 ⟨0, hn⟩))
  | n + 1, hn =>
    if h0 : (n + 1) % 12 = 0 then
      if h1 : (n + 1) % 12 = 11 then
        False.elim (by omega)
      else
        (left1_A_o4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) ((hfirst1 ⟨n + 1, hn⟩).mpr h0) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩),
        left1_A_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) ((hfirst1 ⟨n + 1, hn⟩).mpr h0) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩),
        left1_A_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) ((hfirst1 ⟨n + 1, hn⟩).mpr h0) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩),
        left1_A_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) ((hfirst1 ⟨n + 1, hn⟩).mpr h0) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩))
    else
      if h1 : (n + 1) % 12 = 11 then
        (left1_C_o4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) ((hlast1 ⟨n + 1, hn⟩).mpr h1) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2,
        left1_C_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) ((hlast1 ⟨n + 1, hn⟩).mpr h1) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2,
        left1_C_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) ((hlast1 ⟨n + 1, hn⟩).mpr h1) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2,
        left1_C_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) ((hlast1 ⟨n + 1, hn⟩).mpr h1) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2)
      else
        (left1_B_o4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2,
        left1_B_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2,
        left1_B_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2,
        left1_B_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩) (leftAt1 c n (Nat.lt_of_succ_lt hn)).2.1 (leftAt1 c n (Nat.lt_of_succ_lt hn)).2.2.1 (leftAt1 c n (Nat.lt_of_succ_lt hn)).2.2.2)

theorem leftAt1_A (c : Dev nD) (t : Fin cfg1.N) (h0 : t.val % 12 = 0) (h1 : ¬t.val % 12 = 11) :
    leftAt1 V c t.val t.isLt = (left1_A_o4 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) ((hfirst1 t).mpr h0) (fun h => h1 ((hlast1 t).mp h)) (blk1 V c 0 t) (blk1 V c 1 t) (blk1 V c 2 t) (blk1 V c 3 t),
        left1_A_s0 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) ((hfirst1 t).mpr h0) (fun h => h1 ((hlast1 t).mp h)) (blk1 V c 0 t) (blk1 V c 1 t) (blk1 V c 2 t) (blk1 V c 3 t),
        left1_A_s1 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) ((hfirst1 t).mpr h0) (fun h => h1 ((hlast1 t).mp h)) (blk1 V c 0 t) (blk1 V c 1 t) (blk1 V c 2 t) (blk1 V c 3 t),
        left1_A_s2 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) ((hfirst1 t).mpr h0) (fun h => h1 ((hlast1 t).mp h)) (blk1 V c 0 t) (blk1 V c 1 t) (blk1 V c 2 t) (blk1 V c 3 t)) := by
  obtain ⟨n, hn⟩ := t
  cases n with
  | zero => exact rfl
  | succ n => exact (dif_pos h0).trans ((dif_neg h1).trans rfl)

theorem leftAt1_B (c : Dev nD) (t : Fin cfg1.N) (h0 : ¬t.val % 12 = 0) (h1 : ¬t.val % 12 = 11) :
    leftAt1 V c t.val t.isLt = (left1_B_o4 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) (fun h => h1 ((hlast1 t).mp h)) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2,
        left1_B_s0 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) (fun h => h1 ((hlast1 t).mp h)) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2,
        left1_B_s1 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) (fun h => h1 ((hlast1 t).mp h)) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2,
        left1_B_s2 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) (fun h => h1 ((hlast1 t).mp h)) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem leftAt1_C (c : Dev nD) (t : Fin cfg1.N) (h0 : ¬t.val % 12 = 0) (h1 : t.val % 12 = 11) :
    leftAt1 V c t.val t.isLt = (left1_C_o4 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) ((hlast1 t).mpr h1) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2,
        left1_C_s0 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) ((hlast1 t).mpr h1) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2,
        left1_C_s1 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) ((hlast1 t).mpr h1) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2,
        left1_C_s2 c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hfirst1 t).mp h)) ((hlast1 t).mpr h1) (blk1 V c 0 t) (blk1 V c 1 t) (blk1 V c 2 t) (blk1 V c 3 t) (leftAt1 V c (t.val - 1) (Nat.lt_of_le_of_lt (Nat.sub_le _ _) t.isLt)).2.1 (leftAt1 V c (t.val - 1) (Nat.lt_of_le_of_lt (Nat.sub_le _ _) t.isLt)).2.2.1 (leftAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch carried from point to point -/

/-- What the grid is entered with: the other grid's staging buffers and the three scratch buffers at anything, the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scMax fullShare d) ∗ (∃ d, owns (c : Thread nD τ) scDen fullShare d) ∗ (∃ d, owns (c : Thread nD τ) scNum fullShare d)) ∗ (∃ r, prngReg c r)) := by
  unfold Pipeline.ΦA; rw [scopedRest1_eq]; simp only [scMax, scDen, scNum, owns_whole]; try rfl

/-- Before position `n`: at the first point what the grid is entered with; afterwards the same with each scratch
    buffer at what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scMax fullShare ((leftAt1 V c n hn).2.1) ∗ owns (c : Thread nD τ) scDen fullShare ((leftAt1 V c n hn).2.2.1) ∗ owns (c : Thread nD τ) scNum fullShare ((leftAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scMax fullShare ((leftAt1 V c n hn).2.1) ∗ owns (c : Thread nD τ) scDen fullShare ((leftAt1 V c n hn).2.2.1) ∗ owns (c : Thread nD τ) scNum fullShare ((leftAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scMax fullShare ((leftAt1 V c (n - 1) (by omega)).2.1) ∗ owns (c : Thread nD τ) scDen fullShare ((leftAt1 V c (n - 1) (by omega)).2.2.1) ∗ owns (c : Thread nD τ) scNum fullShare ((leftAt1 V c (n - 1) (by omega)).2.2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (leftAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = (leftAt1 V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-! ## The body obligation at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 144 := lt_of_lt_of_eq t.isLt (show cfg1.N = 144 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 12 = 0
  · by_cases h1 : t.val % 12 = 11
    · exfalso; omega
    · rw [Dat.leavesExact_idle (dat1 V c) 4 t (idleAt1_4 t (fun h => h1 ((hlast1 t).mp h))) (noFlush1_4 t (fun h => h1 ((hlast1 t).mp h)))]
      rw [leftAt1_A V c t h0 h1]
      unfold left1_A_s0 left1_A_s1 left1_A_s2; (try dsimp only)
      by_cases hz : t.val = 0
      ·
        rw [PhiS_castSucc V c t, PhiS_zero V c _ _ hz, PhiA1_eq]
        iintro ⟨⟨⟨R1, R2, R3, R4, R5, R6, R7, R8, R9, R10, R11, ⟨%z0, HS0⟩, ⟨%z1, HS1⟩, ⟨%z2, HS2⟩⟩, Hg⟩, Ho, ⟨%d0, H0⟩, ⟨%d1, H1⟩, ⟨%d2, H2⟩, ⟨%d3, H3⟩, ⟨%d4, H4⟩⟩
        iapply ((attnRunA (F := F) c (grid1.coords t) _ _ _ _ _ _ _ _ _ _ _ _ _ _ _ _ ((hfirst1 t).mpr h0) (fun h => h1 ((hlast1 t).mp h)) (blk1 V c 0 t) (blk1 V c 1 t) (blk1 V c 2 t) (blk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [R1 R2 R3 R4 R5 R6 R7 R8 R9 R10 R11 HS0 HS1 HS2 Hg]
        · isplitl [R1 R2 R3 R4 R5 R6 R7 R8 R9 R10 R11 HS0 HS1 HS2]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [HS0]
            · unfold owns; iexists _; isplitr
              swap; · iexact HS0
              ipureintro; exact View.read_writes_of_cover _ _ _ _ _ (cover1_A_s0 c _ _ _ _ _ _ _ _ _ _ _ _ _ _ _ _ _ _ _ _ _ _ _)
            isplitl [HS1]
            · unfold owns; iexists _; isplitr
              swap; · iexact HS1
              ipureintro; exact View.read_writes_of_cover _ _ _ _ _ (cover1_A_s1 c _ _ _ _ _ _ _ _ _ _ _ _ _ _ _ _ _ _ _ _ _ _ _)
            unfold owns; iexists _; isplitr
            swap; · iexact HS2
            ipureintro; exact View.read_writes_of_cover _ _ _ _ _ (cover1_A_s2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      ·
        rw [PhiS_castSucc V c t, PhiS_pos V c _ _ hz]
        iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
        iapply ((attnRunA (F := F) c (grid1.coords t) _ _ _ _ _ _ _ _ _ _ _ _ _ _ _ _ ((hfirst1 t).mpr h0) (fun h => h1 ((hlast1 t).mp h)) (blk1 V c 0 t) (blk1 V c 1 t) (blk1 V c 2 t) (blk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [R1 R2 R3 R4 R5 R6 R7 R8 R9 R10 R11 HS0 HS1 HS2 Hg]
        · isplitl [R1 R2 R3 R4 R5 R6 R7 R8 R9 R10 R11 HS0 HS1 HS2]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [HS0]
            · unfold owns; iexists _; isplitr
              swap; · iexact HS0
              ipureintro; exact View.read_writes_of_cover _ _ _ _ _ (cover1_A_s0 c _ _ _ _ _ _ _ _ _ _ _ _ _ _ _ _ _ _ _ _ _ _ _)
            isplitl [HS1]
            · unfold owns; iexists _; isplitr
              swap; · iexact HS1
              ipureintro; exact View.read_writes_of_cover _ _ _ _ _ (cover1_A_s1 c _ _ _ _ _ _ _ _ _ _ _ _ _ _ _ _ _ _ _ _ _ _ _)
            unfold owns; iexists _; isplitr
            swap; · iexact HS2
            ipureintro; exact View.read_writes_of_cover _ _ _ _ _ (cover1_A_s2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 12 = 11
    · rw [show (dat1 V c).leavesExact 4 t = owns (c : Thread nD τ) (ms1_4 t) fullShare ((dat1 V c).after 4 t) from by
        unfold Dat.leavesExact; rw [liveAt1_4 t ((hlast1 t).mpr h1)], after1_4]
      rw [leftAt1_C V c t h0 h1]
      unfold left1_C_o4 left1_C_s0 left1_C_s1 left1_C_s2; (try dsimp only)
      by_cases hz : t.val = 0
      · exfalso; omega
      ·
        rw [PhiS_castSucc V c t, PhiS_pos V c _ _ hz]
        iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
        iapply ((attnRunC (F := F) c (grid1.coords t) _ _ _ _ _ _ _ _ _ _ _ _ _ _ _ _ (fun h => h0 ((hfirst1 t).mp h)) ((hlast1 t).mpr h1) (blk1 V c 0 t) (blk1 V c 1 t) (blk1 V c 2 t) (blk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [R1 R2 R3 R4 R5 R6 R7 R8 R9 R10 R11 HS0 HS1 HS2 Hg]
        · isplitl [R1 R2 R3 R4 R5 R6 R7 R8 R9 R10 R11 HS0 HS1 HS2]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [HS0]
            · unfold owns; iexists _; isplitr
              swap; · iexact HS0
              ipureintro; exact View.read_writes_of_cover _ _ _ _ _ (cover1_C_s0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (cover1_C_s1 c _ _ _ _ _ _ _ _ _ _ _ _ _ _ _ _ _ _ _ _ _ _ _ _ _ _)
            unfold owns; iexists _; isplitr
            swap; · iexact HS2
            ipureintro; exact View.read_writes_of_cover _ _ _ _ _ (cover1_C_s2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_o4 c _ _ _ _ _ _ _ _ _ _ _ _ _ _ _ _ _ _ _ _ _ _ _ _ _ _)
    · rw [Dat.leavesExact_idle (dat1 V c) 4 t (idleAt1_4 t (fun h => h1 ((hlast1 t).mp h))) (noFlush1_4 t (fun h => h1 ((hlast1 t).mp h)))]
      rw [leftAt1_B V c t h0 h1]
      unfold left1_B_s0 left1_B_s1 left1_B_s2; (try dsimp only)
      by_cases hz : t.val = 0
      · exfalso; omega
      ·
        rw [PhiS_castSucc V c t, PhiS_pos V c _ _ hz]
        iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
        iapply ((attnRunB (F := F) c (grid1.coords t) _ _ _ _ _ _ _ _ _ _ _ _ _ _ _ _ (fun h => h0 ((hfirst1 t).mp h)) (fun h => h1 ((hlast1 t).mp h)) (blk1 V c 0 t) (blk1 V c 1 t) (blk1 V c 2 t) (blk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [R1 R2 R3 R4 R5 R6 R7 R8 R9 R10 R11 HS0 HS1 HS2 Hg]
        · isplitl [R1 R2 R3 R4 R5 R6 R7 R8 R9 R10 R11 HS0 HS1 HS2]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [HS0]
            · unfold owns; iexists _; isplitr
              swap; · iexact HS0
              ipureintro; exact View.read_writes_of_cover _ _ _ _ _ (cover1_B_s0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (cover1_B_s1 c _ _ _ _ _ _ _ _ _ _ _ _ _ _ _ _ _ _ _ _ _ _ _ _ _ _)
            unfold owns; iexists _; isplitr
            swap; · iexact HS2
            ipureintro; exact View.read_writes_of_cover _ _ _ _ _ (cover1_B_s2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

theorem body_obligation1 (c : Dev nD) : BodyObligation (dat1 (F := F) V c) (defs₀ (F := F)) Variants.none () Set.univ := fun t => by
  rw [bigSep_W1, bigSep_W1]
  exact sound_body1 V c t

/-- What the grid is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives that back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R1, R2, R3, R4, R5, R6, R7, R8, R9, R10, R11, HS0, HS1, HS2⟩, Hg⟩
  isplitl [R1 R2 R3 R4 R5 R6 R7 R8 R9 R10 R11 HS0 HS1 HS2]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 144 := N_1; omega)

end Entry

end Cert.KernelIdeal.Hand

end
-- ==== Proof.KiMain.lean ====
/-
  The whole program: @main is a host stretch (two transposes of the attention vectors), the projection grid,
  a host stretch (the transpose of s2 to a row), the attention grid. The buffer contents at each boundary are
  a fold from the launch memory: a host stretch applies its operations, a grid leaves each of its arrays at
  what its write-backs fold to and every other buffer alone. Each grid enters the run as a record around the
  thread state "every unscoped buffer at the boundary's contents, the generator register at some state,
  nothing owed"; the attention grid's invariant is the one carrying the scratch. The run ends with every
  unscoped buffer at the last boundary's contents, from which the argument arrays walk back to the launch
  memory unchanged, and the result array is what the attention grid's write-backs fold to.
-/
import proofs.«114251_j82927228552027_2_alg».proof.Proof.KiData0
import proofs.«114251_j82927228552027_2_alg».proof.Proof.KiData1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev B0 : Dev nD → Valuation τ sig (Elt F) := fun c b => (s₀ m ρ).mem ((c : Dev nD), b)
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## The argument arrays walk back to the launch memory -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := (B4_arr m ρ c 2).trans (((dat1 (E3 m ρ) c).arrAt_in 2 rfl _).trans (A_eq1 (E3 m ρ) c 2))
    _ = B2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg2) := (B2_arr m ρ c 1).trans (((dat0 (E1 m ρ) c).arrAt_in 1 rfl _).trans (A_eq0 (E1 m ρ) c 1))
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The result array at the end is what the attention grid's write-backs fold to. -/
theorem B4_result (c : Dev nD) : B4 m ρ c (Proc.devRef .tc main_v4) = (dat1 (E3 m ρ) c).arrAt 4 cfg1.N :=
  B4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev Lz : GSem nD τ sig → Finset Unit := fun _ => ∅
abbrev lvz : GSem nD τ sig → Unit → ℕ := fun _ _ => 0
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B4 m ρ c) ∗ ∃ r, prngReg c r)

/-! ## The two grids as records -/

set_option backward.isDefEq.respectTransparency.types false in
def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lz lvz 1 fun _ _ => rfl
  pre c := iprop(StableHlo.held (c : Thread nD τ) (Pipeline.ucRefs τ sig) (B3 m ρ c) ∗ Rd c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : iprop(Pipeline.scopedRest (Ix := Unit) (Name := ℕ) (U := UR sig nD τ) (Lvl := ℕ) (Val := Elt F) spec1 c ∗ ∃ r, prngReg c r)
        ⊢ ((dat1 (E3 m ρ) c).Φ 0 : sProp 𝕄) := hin1 (E3 m ρ) c
    rw [show (pdats m ρ 1 c).Φ 0 = (dat1 (E3 m ρ) c).Φ 0 from rfl]
    iintro ⟨Hp, -, Hr⟩
    iapply key
    isplitl [Hr]; · iexact Hr
    iexact Hp
  hout c := by
    have key : ((dat1 (E3 m ρ) c).Φ (Fin.last cfg1.N) : sProp 𝕄)
        ⊢ iprop(Pipeline.scopedRest (Ix := Unit) (Name := ℕ) (U := UR sig nD τ) (Lvl := ℕ) (Val := Elt F) spec1 c ∗ ∃ r, prngReg c r) := hout1 (E3 m ρ) c
    rw [Pipeline.ownSems0_none, show (pdats m ρ 1 c).Φ (Fin.last _) = (dat1 (E3 m ρ) c).Φ (Fin.last cfg1.N) from rfl]
    iintro H
    ihave H' := key $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev items : List (Pipeline.Seg (pcfgs (F := F)) adm (pdats m ρ) () defs₀ 𝒱₀ Lz lvz) :=
  [ .host (hseg hostOps0 hostOps0_sub hostOps0_fresh' (B0 m ρ)),
    .region (reg0 m ρ),
    .host (hseg hostOps1 hostOps1_sub hostOps1_fresh' (B2 m ρ)),
    .region (reg1 m ρ) ]
theorem main_run (c : Dev nD) : main (F := F) c = Pipeline.Seg.run (items m ρ) := (main_chain c).trans (by chain_rfl)

set_option backward.isDefEq.respectTransparency.types false in
/-- Every weakly fair execution of @main terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ Lz lvz m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c)) (Tₙ := Tend m ρ)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

/-- The same run, naming the result array as well. -/
theorem run_result : θ_run defs (onTc (τ := τ) (main (F := F))) ⟨m, fun _ => 0, ρ⟩ (fun r => ∀ c : Dev nD,
      r.2.mem ((c.tc : Thread nD τ).loc main_v4) = (dat1 (E3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (B4_result m ρ c),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

end Cert.KernelIdeal.Hand

end
-- ==== Proof.RefRun.lean ====
/-
  The reference program's run: its @main, with the outlined functions' bodies placed at their
  call sites, is a straight line of 52 host operations; every weakly fair
  execution of it terminates with the result array at the composed pure term `refTerm` of the five
  argument arrays and the arguments unchanged.

  The mathematics: a graph-attention layer. With h = inp · W, s₁ = h · a₁, s₂ = h · a₂, the logit
  of the pair (i, k) is leaky-relu (s₁ i + s₂ k), masked where adj i k ≤ 0 by a large negative
  constant; the rows are soft-maxed (shifted by the row maximum, exponentiated, divided by the row
  sum), the attention weights average the rows of h, and elu is applied to the average.
-/
import proofs.«114251_j82927228552027_2_alg».proof.ReferenceIdeal
import proofs.«114251_j82927228552027_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, each a function of its operands -/

/-- The node features: h = inp · W. -/
def feat (x : FVec F S12288x512 .f32) (w : FVec F S512x256 .f32) : FVec F S12288x256 .f32 :=
  Host.dotGeneral dot_S12288x512_S512x256_S12288x256_1_0_0_1_n_n none x w

/-- One attention projection: s = h · a, a column. -/
def proj (h : FVec F S12288x256 .f32) (a : FVec F S256x1 .f32) : FVec F S12288x1 .f32 :=
  Host.dotGeneral dot_S12288x256_S256x1_S12288x1_1_0_0_1_n_n none h a

/-- The pair sums: entry (i, k) is s₁ i + s₂ k (the column s₁ spread along rows, the transposed
    column s₂ spread along columns). -/
def pairSum (s1 s2 : FVec F S12288x1 .f32) : FVec F S12288x12288 .f32 :=
  addf (broadcastInDim S12288x12288 ![0, 1] bcast_S12288x1_S12288x12288_0_1 s1)
    (broadcastInDim S12288x12288 ![0, 1] bcast_S1x12288_S12288x12288_0_1
      (transpose S1x12288 [1, 0] s2 transposes_S12288x1_S1x12288_1_0))

/-- Leaky relu with slope 0.2 (the word 0x3E4CCCCD): x where x ≥ 0, else slope · x. -/
def leaky (x : FVec F S12288x12288 .f32) : FVec F S12288x12288 .f32 :=
  select (cmpf .oge x (broadcastInDim S12288x12288 ![] bcast_S_S12288x12288 (constant S_ .f32 0x00000000#32))) x
    (mulf (broadcastInDim S12288x12288 ![] bcast_S_S12288x12288 (constant S_ .f32 0x3E4CCCCD#32)) x)

/-- The adjacency mask: adj > 0, signed. -/
def mask (adj : IVec S12288x12288 32) : IVec S12288x12288 1 :=
  cmpi .sgt adj (broadcastInDim S12288x12288 ![] bcast_S_S12288x12288 (constantI S_ 32 0#32))

/-- The masked logits: e where the mask holds, else the fill −9e15 (the word 0xD9FFCB9E). -/
def scores (mk : IVec S12288x12288 1) (e : FVec F S12288x12288 .f32) : FVec F S12288x12288 .f32 :=
  select mk e (broadcastInDim S12288x12288 ![] bcast_S_S12288x12288 (constant S_ .f32 0xD9FFCB9E#32))

/-- The row maximum, not below −∞ (the word 0xFF800000). -/
def rowMax (sc : FVec F S12288x12288 .f32) : FVec F S12288 .f32 :=
  maximumf (broadcastInDim S12288 ![] bcast_S_S12288 (constant S_ .f32 0xFF800000#32))
    (Host.reduce FloatOps.maximumf sc (constant S_ .f32 0xFF800000#32) reducesTo_S12288x12288_S12288_d1 h_S_)

/-- A per-row value spread over the row's entries. -/
def spread (v : FVec F S12288 .f32) : FVec F S12288x12288 .f32 :=
  broadcastInDim S12288x12288 ![0, 1] bcast_S12288x1_S12288x12288_0_1
    (broadcastInDim S12288x1 ![0] bcast_S12288_S12288x1_0 v)

/-- The shifted exponentials: exp (score − row maximum). -/
def expo (sc : FVec F S12288x12288 .f32) : FVec F S12288x12288 .f32 :=
  Host.exp (subf sc (spread (rowMax sc)))

/-- The row sums, from zero. -/
def rowSum (u : FVec F S12288x12288 .f32) : FVec F S12288 .f32 :=
  Host.reduceAdd u (constant S_ .f32 0x00000000#32) reducesTo_S12288x12288_S12288_d1 h_S_

/-- The attention weights: each shifted exponential over its row's sum. -/
def attn (u : FVec F S12288x12288 .f32) : FVec F S12288x12288 .f32 :=
  Host.divf u (spread (rowSum u))

/-- The weighted average of the features: attention · h. -/
def agg (w : FVec F S12288x12288 .f32) (h : FVec F S12288x256 .f32) : FVec F S12288x256 .f32 :=
  Host.dotGeneral dot_S12288x12288_S12288x256_S12288x256_1_0_0_1_n_n none w h

/-- The zero array the elu compares against and substitutes. -/
def zeros : FVec F S12288x256 .f32 :=
  broadcastInDim S12288x256 ![] bcast_S_S12288x256 (constant S_ .f32 0x00000000#32)

/-- Elu: x where x > 0, else 1 · expm1 (x where x ≤ 0, 0 where x > 0). -/
def elu (x : FVec F S12288x256 .f32) : FVec F S12288x256 .f32 :=
  select (cmpf .ogt x zeros) x
    (mulf (broadcastInDim S12288x256 ![] bcast_S_S12288x256 (constant S_ .f32 0x3F800000#32))
      (Host.expm1 (select (cmpf .ogt x zeros) zeros x)))

/-- The reference's result as the composed term of its five arguments. -/
def refTerm (inp : FVec F S12288x512 .f32) (adj : IVec S12288x12288 32) (w : FVec F S512x256 .f32)
    (a1 a2 : FVec F S256x1 .f32) : FVec F S12288x256 .f32 :=
  elu (agg (attn (expo (scores (mask adj) (leaky (pairSum (proj (feat inp w) a1) (proj (feat inp w) a2))))))
    (feat inp w))

/-! ## The program as a list of operations -/

/-- @main's operations in order, each call replaced by the callee's operations over that call's
    buffers: leaky-relu is seven (its own six, then the select of the function it calls), the masked
    select three, elu fourteen (its own seven, the inner select's three, its own four, the final select). -/
abbrev ops : List (HloOp τ sig (Elt F)) :=
  [ binary main_arg0 main_arg2 main_v0 ((fun l r => Host.dotGeneral dot_S12288x512_S512x256_S12288x256_1_0_0_1_n_n none l r) : (⟨S12288x512, .f32⟩ : BufTy).Contents (Elt F) → (⟨S512x256, .f32⟩ : BufTy).Contents (Elt F) → (⟨S12288x256, .f32⟩ : BufTy).Contents (Elt F)),
    binary main_v0 main_arg3 main_v1 ((fun l r => Host.dotGeneral dot_S12288x256_S256x1_S12288x1_1_0_0_1_n_n none l r) : (⟨S12288x256, .f32⟩ : BufTy).Contents (Elt F) → (⟨S256x1, .f32⟩ : BufTy).Contents (Elt F) → (⟨S12288x1, .f32⟩ : BufTy).Contents (Elt F)),
    binary main_v0 main_arg4 main_v2 ((fun l r => Host.dotGeneral dot_S12288x256_S256x1_S12288x1_1_0_0_1_n_n none l r) : (⟨S12288x256, .f32⟩ : BufTy).Contents (Elt F) → (⟨S256x1, .f32⟩ : BufTy).Contents (Elt F) → (⟨S12288x1, .f32⟩ : BufTy).Contents (Elt F)),
    unary main_v2 main_v3 ((transpose S1x12288 [1, 0] · transposes_S12288x1_S1x12288_1_0) : (⟨S12288x1, .f32⟩ : BufTy).Contents (Elt F) → (⟨S1x12288, .f32⟩ : BufTy).Contents (Elt F)),
    unary main_v1 main_v4 (broadcastInDim S12288x12288 ![0, 1] bcast_S12288x1_S12288x12288_0_1 : (⟨S12288x1, .f32⟩ : BufTy).Contents (Elt F) → (⟨S12288x12288, .f32⟩ : BufTy).Contents (Elt F)),
    unary main_v3 main_v5 (broadcastInDim S12288x12288 ![0, 1] bcast_S1x12288_S12288x12288_0_1 : (⟨S1x12288, .f32⟩ : BufTy).Contents (Elt F) → (⟨S12288x12288, .f32⟩ : BufTy).Contents (Elt F)),
    binary main_v4 main_v5 main_v6 (addf : (⟨S12288x12288, .f32⟩ : BufTy).Contents (Elt F) → (⟨S12288x12288, .f32⟩ : BufTy).Contents (Elt F) → (⟨S12288x12288, .f32⟩ : BufTy).Contents (Elt F)),
    nullary main_cst (constant S_ .f32 0x3E4CCCCD#32),
    TRef.nullary main_call0.cst (constant S_ .f32 0x00000000#32),
    TRef.unary main_call0.cst main_call0.v0 (broadcastInDim S12288x12288 ![] bcast_S_S12288x12288),
    TRef.binary (.of main_v6) main_call0.v0 main_call0.v1 (cmpf .oge),
    TRef.unary (.of main_cst) main_call0.v2 id,
    TRef.unary main_call0.v2 main_call0.v3 (broadcastInDim S12288x12288 ![] bcast_S_S12288x12288),
    TRef.binary main_call0.v3 (.of main_v6) main_call0.v4 mulf,
    TRef.ternary main_call0.v1 (.of main_v6) main_call0.v4 main_call0.call0.v0 select,
    nullary main_c (constantI S_ 32 0#32),
    unary main_c main_v8 (broadcastInDim S12288x12288 ![] bcast_S_S12288x12288 : (⟨S_, .i32⟩ : BufTy).Contents (Elt F) → (⟨S12288x12288, .i32⟩ : BufTy).Contents (Elt F)),
    binary main_arg1 main_v8 main_v9 (cmpi .sgt : (⟨S12288x12288, .i32⟩ : BufTy).Contents (Elt F) → (⟨S12288x12288, .i32⟩ : BufTy).Contents (Elt F) → (⟨S12288x12288, .i1⟩ : BufTy).Contents (Elt F)),
    nullary main_cst_0 (constant S_ .f32 0xD9FFCB9E#32),
    TRef.unary (.of main_cst_0) main_call1.v0 id,
    TRef.unary main_call1.v0 main_call1.v1 (broadcastInDim S12288x12288 ![] bcast_S_S12288x12288),
    TRef.ternary (.of main_v9) (.of main_v7) main_call1.v1 main_call1.v2 select,
    nullary main_cst_1 (constant S_ .f32 0xFF800000#32),
    binary main_v10 main_cst_1 main_v11 ((fun x v => Host.reduce FloatOps.maximumf x v reducesTo_S12288x12288_S12288_d1 h_S_) : (⟨S12288x12288, .f32⟩ : BufTy).Contents (Elt F) → (⟨S_, .f32⟩ : BufTy).Contents (Elt F) → (⟨S12288, .f32⟩ : BufTy).Contents (Elt F)),
    nullary main_cst_2 (constant S_ .f32 0xFF800000#32),
    unary main_cst_2 main_v12 (broadcastInDim S12288 ![] bcast_S_S12288 : (⟨S_, .f32⟩ : BufTy).Contents (Elt F) → (⟨S12288, .f32⟩ : BufTy).Contents (Elt F)),
    binary main_v12 main_v11 main_v13 (maximumf : (⟨S12288, .f32⟩ : BufTy).Contents (Elt F) → (⟨S12288, .f32⟩ : BufTy).Contents (Elt F) → (⟨S12288, .f32⟩ : BufTy).Contents (Elt F)),
    unary main_v13 main_v14 (broadcastInDim S12288x1 ![0] bcast_S12288_S12288x1_0 : (⟨S12288, .f32⟩ : BufTy).Contents (Elt F) → (⟨S12288x1, .f32⟩ : BufTy).Contents (Elt F)),
    unary main_v14 main_v15 (broadcastInDim S12288x12288 ![0, 1] bcast_S12288x1_S12288x12288_0_1 : (⟨S12288x1, .f32⟩ : BufTy).Contents (Elt F) → (⟨S12288x12288, .f32⟩ : BufTy).Contents (Elt F)),
    binary main_v10 main_v15 main_v16 (subf : (⟨S12288x12288, .f32⟩ : BufTy).Contents (Elt F) → (⟨S12288x12288, .f32⟩ : BufTy).Contents (Elt F) → (⟨S12288x12288, .f32⟩ : BufTy).Contents (Elt F)),
    unary main_v16 main_v17 (Host.exp : (⟨S12288x12288, .f32⟩ : BufTy).Contents (Elt F) → (⟨S12288x12288, .f32⟩ : BufTy).Contents (Elt F)),
    nullary main_cst_3 (constant S_ .f32 0x00000000#32),
    binary main_v17 main_cst_3 main_v18 ((fun x v => Host.reduceAdd x v reducesTo_S12288x12288_S12288_d1 h_S_) : (⟨S12288x12288, .f32⟩ : BufTy).Contents (Elt F) → (⟨S_, .f32⟩ : BufTy).Contents (Elt F) → (⟨S12288, .f32⟩ : BufTy).Contents (Elt F)),
    unary main_v18 main_v19 (broadcastInDim S12288x1 ![0] bcast_S12288_S12288x1_0 : (⟨S12288, .f32⟩ : BufTy).Contents (Elt F) → (⟨S12288x1, .f32⟩ : BufTy).Contents (Elt F)),
    unary main_v19 main_v20 (broadcastInDim S12288x12288 ![0, 1] bcast_S12288x1_S12288x12288_0_1 : (⟨S12288x1, .f32⟩ : BufTy).Contents (Elt F) → (⟨S12288x12288, .f32⟩ : BufTy).Contents (Elt F)),
    binary main_v17 main_v20 main_v21 (Host.divf : (⟨S12288x12288, .f32⟩ : BufTy).Contents (Elt F) → (⟨S12288x12288, .f32⟩ : BufTy).Contents (Elt F) → (⟨S12288x12288, .f32⟩ : BufTy).Contents (Elt F)),
    binary main_v21 main_v0 main_v22 ((fun l r => Host.dotGeneral dot_S12288x12288_S12288x256_S12288x256_1_0_0_1_n_n none l r) : (⟨S12288x12288, .f32⟩ : BufTy).Contents (Elt F) → (⟨S12288x256, .f32⟩ : BufTy).Contents (Elt F) → (⟨S12288x256, .f32⟩ : BufTy).Contents (Elt F)),
    TRef.nullary main_call2.cst (constant S_ .f32 0x00000000#32),
    TRef.unary main_call2.cst main_call2.v0 (broadcastInDim S12288x256 ![] bcast_S_S12288x256),
    TRef.binary (.of main_v22) main_call2.v0 main_call2.v1 (cmpf .ogt),
    TRef.nullary main_call2.cst_0 (constant S_ .f32 0x00000000#32),
    TRef.unary main_call2.cst_0 main_call2.v2 (broadcastInDim S12288x256 ![] bcast_S_S12288x256),
    TRef.binary (.of main_v22) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S12288x256 ![] bcast_S_S12288x256),
    TRef.ternary main_call2.v3 main_call2.call0.v1 (.of main_v22) main_call2.call0.v2 select,
    TRef.unary main_call2.call0.v2 main_call2.v5 Host.expm1,
    TRef.nullary main_call2.cst_2 (constant S_ .f32 0x3F800000#32),
    TRef.unary main_call2.cst_2 main_call2.v6 (broadcastInDim S12288x256 ![] bcast_S_S12288x256),
    TRef.binary main_call2.v6 main_call2.v5 main_call2.v7 mulf,
    TRef.ternary main_call2.v1 (.of main_v22) main_call2.v7 main_call2.call1.v0 select ]

/-- @main runs exactly the operations of the list, in the list's order: each call stands for its callee's operations. -/
theorem main_eq (c : Dev nD) : main (F := F) c = seq ops := by
  simp only [main, fn_leaky_relu.body, fn_where.body, fn_where_0.body, fn_where_1.body, fn_where_2.body, fn_elu.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub ..,
    binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub ..,
    unary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- From any memory with zero counters, whatever the float values: every weakly fair execution of @main ends, the result
    array holding refTerm of the five argument arrays and those five arrays as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v23).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.RefRun

end
-- ==== Proof.Frames.lean ====
/-
  The three frames and the idealization's sanction.
  The kernel's program (a host stretch, the projection grid, a host stretch, the attention grid) runs to the
  end from any memory, faults nowhere and leaves its five argument arrays as launched, read at the word level
  and at the extended reals alike: the run is stated once for any reading of the floats. The reference is a
  straight line of host operations whose run names its result; dropping the result leaves its frame. The
  ideal pass rewrote no operation of the kernel, so there is nothing for its sanction to state.
-/
import proofs.«114251_j82927228552027_2_alg».proof.Defs
import proofs.«114251_j82927228552027_2_alg».proof.Proof.Gen.Kernel
import proofs.«114251_j82927228552027_2_alg».proof.Proof.Gen.KernelIdeal
import proofs.«114251_j82927228552027_2_alg».proof.Proof.Gen.ReferenceIdeal
import proofs.«114251_j82927228552027_2_alg».proof.Proof.Gen.Pre_finite_inputs
import proofs.«114251_j82927228552027_2_alg».proof.Proof.KbMain
import proofs.«114251_j82927228552027_2_alg».proof.Proof.KiMain
import proofs.«114251_j82927228552027_2_alg».proof.Proof.RefRun

noncomputable section

namespace Cert.Proof.Frames

open Idealize.ShloMosaic Idealize.SL.Sem

/-- The kernel's program at the word level: every argument array ends as launched. -/
theorem frame_kernel : Cert.frame_Kernel := fun m ρ _ => Cert.Kernel.Hand.frame (F := Bits) m ρ

/-- The same program read at the extended reals. -/
theorem frame_kernelIdeal : Cert.frame_KernelIdeal := fun m ρ _ => Cert.KernelIdeal.Hand.frame (F := Ideal) m ρ

/-- The reference: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- No operation was rewritten when the kernel was idealized. -/
theorem preserves : Cert.preserves_Kernel_KernelIdeal := trivial

end Cert.Proof.Frames

end
-- ==== Proof.KiVal1.lean ====
/-
  The attention kernel's body, case by case, as values: what one run of the body leaves in the running maximum, the
  running denominator, the running numerator and (at a row's last column tile) the output block, each as an explicit
  term in the body's arithmetic over the blocks it loads.

  With m the running maximum, l the running denominator and acc the running numerator arriving at a column tile,
  s the tile's masked logits, and h the 1024 rows of the feature array the tile attends to, one step of the streaming
  soft-max leaves
      m' = max m (row maximum of s),
      l' = exp (m − m') · l + row sum of exp (s − m'),
      acc' = exp (m − m') · acc + exp (s − m') · h,
  and the last tile of a row stores elu (acc' / l'). At a row's first tile the arriving m, l, acc are the reset values
  −∞, 0, 0 the body has just stored; whatever the scratch held before is not read.
-/
import proofs.«114251_j82927228552027_2_alg».proof.Proof.KiData1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The whole-shape rectangle's offsets, however the zeros are spelt. -/
theorem hz2 : (![0, 0] : Fin 2 → Nat) = fun _ => 0 := funext fun a => by fin_cases a <;> rfl

/-- The 1024 rows of the resident feature array that column tile (i 1) of the grid attends to: the rows from the
    tile's row offset on. -/
def hTile (i : grid1.Coords) (x3 : Vec F S12288x256 .bf16) : Vec F S1024x256 .bf16 :=
  View.ld x3 (Rect.unit (s := S12288x256) (k1_off1 i) S1024x256.size (k1_off1_inb i))

/-- At row r, column c the tile reads the feature array at row 1024 · (column tile) + r, column c. -/
theorem hTile_apply (i : grid1.Coords) (x3 : Vec F S12288x256 .bf16) (r : Fin 1024) (c : Fin 256) :
    hTile i x3 (ValueIdx.ix2 r c)
      = x3 (ValueIdx.ix2 (⟨1024 * (i 1).val + r.val, by have h12 : (i 1).val < 12 := (i 1).isLt; omega⟩ : Fin 12288) c) := by
  unfold hTile
  show x3 ((Rect.unit (s := S12288x256) (k1_off1 i) S1024x256.size (k1_off1_inb i)).idx (ValueIdx.ix2 r c)) = _
  refine congrArg x3 (funext fun a => Fin.ext ?_)
  match a with
  | ⟨0, _⟩ =>
    show (k1_off1 i) 0 + 1 * r.val = 1024 * (i 1).val + r.val
    rw [k1_off1_eq]
    show 1024 * (i 1).val + 1 * r.val = 1024 * (i 1).val + r.val
    omega
  | ⟨1, _⟩ =>
    show (k1_off1 i) 1 + 1 * c.val = c.val
    rw [k1_off1_eq]
    show 0 + 1 * c.val = c.val
    omega

/-! ## A row's first column tile: from the reset values -/

theorem left1_A_s0_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) :
    left1_A_s0 (F := F) c i arg2 harg2 arg3 harg3 arg4 harg4 arg5 harg5 arg6 harg6 arg7 harg7 arg8 harg8 arg9 harg9 hc0 hc1 x0 x1 x2 x3 = k1_pay3 (k1_pay9 x0 x1 x2 (k1_pay5 (F := F))) := by
  unfold left1_A_s0
  rw [View.read_writes_eq_canon _ _ _ (cover1_A_s0 c i arg2 harg2 arg3 harg3 arg4 harg4 arg5 harg5 arg6 harg6 arg7 harg7 arg8 harg8 arg9 harg9 hc0 hc1 x0 x1 x2 x3)]
  unfold attnRunA
  dsimp only
  sl_unfold_run_names
  simp only [View.canon_cons_unit_zero (S := S1024x1) hz2, View.canon_cons_unit_zero (S := S1024x256) hz2, View.readCov_unit_zero (S := S1024x1) _ hz2, View.readCov_unit_zero (S := S1024x256) _ hz2, View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2]

theorem left1_A_s1_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) :
    left1_A_s1 (F := F) c i arg2 harg2 arg3 harg3 arg4 harg4 arg5 harg5 arg6 harg6 arg7 harg7 arg8 harg8 arg9 harg9 hc0 hc1 x0 x1 x2 x3 = k1_pay1 (k1_pay12 x0 x1 x2 (k1_pay5 (F := F)) (k1_pay5 (F := F)) (k1_pay6 (F := F))) := by
  unfold left1_A_s1
  rw [View.read_writes_eq_canon _ _ _ (cover1_A_s1 c i arg2 harg2 arg3 harg3 arg4 harg4 arg5 harg5 arg6 harg6 arg7 harg7 arg8 harg8 arg9 harg9 hc0 hc1 x0 x1 x2 x3)]
  unfold attnRunA
  dsimp only
  sl_unfold_run_names
  simp only [View.canon_cons_unit_zero (S := S1024x1) hz2, View.canon_cons_unit_zero (S := S1024x256) hz2, View.readCov_unit_zero (S := S1024x1) _ hz2, View.readCov_unit_zero (S := S1024x256) _ hz2, View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2]

theorem left1_A_s2_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : first1 i) (hc1 : ¬last1 i) (x0 : Vec F S1024x1 .f32) (x1 : Vec F S1x1024 .f32) (x2 : Vec F S1024x1024 .i32) (x3 : Vec F S12288x256 .bf16) :
    left1_A_s2 (F := F) c i arg2 harg2 arg3 harg3 arg4 harg4 arg5 harg5 arg6 harg6 arg7 harg7 arg8 harg8 arg9 harg9 hc0 hc1 x0 x1 x2 x3 = k1_pay2 (k1_pay10 x0 x1 x2 (k1_pay5 (F := F)) (k1_pay5 (F := F))) (k1_pay11 x0 x1 x2 (k1_pay5 (F := F))) (hTile i x3) (k1_pay7 (F := F)) := by
  unfold left1_A_s2
  rw [View.read_writes_eq_canon _ _ _ (cover1_A_s2 c i arg2 harg2 arg3 harg3 arg4 harg4 arg5 harg5 arg6 harg6 arg7 harg7 arg8 harg8 arg9 harg9 hc0 hc1 x0 x1 x2 x3)]
  unfold attnRunA
  dsimp only
  sl_unfold_run_names
  simp only [View.canon_cons_unit_zero (S := S1024x1) hz2, View.canon_cons_unit_zero (S := S1024x256) hz2, View.readCov_unit_zero (S := S1024x1) _ hz2, View.readCov_unit_zero (S := S1024x256) _ hz2, View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2]
  rfl

/-! ## A middle column tile: from what the tile before left -/

theorem left1_B_s0_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) :
    left1_B_s0 (F := F) c i arg2 harg2 arg3 harg3 arg4 harg4 arg5 harg5 arg6 harg6 arg7 harg7 arg8 harg8 arg9 harg9 hc0 hc1 x0 x1 x2 x3 xs0 xs1 xs2 = k1_pay3 (k1_pay9 x0 x1 x2 xs0) := by
  unfold left1_B_s0
  rw [View.read_writes_eq_canon _ _ _ (cover1_B_s0 c i arg2 harg2 arg3 harg3 arg4 harg4 arg5 harg5 arg6 harg6 arg7 harg7 arg8 harg8 arg9 harg9 hc0 hc1 x0 x1 x2 x3 xs0 xs1 xs2)]
  unfold attnRunB
  dsimp only
  sl_unfold_run_names
  simp only [View.canon_cons_unit_zero (S := S1024x1) hz2, View.canon_cons_unit_zero (S := S1024x256) hz2, View.readCov_unit_zero (S := S1024x1) _ hz2, View.readCov_unit_zero (S := S1024x256) _ hz2, View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2]

theorem left1_B_s1_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) :
    left1_B_s1 (F := F) c i arg2 harg2 arg3 harg3 arg4 harg4 arg5 harg5 arg6 harg6 arg7 harg7 arg8 harg8 arg9 harg9 hc0 hc1 x0 x1 x2 x3 xs0 xs1 xs2 = k1_pay1 (k1_pay12 x0 x1 x2 xs0 xs0 xs1) := by
  unfold left1_B_s1
  rw [View.read_writes_eq_canon _ _ _ (cover1_B_s1 c i arg2 harg2 arg3 harg3 arg4 harg4 arg5 harg5 arg6 harg6 arg7 harg7 arg8 harg8 arg9 harg9 hc0 hc1 x0 x1 x2 x3 xs0 xs1 xs2)]
  unfold attnRunB
  dsimp only
  sl_unfold_run_names
  simp only [View.canon_cons_unit_zero (S := S1024x1) hz2, View.canon_cons_unit_zero (S := S1024x256) hz2, View.readCov_unit_zero (S := S1024x1) _ hz2, View.readCov_unit_zero (S := S1024x256) _ hz2, View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2]

theorem left1_B_s2_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : ¬last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) :
    left1_B_s2 (F := F) c i arg2 harg2 arg3 harg3 arg4 harg4 arg5 harg5 arg6 harg6 arg7 harg7 arg8 harg8 arg9 harg9 hc0 hc1 x0 x1 x2 x3 xs0 xs1 xs2 = k1_pay2 (k1_pay10 x0 x1 x2 xs0 xs0) (k1_pay11 x0 x1 x2 xs0) (hTile i x3) xs2 := by
  unfold left1_B_s2
  rw [View.read_writes_eq_canon _ _ _ (cover1_B_s2 c i arg2 harg2 arg3 harg3 arg4 harg4 arg5 harg5 arg6 harg6 arg7 harg7 arg8 harg8 arg9 harg9 hc0 hc1 x0 x1 x2 x3 xs0 xs1 xs2)]
  unfold attnRunB
  dsimp only
  sl_unfold_run_names
  simp only [View.canon_cons_unit_zero (S := S1024x1) hz2, View.canon_cons_unit_zero (S := S1024x256) hz2, View.readCov_unit_zero (S := S1024x1) _ hz2, View.readCov_unit_zero (S := S1024x256) _ hz2, View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2]
  rfl

/-! ## A row's last column tile: the same step, then the quotient and the elu -/

theorem left1_C_s0_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) :
    left1_C_s0 (F := F) c i arg2 harg2 arg3 harg3 arg4 harg4 arg5 harg5 arg6 harg6 arg7 harg7 arg8 harg8 arg9 harg9 hc0 hc1 x0 x1 x2 x3 xs0 xs1 xs2 = k1_pay3 (k1_pay9 x0 x1 x2 xs0) := by
  unfold left1_C_s0
  rw [View.read_writes_eq_canon _ _ _ (cover1_C_s0 c i arg2 harg2 arg3 harg3 arg4 harg4 arg5 harg5 arg6 harg6 arg7 harg7 arg8 harg8 arg9 harg9 hc0 hc1 x0 x1 x2 x3 xs0 xs1 xs2)]
  unfold attnRunC
  dsimp only
  sl_unfold_run_names
  simp only [View.canon_cons_unit_zero (S := S1024x1) hz2, View.canon_cons_unit_zero (S := S1024x256) hz2, View.readCov_unit_zero (S := S1024x1) _ hz2, View.readCov_unit_zero (S := S1024x256) _ hz2, View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2]

theorem left1_C_s1_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) :
    left1_C_s1 (F := F) c i arg2 harg2 arg3 harg3 arg4 harg4 arg5 harg5 arg6 harg6 arg7 harg7 arg8 harg8 arg9 harg9 hc0 hc1 x0 x1 x2 x3 xs0 xs1 xs2 = k1_pay1 (k1_pay12 x0 x1 x2 xs0 xs0 xs1) := by
  unfold left1_C_s1
  rw [View.read_writes_eq_canon _ _ _ (cover1_C_s1 c i arg2 harg2 arg3 harg3 arg4 harg4 arg5 harg5 arg6 harg6 arg7 harg7 arg8 harg8 arg9 harg9 hc0 hc1 x0 x1 x2 x3 xs0 xs1 xs2)]
  unfold attnRunC
  dsimp only
  sl_unfold_run_names
  simp only [View.canon_cons_unit_zero (S := S1024x1) hz2, View.canon_cons_unit_zero (S := S1024x256) hz2, View.readCov_unit_zero (S := S1024x1) _ hz2, View.readCov_unit_zero (S := S1024x256) _ hz2, View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2]

theorem left1_C_s2_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) :
    left1_C_s2 (F := F) c i arg2 harg2 arg3 harg3 arg4 harg4 arg5 harg5 arg6 harg6 arg7 harg7 arg8 harg8 arg9 harg9 hc0 hc1 x0 x1 x2 x3 xs0 xs1 xs2 = k1_pay2 (k1_pay10 x0 x1 x2 xs0 xs0) (k1_pay11 x0 x1 x2 xs0) (hTile i x3) xs2 := by
  unfold left1_C_s2
  rw [View.read_writes_eq_canon _ _ _ (cover1_C_s2 c i arg2 harg2 arg3 harg3 arg4 harg4 arg5 harg5 arg6 harg6 arg7 harg7 arg8 harg8 arg9 harg9 hc0 hc1 x0 x1 x2 x3 xs0 xs1 xs2)]
  unfold attnRunC
  dsimp only
  sl_unfold_run_names
  simp only [View.canon_cons_unit_zero (S := S1024x1) hz2, View.canon_cons_unit_zero (S := S1024x256) hz2, View.readCov_unit_zero (S := S1024x1) _ hz2, View.readCov_unit_zero (S := S1024x256) _ hz2, View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2]
  rfl

theorem left1_C_o4_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S12288x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬first1 i) (hc1 : last1 i) (x0 : Vec F S1024x1 .f32) (x1 : Vec F S1x1024 .f32) (x2 : Vec F S1024x1024 .i32) (x3 : Vec F S12288x256 .bf16) (xs0 : Vec F S1024x1 .f32) (xs1 : Vec F S1024x1 .f32) (xs2 : Vec F S1024x256 .f32) :
    left1_C_o4 (F := F) c i arg2 harg2 arg3 harg3 arg4 harg4 arg5 harg5 arg6 harg6 arg7 harg7 arg8 harg8 arg9 harg9 hc0 hc1 x0 x1 x2 x3 xs0 xs1 xs2 = k1_pay4 (k1_pay2 (k1_pay10 x0 x1 x2 xs0 xs0) (k1_pay11 x0 x1 x2 xs0) (hTile i x3) xs2) (k1_pay1 (k1_pay12 x0 x1 x2 xs0 xs0 xs1)) := by
  unfold left1_C_o4
  rw [View.read_writes_eq_canon _ _ _ (cover1_C_o4 c i arg2 harg2 arg3 harg3 arg4 harg4 arg5 harg5 arg6 harg6 arg7 harg7 arg8 harg8 arg9 harg9 hc0 hc1 x0 x1 x2 x3 xs0 xs1 xs2)]
  unfold attnRunC
  dsimp only
  sl_unfold_run_names
  simp only [View.canon_cons_unit_zero (S := S1024x1) hz2, View.canon_cons_unit_zero (S := S1024x256) hz2, View.readCov_unit_zero (S := S1024x1) _ hz2, View.readCov_unit_zero (S := S1024x256) _ hz2, View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2]
  rfl

end Cert.KernelIdeal.Hand

end
-- ==== Proof.KiGeom.lean ====
/-
  Where the attention grid's blocks sit. Point t of the grid is row tile t / 12, column tile t % 12 (row tiles
  outermost). The s1 window's block is rows 1024·(t/12) … of the s1 column; the s2 window's block is columns
  1024·(t%12) … of the s2 row; the adjacency window's block is that row tile by that column tile; the h window
  is the whole array at every point; the output window's block is rows 1024·(t/12) … of the result, written
  back at a row's last column tile. Each is read here at coordinates.
-/
import proofs.«114251_j82927228552027_2_alg».proof.Proof.KiMain
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- Each window's block index at every point of the grid. -/
theorem idx1 : ∀ t : Fin cfg1.N,
    win1_0.index t (0 : Fin 2) = t.val / 12 ∧ win1_0.index t (1 : Fin 2) = 0
    ∧ win1_1.index t (0 : Fin 2) = 0 ∧ win1_1.index t (1 : Fin 2) = t.val % 12
    ∧ win1_2.index t (0 : Fin 2) = t.val / 12 ∧ win1_2.index t (1 : Fin 2) = t.val % 12
    ∧ win1_3.index t (0 : Fin 2) = 0 ∧ win1_3.index t (1 : Fin 2) = 0
    ∧ win1_4.index t (0 : Fin 2) = t.val / 12 ∧ win1_4.index t (1 : Fin 2) = 0
    ∧ (grid1.coords t (1 : Fin 2)).val = t.val % 12 :=
  (by decide +kernel : ∀ t : Fin grid1.N, _)

section Entry
variable (V : (c : Dev nD) → (b : Ref sig .tc) → Buf (Elt F) ((c : Thread nD τ).loc b))

/-- The s1 block at point t: rows 1024·(t/12) + r of the s1 column. -/
theorem blk1_0_apply (c : Dev nD) (t : Fin cfg1.N) (r : Fin 1024) :
    (blk1 V c 0 t : Vec F S1024x1 .f32) (ix2 r (0 : Fin 1))
      = (V c main_v2_1 : S12288x1.Idx → Elt F .f32) (ix2 ⟨1024 * (t.val / 12) + r.val, by have hN : t.val < 144 := lt_of_lt_of_eq t.isLt N_1; omega⟩ (0 : Fin 1)) := by
  unfold blk1
  rw [View.read_apply]
  show V c main_v2_1 _ = V c main_v2_1 _
  congr 1
  funext a
  apply Fin.ext
  obtain ⟨e0, e1, -⟩ := idx1 t
  match a with
  | ⟨0, _⟩ => show win1_0.index t (0 : Fin 2) * 1024 + 1 * r.val = 1024 * (t.val / 12) + r.val; rw [e0]; omega
  | ⟨1, _⟩ => show win1_0.index t (1 : Fin 2) * 1 + 1 * 0 = 0; rw [e1]

/-- The s2 block at point t: columns 1024·(t%12) + k of the s2 row. -/
theorem blk1_1_apply (c : Dev nD) (t : Fin cfg1.N) (k : Fin 1024) :
    (blk1 V c 1 t : Vec F S1x1024 .f32) (ix2 (0 : Fin 1) k)
      = (V c main_v3 : S1x12288.Idx → Elt F .f32) (ix2 (0 : Fin 1) ⟨1024 * (t.val % 12) + k.val, by have hN : t.val < 144 := lt_of_lt_of_eq t.isLt N_1; omega⟩) := by
  unfold blk1
  rw [View.read_apply]
  show V c main_v3 _ = V c main_v3 _
  congr 1
  funext a
  apply Fin.ext
  obtain ⟨-, -, e0, e1, -⟩ := idx1 t
  match a with
  | ⟨0, _⟩ => show win1_1.index t (0 : Fin 2) * 1 + 1 * 0 = 0; rw [e0]
  | ⟨1, _⟩ => show win1_1.index t (1 : Fin 2) * 1024 + 1 * k.val = 1024 * (t.val % 12) + k.val; rw [e1]; omega

/-- The adjacency block at point t. -/
theorem blk1_2_apply (c : Dev nD) (t : Fin cfg1.N) (r k : Fin 1024) :
    (blk1 V c 2 t : Vec F S1024x1024 .i32) (ix2 r k)
      = (V c main_arg1 : S12288x12288.Idx → Elt F .i32) (ix2 ⟨1024 * (t.val / 12) + r.val, by have hN : t.val < 144 := lt_of_lt_of_eq t.isLt N_1; omega⟩ ⟨1024 * (t.val % 12) + k.val, by have hN : t.val < 144 := lt_of_lt_of_eq t.isLt N_1; omega⟩) := by
  unfold blk1
  rw [View.read_apply]
  show V c main_arg1 _ = V c main_arg1 _
  congr 1
  funext a
  apply Fin.ext
  obtain ⟨-, -, -, -, e0, e1, -⟩ := idx1 t
  match a with
  | ⟨0, _⟩ => show win1_2.index t (0 : Fin 2) * 1024 + 1 * r.val = 1024 * (t.val / 12) + r.val; rw [e0]; omega
  | ⟨1, _⟩ => show win1_2.index t (1 : Fin 2) * 1024 + 1 * k.val = 1024 * (t.val % 12) + k.val; rw [e1]; omega

/-- The h window's block is the whole array at every point. -/
theorem blk1_3_apply (c : Dev nD) (t : Fin cfg1.N) (i : Fin 12288) (q : Fin 256) :
    (blk1 V c 3 t : Vec F S12288x256 .bf16) (ix2 i q) = (V c main_v2_0 : S12288x256.Idx → Elt F .bf16) (ix2 i q) := by
  unfold blk1
  rw [View.read_apply]
  show V c main_v2_0 _ = V c main_v2_0 _
  congr 1
  funext a
  apply Fin.ext
  obtain ⟨-, -, -, -, -, -, e0, e1, -⟩ := idx1 t
  match a with
  | ⟨0, _⟩ => show win1_3.index t (0 : Fin 2) * 12288 + 1 * i.val = i.val; rw [e0]; omega
  | ⟨1, _⟩ => show win1_3.index t (1 : Fin 2) * 256 + 1 * q.val = q.val; rw [e1]; omega

end Entry

/-! ## The output window's blocks cover the result -/

theorem mem_blk1_4 (t : Fin cfg1.N) (i : S12288x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v4).slice (win1_4.rect t)).set ↔ _
  rw [View.set_slice_whole, Rect.mem_set_unit]
  exact Iff.rfl

/-- Every index of the result lies in the block written back at its row tile's last column tile. -/
theorem cover1_4 (i : S12288x256.Idx) :
    ∃ t : Fin cfg1.N, (cfg1.win 4).flush t = true ∧ i ∈ ((cfg1.win 4).blk t).view.set := by
  have hi0 : (i 0).val < 12288 := (i 0).isLt
  have hi1 : (i 1).val < 256 := (i 1).isLt
  let t : Fin cfg1.N := ⟨12 * ((i 0).val / 1024) + 11, by rw [show cfg1.N = 144 from N_1]; omega⟩
  obtain ⟨-, -, -, -, -, -, -, -, e0, e1, -⟩ := idx1 t
  refine ⟨t, (flush1_4 t).mpr (by show (12 * ((i 0).val / 1024) + 11) % 12 = 11; omega), ?_⟩
  rw [mem_blk1_4]
  have ht : t.val = 12 * ((i 0).val / 1024) + 11 := rfl
  intro a
  match a with
  | ⟨0, _⟩ => show win1_4.index t (0 : Fin 2) * 1024 ≤ (i 0).val ∧ (i 0).val < win1_4.index t (0 : Fin 2) * 1024 + 1024; rw [e0, ht]; omega
  | ⟨1, _⟩ => show win1_4.index t (1 : Fin 2) * 256 ≤ (i 1).val ∧ (i 1).val < win1_4.index t (1 : Fin 2) * 256 + 256; rw [e1]; omega

end Cert.KernelIdeal.Hand

end
-- ==== Proof.KiScratch.lean ====
/-
  The scratch along the grid as a plain recursion over the body's arithmetic. After the body at a point the three
  scratch buffers hold one step of the streaming update — new maximum, rescaled denominator plus the tile's sum,
  rescaled numerator plus the tile's product with h — applied to what they held before, or to the reset values
  (−∞, 0, 0) at a row's first column tile; and at a row's last column tile the output window's buffer holds the
  finish (numerator over denominator, then the nonlinearity) of what the scratch then holds. The cases' found
  pieces, read as payload terms, give each step; the recursion over the grid's points gives the rest.
-/
import proofs.«114251_j82927228552027_2_alg».proof.Proof.KiVal1
import proofs.«114251_j82927228552027_2_alg».proof.Proof.KiGeom

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- One streaming update at point `t`, from scratch contents `s` = (maximum, denominator, numerator). -/
def stepAt (c : Dev nD) (t : Fin cfg1.N) (s : Vec F S1024x1 .f32 × Vec F S1024x1 .f32 × Vec F S1024x256 .f32) : Vec F S1024x1 .f32 × Vec F S1024x1 .f32 × Vec F S1024x256 .f32 :=
  (k1_pay3 (k1_pay9 (blk1 V c 0 t) (blk1 V c 1 t) (blk1 V c 2 t) s.1),
   k1_pay1 (k1_pay12 (blk1 V c 0 t) (blk1 V c 1 t) (blk1 V c 2 t) s.1 s.1 s.2.1),
   k1_pay2 (k1_pay10 (blk1 V c 0 t) (blk1 V c 1 t) (blk1 V c 2 t) s.1 s.1) (k1_pay11 (blk1 V c 0 t) (blk1 V c 1 t) (blk1 V c 2 t) s.1)
     (hTile (grid1.coords t) (blk1 V c 3 t)) s.2.2)

/-- The reset: −∞, 0, 0 as the body broadcasts them. -/
def resetS : Vec F S1024x1 .f32 × Vec F S1024x1 .f32 × Vec F S1024x256 .f32 := (k1_pay5 (F := F), k1_pay6 (F := F), k1_pay7 (F := F))

/-- The scratch after position `n`: a row's first column tile steps from the reset, every other from the position before. -/
def scr (c : Dev nD) : (n : ℕ) → n < cfg1.N → Vec F S1024x1 .f32 × Vec F S1024x1 .f32 × Vec F S1024x256 .f32
  | 0, hn => stepAt V c ⟨0, hn⟩ resetS
  | n + 1, hn => if (n + 1) % 12 = 0 then stepAt V c ⟨n + 1, hn⟩ resetS else stepAt V c ⟨n + 1, hn⟩ (scr c n (Nat.lt_of_succ_lt hn))

theorem scr_first (c : Dev nD) (n : ℕ) (hn : n + 1 < cfg1.N) (h0 : (n + 1) % 12 = 0) :
    scr V c (n + 1) hn = stepAt V c ⟨n + 1, hn⟩ resetS := by
  rw [scr, if_pos h0]
theorem scr_next (c : Dev nD) (n : ℕ) (hn : n + 1 < cfg1.N) (h0 : ¬(n + 1) % 12 = 0) :
    scr V c (n + 1) hn = stepAt V c ⟨n + 1, hn⟩ (scr V c n (Nat.lt_of_succ_lt hn)) := by
  rw [scr, if_neg h0]

/-! ## The grid's recursion, one position on -/

theorem leftAt1_succ_A (c : Dev nD) (n : ℕ) (hn : n + 1 < cfg1.N) (h0 : (n + 1) % 12 = 0) (h1 : ¬(n + 1) % 12 = 11) :
    leftAt1 V c (n + 1) hn = (left1_A_o4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) ((hfirst1 ⟨n + 1, hn⟩).mpr h0) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩),
        left1_A_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) ((hfirst1 ⟨n + 1, hn⟩).mpr h0) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩),
        left1_A_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) ((hfirst1 ⟨n + 1, hn⟩).mpr h0) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩),
        left1_A_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) ((hfirst1 ⟨n + 1, hn⟩).mpr h0) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩)) :=
  (dif_pos h0).trans ((dif_neg h1).trans rfl)
theorem leftAt1_succ_B (c : Dev nD) (n : ℕ) (hn : n + 1 < cfg1.N) (h0 : ¬(n + 1) % 12 = 0) (h1 : ¬(n + 1) % 12 = 11) :
    leftAt1 V c (n + 1) hn = (left1_B_o4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩) (leftAt1 V c n (Nat.lt_of_succ_lt hn)).2.1 (leftAt1 V c n (Nat.lt_of_succ_lt hn)).2.2.1 (leftAt1 V c n (Nat.lt_of_succ_lt hn)).2.2.2,
        left1_B_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩) (leftAt1 V c n (Nat.lt_of_succ_lt hn)).2.1 (leftAt1 V c n (Nat.lt_of_succ_lt hn)).2.2.1 (leftAt1 V c n (Nat.lt_of_succ_lt hn)).2.2.2,
        left1_B_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩) (leftAt1 V c n (Nat.lt_of_succ_lt hn)).2.1 (leftAt1 V c n (Nat.lt_of_succ_lt hn)).2.2.1 (leftAt1 V c n (Nat.lt_of_succ_lt hn)).2.2.2,
        left1_B_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) (fun h => h1 ((hlast1 ⟨n + 1, hn⟩).mp h)) (blk1 V c 0 ⟨n + 1, hn⟩) (blk1 V c 1 ⟨n + 1, hn⟩) (blk1 V c 2 ⟨n + 1, hn⟩) (blk1 V c 3 ⟨n + 1, hn⟩) (leftAt1 V c n (Nat.lt_of_succ_lt hn)).2.1 (leftAt1 V c n (Nat.lt_of_succ_lt hn)).2.2.1 (leftAt1 V c n (Nat.lt_of_succ_lt hn)).2.2.2) :=
  (dif_neg h0).trans ((dif_neg h1).trans rfl)
theorem leftAt1_succ_C (c : Dev nD) (n : ℕ) (hn : n + 1 < cfg1.N) (h0 : ¬(n + 1) % 12 = 0) (h1 : (n + 1) % 12 = 11) :
    leftAt1 V c (n + 1) hn = (left1_C_o4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) ((hlast1 ⟨n + 1, hn⟩).mpr h1) (blk1 V c 0 ⟨n + 1, hn⟩) (blk1 V c 1 ⟨n + 1, hn⟩) (blk1 V c 2 ⟨n + 1, hn⟩) (blk1 V c 3 ⟨n + 1, hn⟩) (leftAt1 V c n (Nat.lt_of_succ_lt hn)).2.1 (leftAt1 V c n (Nat.lt_of_succ_lt hn)).2.2.1 (leftAt1 V c n (Nat.lt_of_succ_lt hn)).2.2.2,
        left1_C_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) ((hlast1 ⟨n + 1, hn⟩).mpr h1) (blk1 V c 0 ⟨n + 1, hn⟩) (blk1 V c 1 ⟨n + 1, hn⟩) (blk1 V c 2 ⟨n + 1, hn⟩) (blk1 V c 3 ⟨n + 1, hn⟩) (leftAt1 V c n (Nat.lt_of_succ_lt hn)).2.1 (leftAt1 V c n (Nat.lt_of_succ_lt hn)).2.2.1 (leftAt1 V c n (Nat.lt_of_succ_lt hn)).2.2.2,
        left1_C_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) ((hlast1 ⟨n + 1, hn⟩).mpr h1) (blk1 V c 0 ⟨n + 1, hn⟩) (blk1 V c 1 ⟨n + 1, hn⟩) (blk1 V c 2 ⟨n + 1, hn⟩) (blk1 V c 3 ⟨n + 1, hn⟩) (leftAt1 V c n (Nat.lt_of_succ_lt hn)).2.1 (leftAt1 V c n (Nat.lt_of_succ_lt hn)).2.2.1 (leftAt1 V c n (Nat.lt_of_succ_lt hn)).2.2.2,
        left1_C_s2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scMax (Memref.isWhole_whole _) scDen (Memref.isWhole_whole _) scNum (Memref.isWhole_whole _) (fun h => h0 ((hfirst1 ⟨n + 1, hn⟩).mp h)) ((hlast1 ⟨n + 1, hn⟩).mpr h1) (blk1 V c 0 ⟨n + 1, hn⟩) (blk1 V c 1 ⟨n + 1, hn⟩) (blk1 V c 2 ⟨n + 1, hn⟩) (blk1 V c 3 ⟨n + 1, hn⟩) (leftAt1 V c n (Nat.lt_of_succ_lt hn)).2.1 (leftAt1 V c n (Nat.lt_of_succ_lt hn)).2.2.1 (leftAt1 V c n (Nat.lt_of_succ_lt hn)).2.2.2) :=
  (dif_neg h0).trans ((dif_pos h1).trans rfl)

/-- What the grid's recursion leaves in the three scratch buffers is the plain recursion. -/
theorem leftAt1_scr (c : Dev nD) : ∀ (n : ℕ) (hn : n < cfg1.N), (leftAt1 V c n hn).2 = scr V c n hn
  | 0, hn => by
    rw [leftAt1_A V c ⟨0, hn⟩ (Nat.zero_mod _) (by show ¬(0 % 12 = 11); decide)]
    show (_, _, _) = _
    rw [left1_A_s0_eq, left1_A_s1_eq, left1_A_s2_eq]
    rfl
  | n + 1, hn => by
    have hN : n + 1 < 144 := lt_of_lt_of_eq hn N_1
    by_cases h0 : (n + 1) % 12 = 0
    · have h1 : ¬(n + 1) % 12 = 11 := by omega
      rw [leftAt1_succ_A V c n hn h0 h1, scr_first V c n hn h0]
      show (_, _, _) = _
      rw [left1_A_s0_eq, left1_A_s1_eq, left1_A_s2_eq]
      rfl
    · have ih := leftAt1_scr c n (Nat.lt_of_succ_lt hn)
      by_cases h1 : (n + 1) % 12 = 11
      · rw [leftAt1_succ_C V c n hn h0 h1, scr_next V c n hn h0, ← ih]
        show (_, _, _) = _
        rw [left1_C_s0_eq, left1_C_s1_eq, left1_C_s2_eq]
        rfl
      · rw [leftAt1_succ_B V c n hn h0 h1, scr_next V c n hn h0, ← ih]
        show (_, _, _) = _
        rw [left1_B_s0_eq, left1_B_s1_eq, left1_B_s2_eq]
        rfl

/-- At a row's last column tile the output window's buffer holds the finish of the scratch just left. -/
theorem leftAt1_out (c : Dev nD) (n : ℕ) (hn : n + 1 < cfg1.N) (h1 : (n + 1) % 12 = 11) :
    (leftAt1 V c (n + 1) hn).1 = k1_pay4 (scr V c (n + 1) hn).2.2 (scr V c (n + 1) hn).2.1 := by
  have h0 : ¬(n + 1) % 12 = 0 := by omega
  rw [scr_next V c n hn h0, ← leftAt1_scr V c n (Nat.lt_of_succ_lt hn), leftAt1_succ_C V c n hn h0 h1]
  dsimp only
  rw [left1_C_o4_eq]
  rfl

end Entry

end Cert.KernelIdeal.Hand

end
-- ==== Proof.KiRowGrid.lean ====
/-
  One row of the attention grid as a sequence. Row tile I occupies positions 12·I … 12·I + 11 of the grid; the
  scratch after position 12·I + j, as j runs, starts with one step from the reset and goes on by one step from the
  column tile before — the shape an induction along the row takes.
-/
import proofs.«114251_j82927228552027_2_alg».proof.Proof.KiScratch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

theorem scr_of_mod_zero (c : Dev nD) : ∀ (n : ℕ) (hn : n < cfg1.N), n % 12 = 0 → scr V c n hn = stepAt V c ⟨n, hn⟩ resetS
  | 0, _, _ => rfl
  | n + 1, hn, h0 => scr_first V c n hn h0

/-- The scratch after column tile `j` of row tile `I` (the reset outside the grid). -/
def rowSt (c : Dev nD) (I j : ℕ) : Vec F S1024x1 .f32 × Vec F S1024x1 .f32 × Vec F S1024x256 .f32 :=
  if h : 12 * I + j < cfg1.N then scr V c (12 * I + j) h else resetS

theorem rowSt_zero (c : Dev nD) (I : ℕ) (h : 12 * I + 0 < cfg1.N) :
    rowSt V c I 0 = stepAt V c ⟨12 * I + 0, h⟩ resetS := by
  unfold rowSt
  rw [dif_pos h]
  exact scr_of_mod_zero V c _ h (by omega)

theorem rowSt_succ (c : Dev nD) (I j : ℕ) (hj : j + 1 < 12) (h : 12 * I + (j + 1) < cfg1.N) :
    rowSt V c I (j + 1) = stepAt V c ⟨12 * I + (j + 1), h⟩ (rowSt V c I j) := by
  have h' : 12 * I + j < cfg1.N := Nat.lt_of_succ_lt h
  unfold rowSt
  rw [dif_pos h, dif_pos h']
  exact scr_next V c (12 * I + j) h (by omega)

/-- The output window's buffer at a row's last column tile: the finish of the scratch then held. -/
theorem out_last (c : Dev nD) (I : ℕ) (h : 12 * I + 11 < cfg1.N) :
    (leftAt1 V c (12 * I + 11) h).1 = k1_pay4 (rowSt V c I 11).2.2 (rowSt V c I 11).2.1 := by
  unfold rowSt
  rw [dif_pos h]
  exact leftAt1_out V c (12 * I + 10) h (by omega)

end Entry

end Cert.KernelIdeal.Hand

end
-- ==== Proof.KiPayB.lean ====
/-
  The attention kernel's elementwise payloads read at an index, at the extended reals: the rescaling factor
  exp (old maximum - new maximum) of a row, the weight exp (score - new maximum) at a row and a column, the
  payloads that only pass a value through (a shape cast to the same shape), and the reset values of the three
  running quantities (-∞ for the maximum, 0 for the denominator and for the numerator). The score and the new
  maximum enter as given functions of the index: no reduction and no matrix product occurs in these values.
-/
import proofs.«114251_j82927228552027_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- An `[a, 1]` column broadcast to `[a, b]` reads, at `(p, c)`, the column's entry of row `p`. -/
private theorem column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word `0xFF800000` is `-∞`. -/
private theorem word_neg_inf : Ideal.ofBits .f32 0xFF800000#32 = ⊥ := by
  simp [Ideal.ofBits, Ideal.ieee]

/-! ### The pass-through payloads and the reset values -/

/-- A shape cast to the same shape passes its operand through. -/
theorem pay3_eq (v23 : FVec Idealize.ShloMosaic.Ideal S1024x1 .f32) : k1_pay3 (F := Idealize.ShloMosaic.Ideal) v23 = v23 := by
  unfold k1_pay3
  exact shapeCast_self _ _

/-- A shape cast to the same shape passes its operand through. -/
theorem pay1_eq (v34 : FVec Idealize.ShloMosaic.Ideal S1024x1 .f32) : k1_pay1 (F := Idealize.ShloMosaic.Ideal) v34 = v34 := by
  unfold k1_pay1
  exact shapeCast_self _ _

/-- The running maximum's reset value is `-∞`. -/
theorem pay5_apply (r : Fin 1024) : k1_pay5 (F := Idealize.ShloMosaic.Ideal) (ix2 r (0 : Fin 1)) = (⊥ : EReal) := by
  unfold k1_pay5
  refine (congrFun (shapeCast_self _ _) _).trans ?_
  exact word_neg_inf

/-- The running denominator's reset value is `0`. -/
theorem pay6_apply (r : Fin 1024) : k1_pay6 (F := Idealize.ShloMosaic.Ideal) (ix2 r (0 : Fin 1)) = 0 := by
  unfold k1_pay6
  refine (congrFun (shapeCast_self _ _) _).trans ?_
  exact Ideal.ofBits_zero_f32

/-- The running numerator's reset value is `0`. -/
theorem pay7_apply (r : Fin 1024) (c : Fin 256) : k1_pay7 (F := Idealize.ShloMosaic.Ideal) (ix2 r c) = 0 := by
  unfold k1_pay7
  refine (congrFun (shapeCast_self _ _) _).trans ?_
  exact Ideal.ofBits_zero_f32

/-! ### The rescaling factor and the weights -/

/-- The rescaling factor of row `r`: the exponential of the old maximum minus the new. -/
theorem pay10_apply (v3 : Vec Idealize.ShloMosaic.Ideal S1024x1 .f32) (v5 : Vec Idealize.ShloMosaic.Ideal S1x1024 .f32)
    (v15 : Vec Idealize.ShloMosaic.Ideal S1024x1024 .i32) (v20 : Vec Idealize.ShloMosaic.Ideal S1024x1 .f32) (v24 : Vec Idealize.ShloMosaic.Ideal S1024x1 .f32) (r : Fin 1024) :
    k1_pay10 (F := Idealize.ShloMosaic.Ideal) v3 v5 v15 v20 v24 (ix2 r (0 : Fin 1))
      = Ideal.exp (v24 (ix2 r (0 : Fin 1)) - k1_pay9 (F := Idealize.ShloMosaic.Ideal) v3 v5 v15 v20 (ix2 r (0 : Fin 1))) := by
  unfold k1_pay10
  rfl

/-- The weight at row `r`, column `k`: the exponential of the score minus the row's new maximum. -/
theorem pay11_apply (v3 : Vec Idealize.ShloMosaic.Ideal S1024x1 .f32) (v5 : Vec Idealize.ShloMosaic.Ideal S1x1024 .f32)
    (v15 : Vec Idealize.ShloMosaic.Ideal S1024x1024 .i32) (v20 : Vec Idealize.ShloMosaic.Ideal S1024x1 .f32) (r k : Fin 1024) :
    k1_pay11 (F := Idealize.ShloMosaic.Ideal) v3 v5 v15 v20 (ix2 r k)
      = Ideal.exp (k1_pay8 (F := Idealize.ShloMosaic.Ideal) v3 v5 v15 (ix2 r k)
          - k1_pay9 (F := Idealize.ShloMosaic.Ideal) v3 v5 v15 v20 (ix2 r (0 : Fin 1))) := by
  unfold k1_pay11
  exact congrArg (fun z : EReal => Ideal.exp (k1_pay8 (F := Idealize.ShloMosaic.Ideal) v3 v5 v15 (ix2 r k) - z))
    (column_broadcast_apply (k1_pay9 (F := Idealize.ShloMosaic.Ideal) v3 v5 v15 v20) broadcasts_S1024x1_S1024x1024 r k)

end Cert.KernelIdeal.Pay
-- ==== Proof.KiPayC.lean ====
/-
  The attention kernel's two lane reductions read at a row, at the extended reals: the new running maximum of a
  row is the old one against the fold of max from -∞ over the row's scores, and the new running denominator is
  the rescaling factor times the old one plus the sum over the row of the weights. The score, the factor and
  the weights enter as given functions of the index.
-/
import proofs.«114251_j82927228552027_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- An `[a]` vector cast to an `[a, 1]` column reads, at `(i, u)`, the vector's entry `i`. -/
private theorem column_cast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The word `0xFF800000` is `-∞`. -/
private theorem word_neg_inf : Ideal.ofBits .f32 0xFF800000#32 = ⊥ := by
  simp [Ideal.ofBits, Ideal.ieee]

/-- A reduced index of a matrix's row `r` with the lane `k` put back is `(r, k)`. -/
private theorem lane_back {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The lane maximum of a matrix from `-∞`, kept as a column: at row `r`, the fold of `max` from `⊥` over
    the row. -/
private theorem row_max_apply {m n : ℕ} (f : FVec Idealize.ShloMosaic.Ideal ⟨2, ![m, n]⟩ .f32)
    (h : (⟨2, ![m, n]⟩ : Shape).Reduces [1] (⟨1, ![m]⟩ : Shape)) (hφ : FKind.Formats .f32)
    (hacc : (0xFF800000#32 : BitVec 32) = 0xFF800000#32)
    (h' : (⟨1, ![m]⟩ : Shape).ShapeCasts ⟨2, ![m, 1]⟩) (r : Fin m) (u : Fin 1) :
    shapeCast ⟨2, ![m, 1]⟩ (multiReduction (F := Idealize.ShloMosaic.Ideal) .maximumf [1] ⟨1, ![m]⟩ f 0xFF800000#32 h hφ hacc) h' (ix2 r u)
      = Finset.univ.fold max ⊥ fun k : Fin n => f (ix2 r k) := by
  rw [column_cast_apply _ _ r u]
  refine (Ideal.multiReduction_maximumf_single f 0xFF800000#32 h hφ hacc (ix1 r)).trans ?_
  show Finset.fold max (Ideal.ofBits .f32 0xFF800000#32) (fun k : Fin n => f (h.lift (ix1 r) k))
    (Finset.univ : Finset (Fin n)) = _
  rw [word_neg_inf]
  refine congrArg (fun g => Finset.fold max (⊥ : EReal) g (Finset.univ : Finset (Fin n))) ?_
  funext k
  exact congrArg f (lane_back h r k)

/-- The lane sum of a matrix, kept as a column: at row `r`, the sum over the row. -/
private theorem row_sum_apply {m n : ℕ} (f : FVec Idealize.ShloMosaic.Ideal ⟨2, ![m, n]⟩ .f32)
    (h : (⟨2, ![m, n]⟩ : Shape).Reduces [1] (⟨1, ![m]⟩ : Shape)) (hφ : FKind.Formats .f32)
    (hacc : (0x00000000#32 : BitVec 32) = 0x00000000#32)
    (h' : (⟨1, ![m]⟩ : Shape).ShapeCasts ⟨2, ![m, 1]⟩) (r : Fin m) (u : Fin 1) :
    shapeCast ⟨2, ![m, 1]⟩ (multiReduction (F := Idealize.ShloMosaic.Ideal) .add [1] ⟨1, ![m]⟩ f 0x00000000#32 h hφ hacc) h' (ix2 r u)
      = ∑ k : Fin n, f (ix2 r k) := by
  rw [column_cast_apply _ _ r u]
  refine (Ideal.multiReduction_add_single f 0x00000000#32 h hφ hacc (ix1 r)).trans ?_
  show ∑ k : Fin n, f (h.lift (ix1 r) k) = _
  exact Finset.sum_congr rfl fun k _ => congrArg f (lane_back h r k)

/-! ### The running maximum and the running denominator of a row -/

/-- The new running maximum of row `r`: the old one against the fold of `max` from `⊥` over the row's
    scores. -/
theorem pay9_apply (v3 : Vec Idealize.ShloMosaic.Ideal S1024x1 .f32) (v5 : Vec Idealize.ShloMosaic.Ideal S1x1024 .f32)
    (v15 : Vec Idealize.ShloMosaic.Ideal S1024x1024 .i32) (v20 : Vec Idealize.ShloMosaic.Ideal S1024x1 .f32) (r : Fin 1024) :
    k1_pay9 (F := Idealize.ShloMosaic.Ideal) v3 v5 v15 v20 (ix2 r (0 : Fin 1))
      = max (v20 (ix2 r (0 : Fin 1)))
          (Finset.univ.fold max ⊥ fun k : Fin 1024 => k1_pay8 (F := Idealize.ShloMosaic.Ideal) v3 v5 v15 (ix2 r k)) := by
  unfold k1_pay9
  exact congrArg (fun z : EReal => max (v20 (ix2 r (0 : Fin 1))) z)
    (row_max_apply (m := 1024) (n := 1024) (k1_pay8 (F := Idealize.ShloMosaic.Ideal) v3 v5 v15)
      reduces_S1024x1024_S1024 (.inl rfl) rfl shapeCasts_S1024_S1024x1 r (0 : Fin 1))

/-- The new running denominator of row `r`: the factor times the old one, plus the row's sum of weights. -/
theorem pay12_apply (v3 : Vec Idealize.ShloMosaic.Ideal S1024x1 .f32) (v5 : Vec Idealize.ShloMosaic.Ideal S1x1024 .f32)
    (v15 : Vec Idealize.ShloMosaic.Ideal S1024x1024 .i32) (v20 : Vec Idealize.ShloMosaic.Ideal S1024x1 .f32) (v24 v30 : Vec Idealize.ShloMosaic.Ideal S1024x1 .f32) (r : Fin 1024) :
    k1_pay12 (F := Idealize.ShloMosaic.Ideal) v3 v5 v15 v20 v24 v30 (ix2 r (0 : Fin 1))
      = k1_pay10 (F := Idealize.ShloMosaic.Ideal) v3 v5 v15 v20 v24 (ix2 r (0 : Fin 1)) * v30 (ix2 r (0 : Fin 1))
        + ∑ k : Fin 1024, k1_pay11 (F := Idealize.ShloMosaic.Ideal) v3 v5 v15 v20 (ix2 r k) := by
  unfold k1_pay12
  exact congrArg
    (fun z : EReal => k1_pay10 (F := Idealize.ShloMosaic.Ideal) v3 v5 v15 v20 v24 (ix2 r (0 : Fin 1)) * v30 (ix2 r (0 : Fin 1)) + z)
    (row_sum_apply (m := 1024) (n := 1024) (k1_pay11 (F := Idealize.ShloMosaic.Ideal) v3 v5 v15 v20)
      reduces_S1024x1024_S1024 (.inl rfl) rfl shapeCasts_S1024_S1024x1 r (0 : Fin 1))

end Cert.KernelIdeal.Pay
-- ==== Proof.KiPayD.lean ====
/-
  The attention kernel's numerator update and its output activation read at an index, at the extended reals:
  the new running numerator at a row and an output column is the rescaling factor times the old one plus the
  sum over the tile's columns of weight times value (a matrix product into a zero accumulator; the change of
  format of the weights is the identity here), and the output is, with q the numerator over the row's
  denominator, q where q > 0 and exp q minus the word of one elsewhere.
-/
import proofs.«114251_j82927228552027_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.StackMember

noncomputable section

namespace Cert.KernelIdeal.Pay

open Idealize.ShloMosaic Idealize.ShloMosaic.ValueIdx Cert.KernelIdeal Cert.KernelIdeal.Gen
open scoped BigOperators

/-- An `[a, 1]` column broadcast to `[a, b]` reads, at `(p, c)`, the column's entry of row `p`. -/
private theorem column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### Matrix products into a zero accumulator -/

/-- A plain `m × k` by `k × n` matrix product accumulated into the zero splat reads, at `(a, b)`, the sum
    over the contracted coordinate of the products of the entries. -/
private theorem plain_product_apply {m k n : ℕ} {φ₁ φ₂ : FTy}
    (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Idealize.ShloMosaic.matmul d prec A B (constant ⟨2, ![m, n]⟩ .f32 0x00000000#32) (ix2 a b)
      = ∑ c : Fin k, A (ix2 a c) * B (ix2 c b) := by
  subst hd
  rw [matmul_zero_eq_dotGeneral]
  exact StackMember.dotGeneral_plain_apply prec A B a b

/-- The attention kernel's contraction record is the plain `1024 × 1024` by `1024 × 256` one. -/
private theorem dot_attn_eq_plain :
    dot_S1024x1024_S1024x256_S1024x256_1_0_0_1_n_n = DotDims.plain 1024 1024 256 := rfl

/-- The new running numerator at row `r`, output column `c`: the factor times the old one, plus the sum over
    the tile's columns of weight times value. -/
theorem pay2_apply (v26 : FVec Idealize.ShloMosaic.Ideal S1024x1 .f32) (v29 : FVec Idealize.ShloMosaic.Ideal S1024x1024 .f32)
    (v41 : Vec Idealize.ShloMosaic.Ideal S1024x256 .bf16) (v45 : Vec Idealize.ShloMosaic.Ideal S1024x256 .f32) (r : Fin 1024) (c : Fin 256) :
    k1_pay2 (F := Idealize.ShloMosaic.Ideal) v26 v29 v41 v45 (ix2 r c)
      = v26 (ix2 r (0 : Fin 1)) * v45 (ix2 r c) + ∑ k : Fin 1024, v29 (ix2 r k) * v41 (ix2 k c) := by
  unfold k1_pay2
  refine (congrFun (shapeCast_self _ _) _).trans ?_
  refine congrArg₂ (fun a b : EReal => a * v45 (ix2 r c) + b)
    (column_broadcast_apply v26 broadcasts_S1024x1_S1024x256 r c) ?_
  refine (plain_product_apply (φ₁ := .bf16) (φ₂ := .bf16) _ dot_attn_eq_plain none _ _ r c).trans ?_
  refine Finset.sum_congr rfl fun k _ => ?_
  rw [truncf_apply, shapeCast_self]

/-! ### The output's activation -/

/-- The output at row `r`, column `c`: with `q` the numerator over the row's denominator, `q` where `q > 0`,
    else `exp q` minus the word of one. -/
theorem pay4_apply (v58 : Vec Idealize.ShloMosaic.Ideal S1024x256 .f32) (v59 : Vec Idealize.ShloMosaic.Ideal S1024x1 .f32) (r : Fin 1024)
    (c : Fin 256) :
    k1_pay4 (F := Idealize.ShloMosaic.Ideal) v58 v59 (ix2 r c)
      = Scalar.select (Ideal.cmp .ogt (Ideal.div (v58 (ix2 r c)) (v59 (ix2 r (0 : Fin 1)))) 0)
          (Ideal.div (v58 (ix2 r c)) (v59 (ix2 r (0 : Fin 1))))
          (Ideal.exp (Ideal.div (v58 (ix2 r c)) (v59 (ix2 r (0 : Fin 1)))) - Ideal.ofBits .f32 0x3F800000#32) := by
  unfold k1_pay4
  refine (congrArg (fun z : EReal =>
      Scalar.select (Ideal.cmp .ogt (Ideal.div (v58 (ix2 r c)) z) (Ideal.ofBits .f32 0x00000000#32))
        (Ideal.div (v58 (ix2 r c)) z)
        (Ideal.exp (Ideal.div (v58 (ix2 r c)) z) - Ideal.ofBits .f32 0x3F800000#32))
    (column_broadcast_apply v59 broadcasts_S1024x1_S1024x256 r c)).trans ?_
  rw [Ideal.ofBits_zero_f32]

end Cert.KernelIdeal.Pay
-- ==== Proof.KiPay.lean ====
/-
  The attention body's arithmetic read at an index, collected: the lane maximum, the rescaling exponentials, the
  denominator's and the numerator's updates, the finish, and the reset values.
-/
import proofs.«114251_j82927228552027_2_alg».proof.Proof.KiPayB
import proofs.«114251_j82927228552027_2_alg».proof.Proof.KiPayC
import proofs.«114251_j82927228552027_2_alg».proof.Proof.KiPayD
-- ==== Proof.LibOnlineSoftmax.lean ====
/-
  Online (streaming) softmax-weighted sums on the extended reals.

  A softmax-weighted sum  ∑ₖ (exp (sₖ - M) / L) · vₖ,  with  M  the maximum of all the scores  s
  and  L = ∑ₖ exp (sₖ - M),  can be computed in one pass over the scores cut into tiles, carrying a
  running maximum  m,  a running denominator  l  and a running numerator  acc :

      m₀ = ⊥,  l₀ = 0,  acc₀ = 0,
      m' = max m (maximum of the tile's scores),
      l'   = exp (m - m') · l   + ∑ₖ exp (sₖ - m'),
      acc' = exp (m - m') · acc + ∑ₖ exp (sₖ - m') · vₖ        (k over the tile),

  and dividing at the end,  acc / l.  Whenever the running maximum rises, the factor  exp (m - m')
  rescales what was accumulated against the old maximum, because
  exp (m - m') · exp (s - m) = exp (s - m').  The first tile meets  m = ⊥ :  there
  exp (⊥ - m') = exp ⊥ = 0,  and it multiplies  l₀ = acc₀ = 0.

  This file states the recurrence on the extended reals, with the exponential and the division that
  are total there (`Ideal.exp`, `Ideal.div`), proves its invariant for finite scores and values
  — after  j  tiles,  m  is the maximum of the scores seen so far (a real number once  j ≥ 1),  l
  is the real sum over them of  exp (s - m)  and  acc  the real sum of  exp (s - m) · v  — and
  concludes that the streamed quotient equals the one-shot softmax-weighted sum over all tiles and
  lanes. Tiles are numbered by natural numbers; the lanes of a tile are any finite type.
-/
import Idealize.ShloMosaic.PureOps.Ideal

noncomputable section

namespace OnlineSoftmax

open Idealize.ShloMosaic
open scoped BigOperators

/-! ### Coerced reals are closed under finite sums, products, maxima, `exp` and quotients -/

/-- A finite sum of real numbers, coerced, is the sum of the coerced numbers. -/
theorem coe_finset_sum {α : Type*} (t : Finset α) (f : α → ℝ) :
    ((∑ i ∈ t, f i : ℝ) : EReal) = ∑ i ∈ t, (f i : EReal) := by
  classical
  refine Finset.induction_on t ?_ ?_
  · rw [Finset.sum_empty, Finset.sum_empty, EReal.coe_zero]
  · intro a t ha ih
    rw [Finset.sum_insert ha, Finset.sum_insert ha, EReal.coe_add, ih]

/-- A finite product of real numbers, coerced, is the product of the coerced numbers. -/
theorem coe_finset_prod {α : Type*} (t : Finset α) (f : α → ℝ) :
    ((∏ i ∈ t, f i : ℝ) : EReal) = ∏ i ∈ t, (f i : EReal) := by
  classical
  refine Finset.induction_on t ?_ ?_
  · rw [Finset.prod_empty, Finset.prod_empty, EReal.coe_one]
  · intro a t ha ih
    rw [Finset.prod_insert ha, Finset.prod_insert ha, EReal.coe_mul, ih]

/-- The maximum of two coerced reals is the coerced maximum. -/
theorem coe_max (a b : ℝ) : ((max a b : ℝ) : EReal) = max (a : EReal) (b : EReal) :=
  EReal.coe_strictMono.monotone.map_max

/-- Folding `max` from `⊥` over a nonempty finite family of coerced reals gives a coerced real: the
    largest of them. -/
theorem fold_max_bot_coe {α : Type*} (t : Finset α) (h : t.Nonempty) (f : α → ℝ) :
    t.fold max (⊥ : EReal) (fun i => (f i : EReal)) = ((t.sup' h f : ℝ) : EReal) := by
  apply le_antisymm
  · exact (Finset.fold_max_le _).2
      ⟨bot_le, fun x hx => EReal.coe_le_coe_iff.2 (Finset.le_sup' f hx)⟩
  · obtain ⟨i, hi, he⟩ := Finset.exists_mem_eq_sup' h f
    rw [he]
    exact (Finset.le_fold_max _).2 (Or.inr ⟨i, hi, le_rfl⟩)

/-- Folding `max` from `⊥` is the finite supremum. -/
theorem fold_max_bot_eq_sup {α : Type*} (t : Finset α) (f : α → EReal) :
    t.fold max (⊥ : EReal) f = t.sup f := by
  apply le_antisymm
  · exact (Finset.fold_max_le _).2 ⟨bot_le, fun x hx => Finset.le_sup hx⟩
  · exact Finset.sup_le fun x hx => (Finset.le_fold_max _).2 (Or.inr ⟨x, hx, le_rfl⟩)

/-- The total exponential at a difference of coerced reals. -/
theorem exp_coe_sub_coe (a b : ℝ) :
    Ideal.exp ((a : EReal) - (b : EReal)) = ((Real.exp (a - b) : ℝ) : EReal) := by
  rw [← EReal.coe_sub, Ideal.exp_coe]

/-- The total exponential at `⊥` minus anything is `0`. -/
theorem exp_bot_sub (x : EReal) : Ideal.exp (⊥ - x) = 0 := by
  rw [EReal.bot_sub, Ideal.exp_bot]

/-- The total division at coerced reals with a nonzero denominator is the coerced quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- An extended real that is neither infinity is the coercion of a real. -/
theorem exists_coe_of_finite {x : EReal} (hb : x ≠ ⊥) (ht : x ≠ ⊤) : ∃ r : ℝ, x = (r : EReal) :=
  ⟨x.toReal, (EReal.coe_toReal ht hb).symm⟩

/-- A function into the extended reals that avoids both infinities is the coercion of a real-valued one. -/
theorem exists_coe_fun_of_finite {α : Type*} {f : α → EReal} (hb : ∀ a, f a ≠ ⊥) (ht : ∀ a, f a ≠ ⊤) :
    ∃ g : α → ℝ, ∀ a, f a = (g a : EReal) :=
  ⟨fun a => (f a).toReal, fun a => (EReal.coe_toReal (ht a) (hb a)).symm⟩

variable {ι : Type*} [Fintype ι]

/-! ### The recurrence -/

/-- The running maximum after `j` tiles: `⊥` before the first tile; each tile contributes the fold of
    `max` from `⊥` over its lanes. -/
def runMax (s : ℕ → ι → EReal) : ℕ → EReal
  | 0 => ⊥
  | j + 1 => max (runMax s j) (Finset.univ.fold max ⊥ (s j))

/-- The running denominator after `j` tiles: rescaled by `exp (m - m')` when the maximum moves from `m`
    to `m'`, plus the tile's sum of `exp (s - m')` (taken into a zero initial value). -/
def runDen (s : ℕ → ι → EReal) : ℕ → EReal
  | 0 => 0
  | j + 1 => Ideal.exp (runMax s j - runMax s (j + 1)) * runDen s j
      + (0 + ∑ k, Ideal.exp (s j k - runMax s (j + 1)))

/-- The running numerator after `j` tiles: rescaled likewise, plus the tile's sum of
    `exp (s - m') * v`. -/
def runNum (s v : ℕ → ι → EReal) : ℕ → EReal
  | 0 => 0
  | j + 1 => Ideal.exp (runMax s j - runMax s (j + 1)) * runNum s v j
      + ∑ k, Ideal.exp (s j k - runMax s (j + 1)) * v j k

theorem runMax_zero (s : ℕ → ι → EReal) : runMax s 0 = ⊥ := rfl
theorem runMax_succ (s : ℕ → ι → EReal) (j : ℕ) :
    runMax s (j + 1) = max (runMax s j) (Finset.univ.fold max ⊥ (s j)) := rfl
theorem runDen_zero (s : ℕ → ι → EReal) : runDen s 0 = 0 := rfl
theorem runDen_succ (s : ℕ → ι → EReal) (j : ℕ) :
    runDen s (j + 1) = Ideal.exp (runMax s j - runMax s (j + 1)) * runDen s j
      + (0 + ∑ k, Ideal.exp (s j k - runMax s (j + 1))) := rfl
/-- The same step with the tile's sum not taken into a zero. -/
theorem runDen_succ' (s : ℕ → ι → EReal) (j : ℕ) :
    runDen s (j + 1) = Ideal.exp (runMax s j - runMax s (j + 1)) * runDen s j
      + ∑ k, Ideal.exp (s j k - runMax s (j + 1)) := by
  rw [runDen_succ, zero_add]
theorem runNum_zero (s v : ℕ → ι → EReal) : runNum s v 0 = 0 := rfl
theorem runNum_succ (s v : ℕ → ι → EReal) (j : ℕ) :
    runNum s v (j + 1) = Ideal.exp (runMax s j - runMax s (j + 1)) * runNum s v j
      + ∑ k, Ideal.exp (s j k - runMax s (j + 1)) * v j k := rfl

/-- One tile's update of the triple (maximum, denominator, numerator), from the tile's scores `s` and
    values `v`. -/
def step (st : EReal × EReal × EReal) (s v : ι → EReal) : EReal × EReal × EReal :=
  (max st.1 (Finset.univ.fold max ⊥ s),
   Ideal.exp (st.1 - max st.1 (Finset.univ.fold max ⊥ s)) * st.2.1
     + (0 + ∑ k, Ideal.exp (s k - max st.1 (Finset.univ.fold max ⊥ s))),
   Ideal.exp (st.1 - max st.1 (Finset.univ.fold max ⊥ s)) * st.2.2
     + ∑ k, Ideal.exp (s k - max st.1 (Finset.univ.fold max ⊥ s)) * v k)

/-- The triple after `j` tiles, from `(⊥, 0, 0)`. -/
def run (s v : ℕ → ι → EReal) : ℕ → EReal × EReal × EReal
  | 0 => (⊥, 0, 0)
  | j + 1 => step (run s v j) (s j) (v j)

/-- The triple's components are the three running quantities. -/
theorem run_eq (s v : ℕ → ι → EReal) (j : ℕ) : run s v j = (runMax s j, runDen s j, runNum s v j) := by
  induction j with
  | zero => rfl
  | succ j ih => rw [run, ih]; rfl

/-- The running quantities after `j` tiles depend on the first `j` tiles only. -/
theorem runMax_congr {s s' : ℕ → ι → EReal} {j : ℕ} (h : ∀ i < j, s i = s' i) :
    runMax s j = runMax s' j := by
  induction j with
  | zero => rfl
  | succ j ih =>
    rw [runMax_succ, runMax_succ, ih fun i hi => h i (Nat.lt_succ_of_lt hi), h j (Nat.lt_succ_self j)]

theorem runNum_congr {s s' v v' : ℕ → ι → EReal} {j : ℕ} (h : ∀ i < j, s i = s' i)
    (hv : ∀ i < j, v i = v' i) : runNum s v j = runNum s' v' j := by
  induction j with
  | zero => rfl
  | succ j ih =>
    rw [runNum_succ, runNum_succ, ih (fun i hi => h i (Nat.lt_succ_of_lt hi))
      (fun i hi => hv i (Nat.lt_succ_of_lt hi)), runMax_congr h,
      runMax_congr fun i hi => h i (Nat.lt_succ_of_lt hi), h j (Nat.lt_succ_self j),
      hv j (Nat.lt_succ_self j)]

/-- The denominator is the numerator at the constant values `1`. -/
theorem runDen_eq_runNum_one (s : ℕ → ι → EReal) (j : ℕ) :
    runDen s j = runNum s (fun _ _ => 1) j := by
  induction j with
  | zero => rfl
  | succ j ih => rw [runDen_succ, runNum_succ, ih, zero_add]; simp only [mul_one]

theorem runDen_congr {s s' : ℕ → ι → EReal} {j : ℕ} (h : ∀ i < j, s i = s' i) :
    runDen s j = runDen s' j := by
  rw [runDen_eq_runNum_one, runDen_eq_runNum_one]
  exact runNum_congr h fun _ _ => rfl

/-! ### The running maximum is the maximum of the scores seen so far -/

/-- The running maximum after `j` tiles is the least upper bound of the scores of the first `j` tiles. -/
theorem runMax_le_iff (s : ℕ → ι → EReal) (j : ℕ) (c : EReal) :
    runMax s j ≤ c ↔ ∀ i < j, ∀ k, s i k ≤ c := by
  induction j with
  | zero =>
    rw [runMax_zero]
    exact ⟨fun _ i hi => absurd hi (Nat.not_lt_zero i), fun _ => bot_le⟩
  | succ j ih =>
    rw [runMax_succ, max_le_iff, ih, Finset.fold_max_le]
    constructor
    · rintro ⟨h1, -, h2⟩ i hi k
      rcases Nat.lt_succ_iff_lt_or_eq.1 hi with h | rfl
      · exact h1 i h k
      · exact h2 k (Finset.mem_univ k)
    · intro h
      exact ⟨fun i hi k => h i (Nat.lt_succ_of_lt hi) k, bot_le,
        fun k _ => h j (Nat.lt_succ_self j) k⟩

/-- In closed form: the supremum over the tiles seen of each tile's supremum (`⊥` for none). -/
theorem runMax_eq_sup (s : ℕ → ι → EReal) (j : ℕ) :
    runMax s j = (Finset.range j).sup fun i => Finset.univ.sup (s i) := by
  refine eq_of_forall_ge_iff fun c => ?_
  rw [runMax_le_iff, Finset.sup_le_iff]
  constructor
  · intro h i hi
    exact Finset.sup_le fun k _ => h i (Finset.mem_range.1 hi) k
  · intro h i hi k
    exact (Finset.le_sup (f := s i) (Finset.mem_univ k)).trans (h i (Finset.mem_range.2 hi))

/-- The maximum, folded from `⊥`, over all lanes of the first `T` tiles at once is the running maximum
    after `T` tiles. -/
theorem fold_prod_eq_runMax (s : ℕ → ι → EReal) (T : ℕ) :
    Finset.univ.fold max ⊥ (fun p : Fin T × ι => s p.1 p.2) = runMax s T := by
  refine eq_of_forall_ge_iff fun c => ?_
  rw [Finset.fold_max_le, runMax_le_iff]
  constructor
  · rintro ⟨-, h⟩ i hi k
    exact h (⟨i, hi⟩, k) (Finset.mem_univ _)
  · intro h
    exact ⟨bot_le, fun p _ => h p.1 p.1.isLt p.2⟩

/-! ### Finite scores: the running maximum is a real number from the first tile on -/

/-- With finite scores on the first `j ≥ 1` (nonempty) tiles, the running maximum after `j` tiles is
    a real number. -/
theorem runMax_isReal [Nonempty ι] {s : ℕ → ι → EReal} (sr : ℕ → ι → ℝ) {j : ℕ} (hj : 0 < j)
    (hs : ∀ i < j, ∀ k, s i k = (sr i k : EReal)) : ∃ M : ℝ, runMax s j = (M : EReal) := by
  induction j with
  | zero => exact absurd hj (lt_irrefl 0)
  | succ j ih =>
    have hsj : s j = fun k => (sr j k : EReal) := funext (hs j (Nat.lt_succ_self j))
    have hMt : Finset.univ.fold max ⊥ (s j)
        = ((Finset.univ.sup' Finset.univ_nonempty (sr j) : ℝ) : EReal) := by
      rw [hsj]; exact fold_max_bot_coe _ _ _
    rcases Nat.eq_zero_or_pos j with rfl | hpos
    · exact ⟨_, by rw [runMax_succ, runMax_zero, hMt]; exact max_bot_left _⟩
    · obtain ⟨M, hM⟩ := ih hpos (fun i hi => hs i (Nat.lt_succ_of_lt hi))
      exact ⟨max M _, by rw [runMax_succ, hM, hMt]; exact (coe_max _ _).symm⟩

/-- … so it is the coercion of its own real part. -/
theorem runMax_eq_coe_toReal [Nonempty ι] {s : ℕ → ι → EReal} (sr : ℕ → ι → ℝ) {j : ℕ} (hj : 0 < j)
    (hs : ∀ i < j, ∀ k, s i k = (sr i k : EReal)) : runMax s j = (((runMax s j).toReal : ℝ) : EReal) := by
  obtain ⟨M, hM⟩ := runMax_isReal sr hj hs
  rw [hM, EReal.toReal_coe]

/-- Every score seen so far is at most the running maximum (as real numbers). -/
theorem le_runMax_toReal [Nonempty ι] {s : ℕ → ι → EReal} (sr : ℕ → ι → ℝ) {j : ℕ}
    (hs : ∀ i < j, ∀ k, s i k = (sr i k : EReal)) {i : ℕ} (hi : i < j) (k : ι) :
    sr i k ≤ (runMax s j).toReal := by
  have h := (runMax_le_iff s j (runMax s j)).1 le_rfl i hi k
  rw [hs i hi k, runMax_eq_coe_toReal sr (Nat.zero_lt_of_lt hi) hs] at h
  exact EReal.coe_le_coe_iff.1 h

/-! ### The invariant of the denominator and the numerator -/

/-- Moving the reference point of the exponentials from `M` to `M'` multiplies a weighted sum of
    them by `exp (M - M')`. -/
theorem rescale_sum (sr w : ℕ → ι → ℝ) (j : ℕ) (M M' : ℝ) :
    Real.exp (M - M') * ∑ i ∈ Finset.range j, ∑ k, Real.exp (sr i k - M) * w i k
      = ∑ i ∈ Finset.range j, ∑ k, Real.exp (sr i k - M') * w i k := by
  rw [Finset.mul_sum]
  refine Finset.sum_congr rfl fun i _ => ?_
  rw [Finset.mul_sum]
  refine Finset.sum_congr rfl fun k _ => ?_
  have e : M - M' + (sr i k - M) = sr i k - M' := by ring
  rw [← mul_assoc, ← Real.exp_add, e]

/-- One tile's weighted sum of exponentials of coerced reals is the coerced real sum. -/
theorem tile_sum_coe (f g : ι → ℝ) (M : ℝ) :
    ∑ k, Ideal.exp ((f k : EReal) - (M : EReal)) * (g k : EReal)
      = ((∑ k, Real.exp (f k - M) * g k : ℝ) : EReal) := by
  rw [coe_finset_sum]
  refine Finset.sum_congr rfl fun k _ => ?_
  rw [exp_coe_sub_coe, ← EReal.coe_mul]

/-- THE INVARIANT, numerator. With finite scores and values on the first `j` tiles, the running
    numerator after `j` tiles is the real sum, over all lanes of those tiles, of
    `exp (score - m) * value`, where `m` is the running maximum after `j` tiles. -/
theorem runNum_eq [Nonempty ι] {s v : ℕ → ι → EReal} (sr vr : ℕ → ι → ℝ) (j : ℕ)
    (hs : ∀ i < j, ∀ k, s i k = (sr i k : EReal)) (hv : ∀ i < j, ∀ k, v i k = (vr i k : EReal)) :
    runNum s v j
      = ((∑ i ∈ Finset.range j, ∑ k, Real.exp (sr i k - (runMax s j).toReal) * vr i k : ℝ) : EReal) := by
  induction j with
  | zero => rw [runNum_zero, Finset.range_zero, Finset.sum_empty, EReal.coe_zero]
  | succ j ih =>
    have hs' : ∀ i < j, ∀ k, s i k = (sr i k : EReal) := fun i hi => hs i (Nat.lt_succ_of_lt hi)
    have hv' : ∀ i < j, ∀ k, v i k = (vr i k : EReal) := fun i hi => hv i (Nat.lt_succ_of_lt hi)
    have ih' := ih hs' hv'
    obtain ⟨M', hM'⟩ := runMax_isReal sr (Nat.succ_pos j) hs
    rw [runNum_succ, hM', EReal.toReal_coe, Finset.sum_range_succ, EReal.coe_add]
    congr 1
    · rcases Nat.eq_zero_or_pos j with rfl | hpos
      · rw [runNum_zero, mul_zero, Finset.range_zero, Finset.sum_empty, EReal.coe_zero]
      · obtain ⟨M, hM⟩ := runMax_isReal sr hpos hs'
        rw [ih', hM, EReal.toReal_coe, exp_coe_sub_coe, ← EReal.coe_mul, rescale_sum]
    · rw [← tile_sum_coe]
      refine Finset.sum_congr rfl fun k _ => ?_
      rw [hs j (Nat.lt_succ_self j) k, hv j (Nat.lt_succ_self j) k]

/-- THE INVARIANT, denominator: the real sum, over all lanes of the first `j` tiles, of
    `exp (score - m)`. -/
theorem runDen_eq [Nonempty ι] {s : ℕ → ι → EReal} (sr : ℕ → ι → ℝ) (j : ℕ)
    (hs : ∀ i < j, ∀ k, s i k = (sr i k : EReal)) :
    runDen s j
      = ((∑ i ∈ Finset.range j, ∑ k, Real.exp (sr i k - (runMax s j).toReal) : ℝ) : EReal) := by
  rw [runDen_eq_runNum_one, runNum_eq sr (fun _ _ => 1) j hs fun _ _ _ => EReal.coe_one.symm]
  simp only [mul_one]

/-- The denominator's real sum is positive once a tile has been seen. -/
theorem den_pos [Nonempty ι] (sr : ℕ → ι → ℝ) {j : ℕ} (hj : 0 < j) (M : ℝ) :
    0 < ∑ i ∈ Finset.range j, ∑ k, Real.exp (sr i k - M) :=
  Finset.sum_pos (fun _ _ => Finset.sum_pos (fun _ _ => Real.exp_pos _) Finset.univ_nonempty)
    (Finset.nonempty_range_iff.2 (Nat.pos_iff_ne_zero.1 hj))

/-! ### The final equation -/

/-- A sum over (tile, lane) pairs is the double sum over the tiles and the lanes. -/
theorem sum_prod_eq_sum_range {T : ℕ} (F : ℕ → ι → ℝ) :
    ∑ p : Fin T × ι, F p.1 p.2 = ∑ i ∈ Finset.range T, ∑ k, F i k := by
  rw [Fintype.sum_prod_type, Finset.sum_range fun i => ∑ k, F i k]

/-- THE FINAL EQUATION. For `T ≥ 1` nonempty tiles of finite scores and values, the streamed
    numerator over the streamed denominator is the softmax-weighted sum taken in one shot over all
    (tile, lane) pairs: with `M` the maximum of all scores (folded from `⊥`) and `L` the sum (into
    `0`) of all `exp (s - M)`, the sum of `(exp (s - M) / L) * v`. -/
theorem stream_eq_softmax [Nonempty ι] {T : ℕ} (hT : 0 < T) {s v : ℕ → ι → EReal}
    (sr vr : ℕ → ι → ℝ) (hs : ∀ i < T, ∀ k, s i k = (sr i k : EReal))
    (hv : ∀ i < T, ∀ k, v i k = (vr i k : EReal)) :
    Ideal.div (runNum s v T) (runDen s T)
      = ∑ p : Fin T × ι,
          Ideal.div
              (Ideal.exp (s p.1 p.2 - Finset.univ.fold max ⊥ (fun q : Fin T × ι => s q.1 q.2)))
              (0 + ∑ q : Fin T × ι,
                Ideal.exp (s q.1 q.2 - Finset.univ.fold max ⊥ (fun r : Fin T × ι => s r.1 r.2)))
            * v p.1 p.2 := by
  obtain ⟨M, hM⟩ := runMax_isReal sr hT hs
  rw [fold_prod_eq_runMax s T, runNum_eq sr vr T hs hv, runDen_eq sr T hs, hM, EReal.toReal_coe]
  have hD := den_pos sr hT M
  set D : ℝ := ∑ i ∈ Finset.range T, ∑ k, Real.exp (sr i k - M) with hDdef
  have hL : (0 + ∑ q : Fin T × ι, Ideal.exp (s q.1 q.2 - (M : EReal))) = (D : EReal) := by
    rw [zero_add, hDdef, ← sum_prod_eq_sum_range (T := T) fun i k => Real.exp (sr i k - M),
      coe_finset_sum]
    refine Finset.sum_congr rfl fun q _ => ?_
    rw [hs q.1 q.1.isLt q.2, exp_coe_sub_coe]
  have hR : ∀ p : Fin T × ι,
      Ideal.div (Ideal.exp (s p.1 p.2 - (M : EReal))) (D : EReal) * v p.1 p.2
        = ((Real.exp (sr p.1 p.2 - M) / D * vr p.1 p.2 : ℝ) : EReal) := by
    intro p
    rw [hs p.1 p.1.isLt p.2, hv p.1 p.1.isLt p.2, exp_coe_sub_coe, div_coe_coe _ hD.ne',
      ← EReal.coe_mul]
  rw [hL, div_coe_coe _ hD.ne', Finset.sum_congr rfl fun p _ => hR p, ← coe_finset_sum]
  refine congrArg Real.toEReal ?_
  rw [sum_prod_eq_sum_range (T := T) fun i k => Real.exp (sr i k - M) / D * vr i k, Finset.sum_div]
  refine Finset.sum_congr rfl fun i _ => ?_
  rw [Finset.sum_div]
  refine Finset.sum_congr rfl fun k _ => ?_
  rw [div_mul_eq_mul_div]

/-! ### Variants of the final equation -/

/-- The final equation with the one-shot maximum `M` and denominator `L` named (here `L` is the plain
    sum, not taken into a zero). -/
theorem stream_eq_softmax_named [Nonempty ι] {T : ℕ} (hT : 0 < T) {s v : ℕ → ι → EReal}
    (sr vr : ℕ → ι → ℝ) (hs : ∀ i < T, ∀ k, s i k = (sr i k : EReal))
    (hv : ∀ i < T, ∀ k, v i k = (vr i k : EReal)) {M L : EReal}
    (hM : M = Finset.univ.fold max ⊥ (fun q : Fin T × ι => s q.1 q.2))
    (hL : L = ∑ q : Fin T × ι, Ideal.exp (s q.1 q.2 - M)) :
    Ideal.div (runNum s v T) (runDen s T)
      = ∑ p : Fin T × ι, Ideal.div (Ideal.exp (s p.1 p.2 - M)) L * v p.1 p.2 := by
  subst hM
  subst hL
  rw [stream_eq_softmax hT sr vr hs hv, zero_add]

/-- The final equation from finiteness stated as "neither infinity". -/
theorem stream_eq_softmax_of_finite [Nonempty ι] {T : ℕ} (hT : 0 < T) {s v : ℕ → ι → EReal}
    (hsb : ∀ i < T, ∀ k, s i k ≠ ⊥) (hst : ∀ i < T, ∀ k, s i k ≠ ⊤)
    (hvb : ∀ i < T, ∀ k, v i k ≠ ⊥) (hvt : ∀ i < T, ∀ k, v i k ≠ ⊤) :
    Ideal.div (runNum s v T) (runDen s T)
      = ∑ p : Fin T × ι,
          Ideal.div
              (Ideal.exp (s p.1 p.2 - Finset.univ.fold max ⊥ (fun q : Fin T × ι => s q.1 q.2)))
              (0 + ∑ q : Fin T × ι,
                Ideal.exp (s q.1 q.2 - Finset.univ.fold max ⊥ (fun r : Fin T × ι => s r.1 r.2)))
            * v p.1 p.2 :=
  stream_eq_softmax hT (fun i k => (s i k).toReal) (fun i k => (v i k).toReal)
    (fun i hi k => (EReal.coe_toReal (hst i hi k) (hsb i hi k)).symm)
    (fun i hi k => (EReal.coe_toReal (hvt i hi k) (hvb i hi k)).symm)

/-- Multiplying a coerced real by the total reciprocal of a nonzero coerced real is dividing by it. -/
theorem mul_div_one_coe (x : EReal) {y : ℝ} (hy : y ≠ 0) :
    x * Ideal.div 1 (y : EReal) = Ideal.div x (y : EReal) := by
  rw [Ideal.div_coe hy, Ideal.div_coe hy, one_mul]

/-- The streamed numerator times the reciprocal of the streamed denominator is their quotient. -/
theorem runNum_mul_recip_runDen [Nonempty ι] {T : ℕ} (hT : 0 < T) {s : ℕ → ι → EReal}
    (v : ℕ → ι → EReal) (sr : ℕ → ι → ℝ) (hs : ∀ i < T, ∀ k, s i k = (sr i k : EReal)) :
    runNum s v T * Ideal.div 1 (runDen s T) = Ideal.div (runNum s v T) (runDen s T) := by
  rw [runDen_eq sr T hs]
  exact mul_div_one_coe _ (den_pos sr hT _).ne'

/-! ### Tiles numbered by `Fin T` -/

/-- Tiles numbered by `Fin T`, continued by `0` beyond `T` (the running quantities after `T` tiles do
    not see the continuation: `runMax_congr`, `runDen_congr`, `runNum_congr`). -/
def extend {T : ℕ} (S : Fin T → ι → EReal) : ℕ → ι → EReal :=
  fun j k => if h : j < T then S ⟨j, h⟩ k else 0

theorem extend_of_lt {T : ℕ} (S : Fin T → ι → EReal) {j : ℕ} (h : j < T) :
    extend S j = S ⟨j, h⟩ := by
  funext k; exact dif_pos h

theorem extend_val {T : ℕ} (S : Fin T → ι → EReal) (i : Fin T) : extend S i = S i :=
  extend_of_lt S i.isLt

/-- The final equation for tiles numbered by `Fin T`. -/
theorem stream_eq_softmax_fin [Nonempty ι] {T : ℕ} (hT : 0 < T) {S V : Fin T → ι → EReal}
    (Sr Vr : Fin T → ι → ℝ) (hS : ∀ i k, S i k = (Sr i k : EReal))
    (hV : ∀ i k, V i k = (Vr i k : EReal)) :
    Ideal.div (runNum (extend S) (extend V) T) (runDen (extend S) T)
      = ∑ p : Fin T × ι,
          Ideal.div
              (Ideal.exp (S p.1 p.2 - Finset.univ.fold max ⊥ (fun q : Fin T × ι => S q.1 q.2)))
              (0 + ∑ q : Fin T × ι,
                Ideal.exp (S q.1 q.2 - Finset.univ.fold max ⊥ (fun r : Fin T × ι => S r.1 r.2)))
            * V p.1 p.2 := by
  have h := stream_eq_softmax hT (s := extend S) (v := extend V)
    (fun j k => if h : j < T then Sr ⟨j, h⟩ k else 0)
    (fun j k => if h : j < T then Vr ⟨j, h⟩ k else 0)
    (fun i hi k => by rw [extend_of_lt S hi, dif_pos hi]; exact hS _ k)
    (fun i hi k => by rw [extend_of_lt V hi, dif_pos hi]; exact hV _ k)
  simp only [extend_val] at h
  exact h

/-- The same from finiteness stated as "neither infinity". -/
theorem stream_eq_softmax_fin_of_finite [Nonempty ι] {T : ℕ} (hT : 0 < T) {S V : Fin T → ι → EReal}
    (hSb : ∀ i k, S i k ≠ ⊥) (hSt : ∀ i k, S i k ≠ ⊤) (hVb : ∀ i k, V i k ≠ ⊥)
    (hVt : ∀ i k, V i k ≠ ⊤) :
    Ideal.div (runNum (extend S) (extend V) T) (runDen (extend S) T)
      = ∑ p : Fin T × ι,
          Ideal.div
              (Ideal.exp (S p.1 p.2 - Finset.univ.fold max ⊥ (fun q : Fin T × ι => S q.1 q.2)))
              (0 + ∑ q : Fin T × ι,
                Ideal.exp (S q.1 q.2 - Finset.univ.fold max ⊥ (fun r : Fin T × ι => S r.1 r.2)))
            * V p.1 p.2 :=
  stream_eq_softmax_fin hT (fun i k => (S i k).toReal) (fun i k => (V i k).toReal)
    (fun i k => (EReal.coe_toReal (hSt i k) (hSb i k)).symm)
    (fun i k => (EReal.coe_toReal (hVt i k) (hVb i k)).symm)

end OnlineSoftmax
-- ==== Proof.KiRow.lean ====
/-
  The induction along one row of the attention grid. The three scratch buffers after a column tile are one step —
  new maximum; denominator rescaled by exp (old maximum − new) plus the tile's sum of exp (score − new maximum);
  numerator rescaled likewise plus the tile's sum of exp (score − new maximum) · h — of what they held before, the
  first tile stepping from −∞, 0, 0. Read at a row r (and an output feature c) each step is the step of the
  streaming recurrence on the extended reals, so after the j-th tile the buffers hold that recurrence's maximum,
  denominator and numerator; and the finish divides the last numerator by the last denominator and applies the
  nonlinearity. The tile's scores enter as they are computed, unopened.
-/
import proofs.«114251_j82927228552027_2_alg».proof.Proof.KiPay
import proofs.«114251_j82927228552027_2_alg».proof.Proof.LibOnlineSoftmax

noncomputable section

open scoped BigOperators

namespace Cert.KernelIdeal.Row

open Idealize.ShloMosaic Idealize.ShloMosaic.ValueIdx OnlineSoftmax
open Cert.KernelIdeal Cert.KernelIdeal.Gen Cert.KernelIdeal.Pay

/-- Running maximum, denominator, numerator as the three scratch buffers hold them. -/
abbrev Tri : Type := Vec Ideal S1024x1 .f32 × Vec Ideal S1024x1 .f32 × Vec Ideal S1024x256 .f32

/-- One streaming update on the blocks of a column tile. -/
def step (X0 : Vec Ideal S1024x1 .f32) (X1 : Vec Ideal S1x1024 .f32) (X2 : Vec Ideal S1024x1024 .i32)
    (HT : Vec Ideal S1024x256 .bf16) (s : Tri) : Tri :=
  (k1_pay3 (k1_pay9 X0 X1 X2 s.1), k1_pay1 (k1_pay12 X0 X1 X2 s.1 s.1 s.2.1),
   k1_pay2 (k1_pay10 X0 X1 X2 s.1 s.1) (k1_pay11 X0 X1 X2 s.1) HT s.2.2)

/-- The reset: −∞, 0, 0. -/
def reset : Tri := (k1_pay5 (F := Ideal), k1_pay6 (F := Ideal), k1_pay7 (F := Ideal))

section Row

variable (x0 : ℕ → Vec Ideal S1024x1 .f32) (x1 : ℕ → Vec Ideal S1x1024 .f32) (x2 : ℕ → Vec Ideal S1024x1024 .i32)
  (hT : ℕ → Vec Ideal S1024x256 .bf16) (r : Fin 1024)

/-- Row r's masked scores, by tile and lane, as the body computes them. -/
def S : ℕ → Fin 1024 → EReal := fun j k => k1_pay8 (F := Ideal) (x0 j) (x1 j) (x2 j) (ix2 r k)
/-- Feature c of the tile's 1024 nodes. -/
def Vc (c : Fin 256) : ℕ → Fin 1024 → EReal := fun j k => hT j (ix2 k c)

/-- One step, read at row r: the recurrence's step from (M, L, A). -/
theorem step_apply (j : ℕ) (s : Tri) (M L : EReal) (A : Fin 256 → EReal)
    (hM : s.1 (ix2 r (0 : Fin 1)) = M) (hL : s.2.1 (ix2 r (0 : Fin 1)) = L) (hA : ∀ c, s.2.2 (ix2 r c) = A c) :
    (step (x0 j) (x1 j) (x2 j) (hT j) s).1 (ix2 r (0 : Fin 1)) = max M (Finset.univ.fold max ⊥ (S x0 x1 x2 r j))
    ∧ (step (x0 j) (x1 j) (x2 j) (hT j) s).2.1 (ix2 r (0 : Fin 1))
        = Ideal.exp (M - max M (Finset.univ.fold max ⊥ (S x0 x1 x2 r j))) * L
          + ∑ k, Ideal.exp (S x0 x1 x2 r j k - max M (Finset.univ.fold max ⊥ (S x0 x1 x2 r j)))
    ∧ ∀ c, (step (x0 j) (x1 j) (x2 j) (hT j) s).2.2 (ix2 r c)
        = Ideal.exp (M - max M (Finset.univ.fold max ⊥ (S x0 x1 x2 r j))) * A c
          + ∑ k, Ideal.exp (S x0 x1 x2 r j k - max M (Finset.univ.fold max ⊥ (S x0 x1 x2 r j))) * Vc hT c j k := by
  have h9 : k1_pay9 (F := Ideal) (x0 j) (x1 j) (x2 j) s.1 (ix2 r (0 : Fin 1)) = max M (Finset.univ.fold max ⊥ (S x0 x1 x2 r j)) := by
    rw [pay9_apply, hM]; rfl
  have h11 : ∀ k : Fin 1024, k1_pay11 (F := Ideal) (x0 j) (x1 j) (x2 j) s.1 (ix2 r k)
      = Ideal.exp (S x0 x1 x2 r j k - max M (Finset.univ.fold max ⊥ (S x0 x1 x2 r j))) := fun k => by
    rw [pay11_apply, h9]; rfl
  have h10 : k1_pay10 (F := Ideal) (x0 j) (x1 j) (x2 j) s.1 s.1 (ix2 r (0 : Fin 1))
      = Ideal.exp (M - max M (Finset.univ.fold max ⊥ (S x0 x1 x2 r j))) := by
    rw [pay10_apply, h9, hM]
  refine ⟨?_, ?_, fun c => ?_⟩
  · show k1_pay3 (F := Ideal) (k1_pay9 (F := Ideal) (x0 j) (x1 j) (x2 j) s.1) (ix2 r (0 : Fin 1)) = _
    rw [pay3_eq, h9]
  · show k1_pay1 (F := Ideal) (k1_pay12 (F := Ideal) (x0 j) (x1 j) (x2 j) s.1 s.1 s.2.1) (ix2 r (0 : Fin 1)) = _
    rw [pay1_eq, pay12_apply, h10, hL]
    congr 1
    exact Finset.sum_congr rfl fun k _ => h11 k
  · show k1_pay2 (F := Ideal) (k1_pay10 (F := Ideal) (x0 j) (x1 j) (x2 j) s.1 s.1) (k1_pay11 (F := Ideal) (x0 j) (x1 j) (x2 j) s.1) (hT j) s.2.2 (ix2 r c) = _
    rw [pay2_apply, h10, hA c]
    congr 1
    exact Finset.sum_congr rfl fun k _ => by rw [h11 k]; rfl

variable (st : ℕ → Tri)

/-- After the j-th column tile the scratch, read at row r, is the streaming recurrence after j + 1 tiles. -/
theorem invariant (h0 : st 0 = step (x0 0) (x1 0) (x2 0) (hT 0) reset)
    (hs : ∀ j, j + 1 < 12 → st (j + 1) = step (x0 (j + 1)) (x1 (j + 1)) (x2 (j + 1)) (hT (j + 1)) (st j)) :
    ∀ j, j < 12 → (st j).1 (ix2 r (0 : Fin 1)) = runMax (S x0 x1 x2 r) (j + 1)
      ∧ (st j).2.1 (ix2 r (0 : Fin 1)) = runDen (S x0 x1 x2 r) (j + 1)
      ∧ ∀ c, (st j).2.2 (ix2 r c) = runNum (S x0 x1 x2 r) (Vc hT c) (j + 1) := by
  intro j
  induction j with
  | zero =>
    intro _
    rw [h0]
    obtain ⟨a, b, d⟩ := step_apply x0 x1 x2 hT r 0 reset ⊥ 0 (fun _ => 0) (pay5_apply r) (pay6_apply r) (fun c => pay7_apply r c)
    exact ⟨a, b.trans (runDen_succ' (S x0 x1 x2 r) 0).symm, d⟩
  | succ j ih =>
    intro hj
    obtain ⟨hM, hL, hA⟩ := ih (Nat.lt_of_succ_lt hj)
    rw [hs j hj]
    obtain ⟨a, b, d⟩ := step_apply x0 x1 x2 hT r (j + 1) (st j) _ _ _ hM hL hA
    exact ⟨a, b.trans (runDen_succ' (S x0 x1 x2 r) (j + 1)).symm, d⟩

/-- The finish at the row's last column tile: the last numerator over the last denominator, then x where x > 0 and
    exp x − 1 elsewhere. -/
theorem finish (h0 : st 0 = step (x0 0) (x1 0) (x2 0) (hT 0) reset)
    (hs : ∀ j, j + 1 < 12 → st (j + 1) = step (x0 (j + 1)) (x1 (j + 1)) (x2 (j + 1)) (hT (j + 1)) (st j)) (c : Fin 256) :
    k1_pay4 (F := Ideal) (st 11).2.2 (st 11).2.1 (ix2 r c)
      = Scalar.select (Ideal.cmp .ogt (Ideal.div (runNum (S x0 x1 x2 r) (Vc hT c) 12) (runDen (S x0 x1 x2 r) 12)) 0)
          (Ideal.div (runNum (S x0 x1 x2 r) (Vc hT c) 12) (runDen (S x0 x1 x2 r) 12))
          (Ideal.exp (Ideal.div (runNum (S x0 x1 x2 r) (Vc hT c) 12) (runDen (S x0 x1 x2 r) 12)) - Ideal.ofBits .f32 0x3F800000#32) := by
  obtain ⟨-, hL, hA⟩ := invariant x0 x1 x2 hT r st h0 hs 11 (by norm_num)
  rw [pay4_apply, hA c, hL]

end Row

end Cert.KernelIdeal.Row

end
-- ==== Proof.KiVal0.lean ====
/-
  The projection grid as values. The body of the projection kernel leaves in its three output buffers the
  feature block h = x·W (rounded to sixteen bits on the chip, the same extended reals here) and the two logit halves
  s₁ = h·a₁, s₂ = h·a₂ as lane sums; row tile t of the grid reads rows 1024·t … of the input and writes rows
  1024·t … of each output, every point writing back, so the twelve blocks tile each output array; and so, at the
  extended reals, the arrays the grid leaves are h = inp·W, s₁ and s₂ as whole-array functions of the arrays the
  grid is entered with.
-/
import proofs.«114251_j82927228552027_2_alg».proof.Proof.KiMain
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The whole-shape rectangle's offsets, however the zeros are spelt. -/
theorem hz0 : (![0, 0] : Fin 2 → Nat) = fun _ => 0 := funext fun a => by fin_cases a <;> rfl

/-! ## What the projection body leaves in its three output buffers -/

theorem out0_4_eq (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) :
    out0_4 (F := F) c i arg1 harg1 arg2 harg2 arg3 harg3 arg4 harg4 arg5 harg5 arg6 harg6 arg7 harg7 x0 x1 x2 x3 = k0_pay4 x0 x1 := by
  unfold out0_4
  rw [View.read_writes_eq_canon _ _ _ (cover0_4 c i arg1 harg1 arg2 harg2 arg3 harg3 arg4 harg4 arg5 harg5 arg6 harg6 arg7 harg7 x0 x1 x2 x3)]
  unfold projRun
  dsimp only
  sl_unfold_run_names
  simp only [View.canon_cons_unit_zero (S := S1024x256) hz0, View.canon_cons_unit_zero (S := S1024x1) hz0, View.readAt_eq_ld, harg1.read_unread, harg2.read_unread, harg3.read_unread, harg4.read_unread, View.ld_unit_zero (S := S1024x512) hz0, View.ld_unit_zero (S := S512x256) hz0, View.ld_unit_zero (S := S1x256) hz0]

theorem out0_5_eq (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) :
    out0_5 (F := F) c i arg1 harg1 arg2 harg2 arg3 harg3 arg4 harg4 arg5 harg5 arg6 harg6 arg7 harg7 x0 x1 x2 x3 = k0_pay2 x0 x1 x2 := by
  unfold out0_5
  rw [View.read_writes_eq_canon _ _ _ (cover0_5 c i arg1 harg1 arg2 harg2 arg3 harg3 arg4 harg4 arg5 harg5 arg6 harg6 arg7 harg7 x0 x1 x2 x3)]
  unfold projRun
  dsimp only
  sl_unfold_run_names
  simp only [View.canon_cons_unit_zero (S := S1024x256) hz0, View.canon_cons_unit_zero (S := S1024x1) hz0, View.readAt_eq_ld, harg1.read_unread, harg2.read_unread, harg3.read_unread, harg4.read_unread, View.ld_unit_zero (S := S1024x512) hz0, View.ld_unit_zero (S := S512x256) hz0, View.ld_unit_zero (S := S1x256) hz0]

theorem out0_6_eq (c : Dev nD) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole) (x0 : Vec F S1024x512 .f32) (x1 : Vec F S512x256 .f32) (x2 : Vec F S1x256 .f32) (x3 : Vec F S1x256 .f32) :
    out0_6 (F := F) c i arg1 harg1 arg2 harg2 arg3 harg3 arg4 harg4 arg5 harg5 arg6 harg6 arg7 harg7 x0 x1 x2 x3 = k0_pay3 x0 x1 x3 := by
  unfold out0_6
  rw [View.read_writes_eq_canon _ _ _ (cover0_6 c i arg1 harg1 arg2 harg2 arg3 harg3 arg4 harg4 arg5 harg5 arg6 harg6 arg7 harg7 x0 x1 x2 x3)]
  unfold projRun
  dsimp only
  sl_unfold_run_names
  simp only [View.canon_cons_unit_zero (S := S1024x256) hz0, View.canon_cons_unit_zero (S := S1024x1) hz0, View.readAt_eq_ld, harg1.read_unread, harg2.read_unread, harg3.read_unread, harg4.read_unread, View.ld_unit_zero (S := S1024x512) hz0, View.ld_unit_zero (S := S512x256) hz0, View.ld_unit_zero (S := S1x256) hz0]

open Idealize.ShloMosaic.ValueIdx

/-! ## Where the projection grid's blocks sit

Point t of the grid is row tile t. The input window's block is rows 1024·t … of the input; the weight and the two
attention vectors are whole at every point; each output window's block is rows 1024·t … of its array, written
back at every point. -/

/-- Each window's block index at every point of the grid. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

section Entry
variable (V : (c : Dev nD) → (b : Ref sig .tc) → Buf (Elt F) ((c : Thread nD τ).loc b))

/-- The input block at row tile t: rows 1024·t + r of the input. -/
theorem blk0_0_apply (c : Dev nD) (t : Fin cfg0.N) (r : Fin 1024) (k : Fin 512) :
    (blk0 V c 0 t : Vec F S1024x512 .f32) (ix2 r k)
      = (V c main_arg0 : S12288x512.Idx → Elt F .f32) (ix2 ⟨1024 * t.val + r.val, by have hN : t.val < 12 := lt_of_lt_of_eq t.isLt N_0; omega⟩ k) := by
  unfold blk0
  rw [View.read_apply]
  show V c main_arg0 _ = V c main_arg0 _
  congr 1
  funext a
  apply Fin.ext
  obtain ⟨e0, e1, -⟩ := idx0 t
  match a with
  | ⟨0, _⟩ => show win0_0.index t (0 : Fin 2) * 1024 + 1 * r.val = 1024 * t.val + r.val; rw [e0]; omega
  | ⟨1, _⟩ => show win0_0.index t (1 : Fin 2) * 512 + 1 * k.val = k.val; rw [e1]; omega

/-- The weight window's block is the whole weight at every point. -/
theorem blk0_1_apply (c : Dev nD) (t : Fin cfg0.N) (k : Fin 512) (q : Fin 256) :
    (blk0 V c 1 t : Vec F S512x256 .f32) (ix2 k q) = (V c main_arg2 : S512x256.Idx → Elt F .f32) (ix2 k q) := by
  unfold blk0
  rw [View.read_apply]
  show V c main_arg2 _ = V c main_arg2 _
  congr 1
  funext a
  apply Fin.ext
  obtain ⟨-, -, e0, e1, -⟩ := idx0 t
  match a with
  | ⟨0, _⟩ => show win0_1.index t (0 : Fin 2) * 512 + 1 * k.val = k.val; rw [e0]; omega
  | ⟨1, _⟩ => show win0_1.index t (1 : Fin 2) * 256 + 1 * q.val = q.val; rw [e1]; omega

/-- The first attention vector's window is the whole row at every point. -/
theorem blk0_2_apply (c : Dev nD) (t : Fin cfg0.N) (q : Fin 256) :
    (blk0 V c 2 t : Vec F S1x256 .f32) (ix2 (0 : Fin 1) q) = (V c main_v0 : S1x256.Idx → Elt F .f32) (ix2 (0 : Fin 1) q) := by
  unfold blk0
  rw [View.read_apply]
  show V c main_v0 _ = V c main_v0 _
  congr 1
  funext a
  apply Fin.ext
  obtain ⟨-, -, -, -, e0, e1, -⟩ := idx0 t
  match a with
  | ⟨0, _⟩ => show win0_2.index t (0 : Fin 2) * 1 + 1 * 0 = 0; rw [e0]
  | ⟨1, _⟩ => show win0_2.index t (1 : Fin 2) * 256 + 1 * q.val = q.val; rw [e1]; omega

/-- The second attention vector's window is the whole row at every point. -/
theorem blk0_3_apply (c : Dev nD) (t : Fin cfg0.N) (q : Fin 256) :
    (blk0 V c 3 t : Vec F S1x256 .f32) (ix2 (0 : Fin 1) q) = (V c main_v1 : S1x256.Idx → Elt F .f32) (ix2 (0 : Fin 1) q) := by
  unfold blk0
  rw [View.read_apply]
  show V c main_v1 _ = V c main_v1 _
  congr 1
  funext a
  apply Fin.ext
  obtain ⟨-, -, -, -, -, -, e0, e1, -⟩ := idx0 t
  match a with
  | ⟨0, _⟩ => show win0_3.index t (0 : Fin 2) * 1 + 1 * 0 = 0; rw [e0]
  | ⟨1, _⟩ => show win0_3.index t (1 : Fin 2) * 256 + 1 * q.val = q.val; rw [e1]; omega

end Entry

/-! ## The output windows' blocks cover their arrays -/

theorem mem_blk0_4 (t : Fin cfg0.N) (i : S12288x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v2_0).slice (win0_4.rect t)).set ↔ _
  rw [View.set_slice_whole, Rect.mem_set_unit]
  exact Iff.rfl
theorem mem_blk0_5 (t : Fin cfg0.N) (i : S12288x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v2_1).slice (win0_5.rect t)).set ↔ _
  rw [View.set_slice_whole, Rect.mem_set_unit]
  exact Iff.rfl
theorem mem_blk0_6 (t : Fin cfg0.N) (i : S12288x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v2_2).slice (win0_6.rect t)).set ↔ _
  rw [View.set_slice_whole, Rect.mem_set_unit]
  exact Iff.rfl

/-- Every index of the feature array lies in the block written back at its row tile. -/
theorem tiles0_4 (i : S12288x256.Idx) :
    ∃ t : Fin cfg0.N, (cfg0.win 4).flush t = true ∧ i ∈ ((cfg0.win 4).blk t).view.set := by
  have hi0 : (i 0).val < 12288 := (i 0).isLt
  have hi1 : (i 1).val < 256 := (i 1).isLt
  let t : Fin cfg0.N := ⟨(i 0).val / 1024, by rw [show cfg0.N = 12 from N_0]; omega⟩
  obtain ⟨-, -, -, -, -, -, -, -, e0, e1, -⟩ := idx0 t
  refine ⟨t, flush0_4 t, ?_⟩
  rw [mem_blk0_4]
  have ht : t.val = (i 0).val / 1024 := rfl
  intro a
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 256 ≤ (i 1).val ∧ (i 1).val < win0_4.index t (1 : Fin 2) * 256 + 256; rw [e1]; omega
/-- Every index of the first logit half lies in the block written back at its row tile. -/
theorem tiles0_5 (i : S12288x1.Idx) :
    ∃ t : Fin cfg0.N, (cfg0.win 5).flush t = true ∧ i ∈ ((cfg0.win 5).blk t).view.set := by
  have hi0 : (i 0).val < 12288 := (i 0).isLt
  have hi1 : (i 1).val < 1 := (i 1).isLt
  let t : Fin cfg0.N := ⟨(i 0).val / 1024, by rw [show cfg0.N = 12 from N_0]; omega⟩
  obtain ⟨-, -, -, -, -, -, -, -, -, -, e0, e1, -⟩ := idx0 t
  refine ⟨t, flush0_5 t, ?_⟩
  rw [mem_blk0_5]
  have ht : t.val = (i 0).val / 1024 := rfl
  intro a
  match a with
  | ⟨0, _⟩ => show win0_5.index t (0 : Fin 2) * 1024 ≤ (i 0).val ∧ (i 0).val < win0_5.index t (0 : Fin 2) * 1024 + 1024; rw [e0, ht]; omega
  | ⟨1, _⟩ => show win0_5.index t (1 : Fin 2) * 1 ≤ (i 1).val ∧ (i 1).val < win0_5.index t (1 : Fin 2) * 1 + 1; rw [e1]; omega
/-- Every index of the second logit half lies in the block written back at its row tile. -/
theorem tiles0_6 (i : S12288x1.Idx) :
    ∃ t : Fin cfg0.N, (cfg0.win 6).flush t = true ∧ i ∈ ((cfg0.win 6).blk t).view.set := by
  have hi0 : (i 0).val < 12288 := (i 0).isLt
  have hi1 : (i 1).val < 1 := (i 1).isLt
  let t : Fin cfg0.N := ⟨(i 0).val / 1024, by rw [show cfg0.N = 12 from N_0]; omega⟩
  obtain ⟨-, -, -, -, -, -, -, -, -, -, -, -, e0, e1⟩ := idx0 t
  refine ⟨t, flush0_6 t, ?_⟩
  rw [mem_blk0_6]
  have ht : t.val = (i 0).val / 1024 := rfl
  intro a
  match a with
  | ⟨0, _⟩ => show win0_6.index t (0 : Fin 2) * 1024 ≤ (i 0).val ∧ (i 0).val < win0_6.index t (0 : Fin 2) * 1024 + 1024; rw [e0, ht]; omega
  | ⟨1, _⟩ => show win0_6.index t (1 : Fin 2) * 1 ≤ (i 1).val ∧ (i 1).val < win0_6.index t (1 : Fin 2) * 1 + 1; rw [e1]; omega

/-! ## The body's arithmetic at an index, at the extended reals -/

section AtIdeal

open scoped BigOperators

/-- The projection's matrix product: 1024 rows by the 512 input features by the 256 output features. -/
abbrev dProj : DotDims S1024x512 S512x256 S1024x256 := dot_S1024x512_S512x256_S1024x256_1_0_0_1_n_n

theorem lhs_proj_0 (i : S1024x256.Idx) (q : dProj.contr.Idx) : (dProj.lhsIdx i q 0).val = (i 0).val := by
  unfold DotDims.lhsIdx
  rw [dif_neg (show ¬(0 : Fin S1024x512.rank) ∈ dProj.lhsBatch by decide), dif_pos (show (0 : Fin S1024x512.rank) ∈ dProj.lhsNonContracting by decide)]
  rfl
theorem lhs_proj_1 (i : S1024x256.Idx) (q : dProj.contr.Idx) : (dProj.lhsIdx i q 1).val = (q ⟨0, by decide⟩).val :=
  dProj.lhsIdx_val_of_single rfl i q
theorem rhs_proj_0 (i : S1024x256.Idx) (q : dProj.contr.Idx) : (dProj.rhsIdx i q 0).val = (q ⟨0, by decide⟩).val :=
  dProj.rhsIdx_val_of_single rfl i q
theorem rhs_proj_1 (i : S1024x256.Idx) (q : dProj.contr.Idx) : (dProj.rhsIdx i q 1).val = (i 1).val := by
  unfold DotDims.rhsIdx
  rw [dif_neg (show ¬(1 : Fin S512x256.rank) ∈ dProj.rhsBatch by decide), dif_pos (show (1 : Fin S512x256.rank) ∈ dProj.rhsNonContracting by decide)]
  rfl

/-- The feature block at (r, c): the sum over the 512 input features (the roundings to sixteen bits are the
    identity on extended reals, the accumulator is zero). -/
theorem pay1_apply (v0 : Vec Ideal S1024x512 .f32) (v2 : Vec Ideal S512x256 .f32) (r : Fin 1024) (c : Fin 256) :
    k0_pay1 (F := Ideal) v0 v2 (ix2 r c) = ∑ k : Fin 512, v0 (ix2 r k) * v2 (ix2 k c) := by
  unfold k0_pay1
  simp only [matmul]
  rw [Ideal.matmul_constant_zero_apply, ← Equiv.sum_comp (contrEquiv1 dProj 512 rfl rfl).symm]
  refine Finset.sum_congr rfl fun k _ => ?_
  have hk := contrEquiv1_symm_val dProj 512 rfl rfl k
  have el : dProj.lhsIdx (ix2 r c) ((contrEquiv1 dProj 512 rfl rfl).symm k) = ix2 r k := funext fun a => Fin.ext (by
    match a with
    | ⟨0, _⟩ => exact lhs_proj_0 _ _
    | ⟨1, _⟩ => exact (lhs_proj_1 _ _).trans hk)
  have er : dProj.rhsIdx (ix2 r c) ((contrEquiv1 dProj 512 rfl rfl).symm k) = ix2 k c := funext fun a => Fin.ext (by
    match a with
    | ⟨0, _⟩ => exact (rhs_proj_0 _ _).trans hk
    | ⟨1, _⟩ => exact rhs_proj_1 _ _)
  rw [el, er]
  rfl

/-- The stored feature block is the same extended real. -/
theorem pay4_apply (v0 : Vec Ideal S1024x512 .f32) (v2 : Vec Ideal S512x256 .f32) (j : S1024x256.Idx) :
    k0_pay4 (F := Ideal) v0 v2 j = k0_pay1 (F := Ideal) v0 v2 j := rfl

/-- A [1024] vector cast to a [1024, 1] column reads the vector's entry. -/
theorem col_apply {α : Type} (x : S1024.Idx → α) (r : Fin 1024) :
    shapeCast S1024x1 x shapeCasts_S1024_S1024x1 (ix2 r (0 : Fin 1)) = x (ix1 r) :=
  shapeCast_apply x _ _ _ (by
    rw [Shape.rowMajor_val_two, Shape.rowMajor_val_one]
    show r.val = r.val * 1 + 0
    omega)

/-- The lane sum of a [1024, 256] block kept as a column: at row r the sum over the row. -/
theorem laneSum_apply (f : FVec Ideal S1024x256 .f32) (h : S1024x256.Reduces [1] S1024) (hφ : FKind.Formats .f32)
    (hacc : (0x00000000#32 : BitVec 32) = 0x00000000#32) (r : Fin 1024) :
    shapeCast S1024x1 (multiReduction (F := Ideal) .add [1] S1024 f 0x00000000#32 h hφ hacc) shapeCasts_S1024_S1024x1 (ix2 r (0 : Fin 1))
      = ∑ c : Fin 256, f (ix2 r c) := by
  rw [col_apply]
  refine (Ideal.multiReduction_add_single f 0x00000000#32 h hφ hacc (ix1 r)).trans ?_
  show ∑ k : Fin 256, f (h.lift (ix1 r) k) = _
  exact Finset.sum_congr rfl fun k _ => congrArg f (funext fun a => Fin.ext (by match a with | ⟨0, _⟩ => rfl | ⟨1, _⟩ => rfl))

/-- The attention row spread over the block reads the row's entry. -/
theorem rowSpread_apply (v : Vec Ideal S1x256 .f32) (r : Fin 1024) (c : Fin 256) :
    broadcastTo S1024x256 (shapeCast S1x256 v shapeCasts_S1x256_S1x256) broadcasts_S1x256_S1024x256 (ix2 r c) = v (ix2 (0 : Fin 1) c) := by
  rw [broadcastTo_apply _ broadcasts_S1x256_S1024x256 (ix2 r c) (ix2 (0 : Fin 1) c) (fun a => match a with
      | ⟨0, _⟩ => by show 0 = if (1 : Nat) = 1 then 0 else r.val; rw [if_pos rfl]
      | ⟨1, _⟩ => by show c.val = if (256 : Nat) = 1 then 0 else c.val; rw [if_neg (by decide)]),
    shapeCast_self]

/-- The first logit half at row r: the lane sum of the feature block times the first attention row. -/
theorem pay2_apply (v0 : Vec Ideal S1024x512 .f32) (v2 : Vec Ideal S512x256 .f32) (v5 : Vec Ideal S1x256 .f32) (r : Fin 1024) :
    k0_pay2 (F := Ideal) v0 v2 v5 (ix2 r (0 : Fin 1)) = ∑ c : Fin 256, k0_pay1 (F := Ideal) v0 v2 (ix2 r c) * v5 (ix2 (0 : Fin 1) c) := by
  unfold k0_pay2
  refine (laneSum_apply _ reduces_S1024x256_S1024 (.inl rfl) rfl r).trans ?_
  refine Finset.sum_congr rfl fun c _ => ?_
  rw [mulf_apply, rowSpread_apply]

/-- The second logit half at row r, likewise with the second attention row. -/
theorem pay3_apply (v0 : Vec Ideal S1024x512 .f32) (v2 : Vec Ideal S512x256 .f32) (v7 : Vec Ideal S1x256 .f32) (r : Fin 1024) :
    k0_pay3 (F := Ideal) v0 v2 v7 (ix2 r (0 : Fin 1)) = ∑ c : Fin 256, k0_pay1 (F := Ideal) v0 v2 (ix2 r c) * v7 (ix2 (0 : Fin 1) c) := by
  unfold k0_pay3
  refine (laneSum_apply _ reduces_S1024x256_S1024 (.inl rfl) rfl r).trans ?_
  refine Finset.sum_congr rfl fun c _ => ?_
  rw [mulf_apply, rowSpread_apply]

end AtIdeal

/-! ## The arrays the grid leaves, at the extended reals -/

section Final

open scoped BigOperators

variable (V : (c : Dev nD) → (b : Ref sig .tc) → Buf (Elt Ideal) ((c : Thread nD τ).loc b))

/-- The input array and the weight array the grid is entered with, as arrays of extended reals. -/
abbrev inpArr (c : Dev nD) : S12288x512.Idx → EReal := V c main_arg0
abbrev wArr (c : Dev nD) : S512x256.Idx → EReal := V c main_arg2

/-- The features h = inp · W over the arrays the grid is entered with. -/
def hArr (c : Dev nD) : S12288x256.Idx → EReal :=
  fun j => ∑ k : Fin 512, inpArr V c (ix2 (j 0) k) * wArr V c (ix2 k (j 1))

/-- A logit half h · a over them, for the attention row a. -/
def sArr (c : Dev nD) (a : S1x256.Idx → EReal) : S12288x1.Idx → EReal :=
  fun j => 0 + ∑ q : Fin 256, hArr V c (ix2 (j 0) q) * a (ix2 (0 : Fin 1) q)

theorem hArr_ix2 (c : Dev nD) (i : Fin 12288) (q : Fin 256) :
    hArr V c (ix2 i q) = ∑ k : Fin 512, inpArr V c (ix2 i k) * wArr V c (ix2 k q) := rfl
theorem sArr_ix2 (c : Dev nD) (a : S1x256.Idx → EReal) (i : Fin 12288) :
    sArr V c a (ix2 i (0 : Fin 1)) = 0 + ∑ q : Fin 256, hArr V c (ix2 i q) * a (ix2 (0 : Fin 1) q) := rfl

/-- The feature block the body computes at row tile t, at (r, q), is the features at row 1024·t + r. -/
theorem feat_point (c : Dev nD) (t : Fin cfg0.N) (r : Fin 1024) (q : Fin 256) :
    k0_pay1 (F := Ideal) (blk0 V c 0 t) (blk0 V c 1 t) (ix2 r q)
      = hArr V c (ix2 (⟨1024 * t.val + r.val, by have hN : t.val < 12 := lt_of_lt_of_eq t.isLt N_0; omega⟩ : Fin 12288) q) := by
  rw [pay1_apply, hArr_ix2]
  exact Finset.sum_congr rfl fun k _ => by rw [blk0_0_apply, blk0_1_apply]

/-- Where row tile t's block of a [12288, 256] output sits. -/
theorem emb0_4 (t : Fin cfg0.N) (r : Fin 1024) (q : Fin 256) :
    ((cfg0.win 4).blk t).view.emb (ix2 r q) = ix2 (⟨1024 * t.val + r.val, by have hN : t.val < 12 := lt_of_lt_of_eq t.isLt N_0; omega⟩ : Fin 12288) q := by
  funext a
  apply Fin.ext
  obtain ⟨-, -, -, -, -, -, -, -, e0, e1, -⟩ := idx0 t
  match a with
  | ⟨0, _⟩ => show win0_4.index t (0 : Fin 2) * 1024 + 1 * r.val = 1024 * t.val + r.val; rw [e0]; omega
  | ⟨1, _⟩ => show win0_4.index t (1 : Fin 2) * 256 + 1 * q.val = q.val; rw [e1]; omega
theorem emb0_5 (t : Fin cfg0.N) (r : Fin 1024) :
    ((cfg0.win 5).blk t).view.emb (ix2 r (0 : Fin 1)) = ix2 (⟨1024 * t.val + r.val, by have hN : t.val < 12 := lt_of_lt_of_eq t.isLt N_0; omega⟩ : Fin 12288) (0 : Fin 1) := by
  funext a
  apply Fin.ext
  obtain ⟨-, -, -, -, -, -, -, -, -, -, e0, e1, -⟩ := idx0 t
  match a with
  | ⟨0, _⟩ => show win0_5.index t (0 : Fin 2) * 1024 + 1 * r.val = 1024 * t.val + r.val; rw [e0]; omega
  | ⟨1, _⟩ => show win0_5.index t (1 : Fin 2) * 1 + 1 * 0 = 0; rw [e1]
theorem emb0_6 (t : Fin cfg0.N) (r : Fin 1024) :
    ((cfg0.win 6).blk t).view.emb (ix2 r (0 : Fin 1)) = ix2 (⟨1024 * t.val + r.val, by have hN : t.val < 12 := lt_of_lt_of_eq t.isLt N_0; omega⟩ : Fin 12288) (0 : Fin 1) := by
  funext a
  apply Fin.ext
  obtain ⟨-, -, -, -, -, -, -, -, -, -, -, -, e0, e1⟩ := idx0 t
  match a with
  | ⟨0, _⟩ => show win0_6.index t (0 : Fin 2) * 1024 + 1 * r.val = 1024 * t.val + r.val; rw [e0]; omega
  | ⟨1, _⟩ => show win0_6.index t (1 : Fin 2) * 1 + 1 * 0 = 0; rw [e1]

/-- What row tile t leaves for the feature window, element by element: the features read through the tile's block. -/
theorem point0_4 (c : Dev nD) (t : Fin cfg0.N) (j : S1024x256.Idx) :
    k0_pay4 (F := Ideal) (blk0 V c 0 t) (blk0 V c 1 t) j = hArr V c (((cfg0.win 4).blk t).view.emb j) := by
  obtain ⟨r, q, rfl⟩ : ∃ (r : Fin 1024) (q : Fin 256), j = ix2 r q := ⟨j 0, j 1, eq_ix2 j⟩
  rw [pay4_apply, feat_point, emb0_4]
/-- … for the first logit half … -/
theorem point0_5 (c : Dev nD) (t : Fin cfg0.N) (j : S1024x1.Idx) :
    k0_pay2 (F := Ideal) (blk0 V c 0 t) (blk0 V c 1 t) (blk0 V c 2 t) j
      = sArr V c (V c main_v0 : S1x256.Idx → EReal) (((cfg0.win 5).blk t).view.emb j) := by
  obtain ⟨r, u, rfl⟩ : ∃ (r : Fin 1024) (u : Fin 1), j = ix2 r u := ⟨j 0, j 1, eq_ix2 j⟩
  obtain rfl : u = 0 := Subsingleton.elim _ _
  rw [pay2_apply, emb0_5, sArr_ix2, zero_add]
  exact Finset.sum_congr rfl fun q _ => by rw [feat_point, blk0_2_apply]
/-- … and for the second. -/
theorem point0_6 (c : Dev nD) (t : Fin cfg0.N) (j : S1024x1.Idx) :
    k0_pay3 (F := Ideal) (blk0 V c 0 t) (blk0 V c 1 t) (blk0 V c 3 t) j
      = sArr V c (V c main_v1 : S1x256.Idx → EReal) (((cfg0.win 6).blk t).view.emb j) := by
  obtain ⟨r, u, rfl⟩ : ∃ (r : Fin 1024) (u : Fin 1), j = ix2 r u := ⟨j 0, j 1, eq_ix2 j⟩
  obtain rfl : u = 0 := Subsingleton.elim _ _
  rw [pay3_apply, emb0_6, sArr_ix2, zero_add]
  exact Finset.sum_congr rfl fun q _ => by rw [feat_point, blk0_3_apply]

/-- What row tile t writes back for the feature window is block t of the features. -/
theorem flushed0_4_eq (c : Dev nD) (t : Fin cfg0.N) :
    (dat0 V c).flushed 4 t = ((cfg0.win 4).blk t).view.read (Elt Ideal) (hArr V c) := by
  show (cfg0.win 4).cut (grid0.coords t) ((dat0 V c).after 4 t) = _
  rw [after0_4, out0_4_eq]
  funext j
  exact point0_4 V c t j
theorem flushed0_5_eq (c : Dev nD) (t : Fin cfg0.N) :
    (dat0 V c).flushed 5 t = ((cfg0.win 5).blk t).view.read (Elt Ideal) (sArr V c (V c main_v0 : S1x256.Idx → EReal)) := by
  show (cfg0.win 5).cut (grid0.coords t) ((dat0 V c).after 5 t) = _
  rw [after0_5, out0_5_eq]
  funext j
  exact point0_5 V c t j
theorem flushed0_6_eq (c : Dev nD) (t : Fin cfg0.N) :
    (dat0 V c).flushed 6 t = ((cfg0.win 6).blk t).view.read (Elt Ideal) (sArr V c (V c main_v1 : S1x256.Idx → EReal)) := by
  show (cfg0.win 6).cut (grid0.coords t) ((dat0 V c).after 6 t) = _
  rw [after0_6, out0_6_eq]
  funext j
  exact point0_6 V c t j

/-- The feature array the grid leaves: h = inp · W. -/
theorem final0_4 (c : Dev nD) : (dat0 V c).arrAt 4 cfg0.N = hArr V c :=
  (dat0 V c).arrAt_eq_of_cover 4 (hArr V c) (fun t _ => flushed0_4_eq V c t) tiles0_4
/-- The first logit half it leaves: s₁ = h · a₁. -/
theorem final0_5 (c : Dev nD) : (dat0 V c).arrAt 5 cfg0.N = sArr V c (V c main_v0 : S1x256.Idx → EReal) :=
  (dat0 V c).arrAt_eq_of_cover 5 (sArr V c (V c main_v0 : S1x256.Idx → EReal)) (fun t _ => flushed0_5_eq V c t) tiles0_5
/-- The second logit half it leaves: s₂ = h · a₂. -/
theorem final0_6 (c : Dev nD) : (dat0 V c).arrAt 6 cfg0.N = sArr V c (V c main_v1 : S1x256.Idx → EReal) :=
  (dat0 V c).arrAt_eq_of_cover 6 (sArr V c (V c main_v1 : S1x256.Idx → EReal)) (fun t _ => flushed0_6_eq V c t) tiles0_6

end Final

end Cert.KernelIdeal.Hand

end
-- ==== Proof.KiEntry.lean ====
/-
  What each grid finds in the arrays its windows read. The projection grid is entered after the first host stretch:
  the input features and the weights are as launched, and the two attention vectors are the transposes of a1 and
  a2. The attention grid is entered after the second host stretch: the s1 column and h are what the projection
  grid's write-backs folded to, the s2 row is the transpose of the s2 column so folded, and the adjacency is as
  launched.
-/
import proofs.«114251_j82927228552027_2_alg».proof.Proof.KiMain
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The projection grid's entry -/

theorem E1_arg0 (c : Dev nD) : E1 m ρ c main_arg0 = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem E1_arg2 (c : Dev nD) : E1 m ρ c main_arg2 = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- The first attention vector as a row. -/
theorem E1_v0 (c : Dev nD) : (E1 m ρ c main_v0 : S1x256.Idx → Elt F .f32)
    = transpose S1x256 [1, 0] (m ((c : Thread nD τ).loc main_arg3)) Facts₀.transposes_S256x1_S1x256_1_0 := by
  show StableHlo.after hostOps0 (B0 m ρ c) (Proc.devRef .tc main_v0) = _
  after_results
/-- The second attention vector as a row. -/
theorem E1_v1 (c : Dev nD) : (E1 m ρ c main_v1 : S1x256.Idx → Elt F .f32)
    = transpose S1x256 [1, 0] (m ((c : Thread nD τ).loc main_arg4)) Facts₀.transposes_S256x1_S1x256_1_0 := by
  show StableHlo.after hostOps0 (B0 m ρ c) (Proc.devRef .tc main_v1) = _
  after_results

/-! ## The attention grid's entry -/

/-- The s1 column: what the projection grid's write-backs fold to. -/
theorem E3_v2_1 (c : Dev nD) : E3 m ρ c main_v2_1 = (dat0 (E1 m ρ) c).arrAt 5 cfg0.N :=
  (StableHlo.after_of_forall_not_mem (b := Proc.devRef .tc main_v2_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (B2_arr m ρ c 5)
/-- h, likewise. -/
theorem E3_v2_0 (c : Dev nD) : E3 m ρ c main_v2_0 = (dat0 (E1 m ρ) c).arrAt 4 cfg0.N :=
  (StableHlo.after_of_forall_not_mem (b := Proc.devRef .tc main_v2_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (B2_arr m ρ c 4)
/-- The s2 row: the transpose of the s2 column the projection grid's write-backs fold to. -/
theorem E3_v3 (c : Dev nD) : (E3 m ρ c main_v3 : S1x12288.Idx → Elt F .f32)
    = transpose S1x12288 [1, 0] ((dat0 (E1 m ρ) c).arrAt 6 cfg0.N) Facts₀.transposes_S12288x1_S1x12288_1_0 := by
  have e : (E3 m ρ c main_v3 : S1x12288.Idx → Elt F .f32)
      = transpose S1x12288 [1, 0] (B2 m ρ c (Proc.devRef .tc main_v2_2)) Facts₀.transposes_S12288x1_S1x12288_1_0 := by
    show StableHlo.after hostOps1 (B2 m ρ c) (Proc.devRef .tc main_v3) = _
    after_results
  rw [e]
  exact congrArg (fun x => transpose S1x12288 [1, 0] x Facts₀.transposes_S12288x1_S1x12288_1_0) (B2_arr m ρ c 6)
/-- The adjacency, as launched. -/
theorem E3_arg1 (c : Dev nD) : E3 m ρ c main_arg1 = m ((c : Thread nD τ).loc main_arg1) :=
  calc B3 m ρ c (Proc.devRef .tc main_arg1)
    _ = B2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

end Cert.KernelIdeal.Hand

end
-- ==== Proof.RefSpec.lean ====
/-
  The graph-attention layer as one function of its five argument arrays, index by index, on the
  extended reals.

  For a node i and an output feature c:
    feature i c   = ∑ k, inp i k · W k c                       (h = inp · W)
    half a i      = ∑ c, feature i c · a c                     (s₁ = h · a₁, s₂ = h · a₂)
    score i k     = leaky-relu (half a₁ i + half a₂ k) where adj i k > 0 (signed), else the fill −9e15
    rowTop i      = max (−∞) (the maximum over k of score i k, from −∞)
    shifted i k   = exp (score i k − rowTop i)
    rowTotal i    = 0 + ∑ k, shifted i k
    weight i k    = shifted i k / rowTotal i
    mixed i c     = ∑ k, weight i k · feature k c              (attention · h)
    G (i, c)      = elu (mixed i c)
  The float constants stay the extended reals their words denote: the slope 0.2 is the word
  0x3E4CCCCD, the fill −9e15 the word 0xD9FFCB9E, −∞ the word 0xFF800000, one the word 0x3F800000;
  the zero word is the extended real 0.
-/
import Idealize.ShloMosaic.PureOps.Ideal
import Idealize.ShloMosaic.Lib.ValueIdx

noncomputable section

open scoped BigOperators

namespace Cert.ReferenceIdeal.RefSpec

open Idealize.ShloMosaic Idealize.ShloMosaic.ValueIdx

variable (inp : (⟨2, ![12288, 512]⟩ : Shape).Idx → EReal) (adj : (⟨2, ![12288, 12288]⟩ : Shape).Idx → BitVec 32)
  (W : (⟨2, ![512, 256]⟩ : Shape).Idx → EReal) (a a1 a2 : (⟨2, ![256, 1]⟩ : Shape).Idx → EReal)

/-- The node features h = inp · W at node i, feature c. -/
def feature (i : Fin 12288) (c : Fin 256) : EReal := ∑ k : Fin 512, inp (ix2 i k) * W (ix2 k c)

/-- One half of an attention logit: (h · a) at node i, for the column a. -/
def half (i : Fin 12288) : EReal := ∑ c : Fin 256, feature inp W i c * a (ix2 c (0 : Fin 1))

/-- Leaky relu with the slope 0.2: x where x ≥ 0, else slope · x. -/
def leakyRelu (x : EReal) : EReal :=
  Scalar.select (Ideal.cmp .oge x 0) x (Ideal.ofBits .f32 0x3E4CCCCD#32 * x)

/-- The masked attention logit of the pair (i, k). -/
def score (i k : Fin 12288) : EReal :=
  Scalar.select (IntOp.cmpi .sgt (adj (ix2 i k)) 0#32) (leakyRelu (half inp W a1 i + half inp W a2 k))
    (Ideal.ofBits .f32 0xD9FFCB9E#32)

/-- The maximum of row i of the scores, folded from −∞ and not below −∞. -/
def rowTop (i : Fin 12288) : EReal :=
  max (Ideal.ofBits .f32 0xFF800000#32)
    ((Finset.univ : Finset (Fin 12288)).fold max (Ideal.ofBits .f32 0xFF800000#32) fun k => score inp adj W a1 a2 i k)

/-- The exponential of a score shifted by its row's maximum. -/
def shifted (i k : Fin 12288) : EReal := Ideal.exp (score inp adj W a1 a2 i k - rowTop inp adj W a1 a2 i)

/-- The sum of row i of the shifted exponentials, from zero. -/
def rowTotal (i : Fin 12288) : EReal := 0 + ∑ k : Fin 12288, shifted inp adj W a1 a2 i k

/-- The attention weight of node k for node i. -/
def weight (i k : Fin 12288) : EReal := Ideal.div (shifted inp adj W a1 a2 i k) (rowTotal inp adj W a1 a2 i)

/-- The attention-weighted average of the features. -/
def mixed (i : Fin 12288) (c : Fin 256) : EReal := ∑ k : Fin 12288, weight inp adj W a1 a2 i k * feature inp W k c

/-- Elu: x where x > 0, else 1 · (exp (x where x ≤ 0, 0 where x > 0) − 1). -/
def eluS (x : EReal) : EReal :=
  Scalar.select (Ideal.cmp .ogt x 0) x
    (Ideal.ofBits .f32 0x3F800000#32 * (Ideal.exp (Scalar.select (Ideal.cmp .ogt x 0) 0 x) - 1))

/-- The layer's result, index by index. -/
def G : (⟨2, ![12288, 256]⟩ : Shape).Idx → EReal := fun j => eluS (mixed inp adj W a1 a2 (j 0) (j 1))

/-- At the index with coordinates (i, c). -/
theorem G_ix2 (i : Fin 12288) (c : Fin 256) : G inp adj W a1 a2 (ix2 i c) = eluS (mixed inp adj W a1 a2 i c) := rfl

end Cert.ReferenceIdeal.RefSpec

end
-- ==== Proof.KiElems.lean ====
/-
  The elements the attention grid reads, in the layer's words. The projection grid leaves the features
  h = inp · W and the two logit halves h · a₁, h · a₂ (the attention vectors enter as rows, the transposes of the
  columns a₁, a₂); the attention grid's point t (row tile t / 12, column tile t % 12) then reads: the first half at
  the row tile's rows, the second half (transposed to a row) at the column tile's nodes, the adjacency words of
  the pairs, and the features of the column tile's nodes; and the tile's masked logits are the layer's scores of
  those pairs.
-/
import proofs.«114251_j82927228552027_2_alg».proof.Proof.KiVal0
import proofs.«114251_j82927228552027_2_alg».proof.Proof.KiVal1
import proofs.«114251_j82927228552027_2_alg».proof.Proof.KiEntry
import proofs.«114251_j82927228552027_2_alg».proof.Proof.KiGeom
import proofs.«114251_j82927228552027_2_alg».proof.Proof.RefSpec
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.ReferenceIdeal
open scoped BigOperators

variable (m : (ℓ : Loc nD τ sig) → Buf (Elt Ideal) ℓ) (ρ : Dev nD → PrngReg)

/-! ## The five argument arrays, as arrays of extended reals and words -/

abbrev inpOf (c : Dev nD) : (⟨2, ![12288, 512]⟩ : Shape).Idx → EReal := m ((c : Thread nD τ).loc main_arg0)
abbrev adjOf (c : Dev nD) : (⟨2, ![12288, 12288]⟩ : Shape).Idx → BitVec 32 := m ((c : Thread nD τ).loc main_arg1)
abbrev wOf (c : Dev nD) : (⟨2, ![512, 256]⟩ : Shape).Idx → EReal := m ((c : Thread nD τ).loc main_arg2)
abbrev a1Of (c : Dev nD) : (⟨2, ![256, 1]⟩ : Shape).Idx → EReal := m ((c : Thread nD τ).loc main_arg3)
abbrev a2Of (c : Dev nD) : (⟨2, ![256, 1]⟩ : Shape).Idx → EReal := m ((c : Thread nD τ).loc main_arg4)

/-! ## What the projection grid leaves, in the layer's words -/

/-- The feature array is the layer's features. -/
theorem hArr_feature (c : Dev nD) (i : Fin 12288) (q : Fin 256) :
    hArr (E1 m ρ) c (ix2 i q) = RefSpec.feature (inpOf m c) (wOf m c) i q := by
  rw [hArr_ix2]
  unfold RefSpec.feature
  have e0 : inpArr (E1 m ρ) c = inpOf m c := E1_arg0 m ρ c
  have e2 : wArr (E1 m ρ) c = wOf m c := E1_arg2 m ρ c
  rw [e0, e2]

/-- The first logit half is the layer's, the attention row being the transposed first attention column. -/
theorem sArr_half1 (c : Dev nD) (i : Fin 12288) :
    sArr (E1 m ρ) c (E1 m ρ c main_v0 : S1x256.Idx → EReal) (ix2 i (0 : Fin 1)) = RefSpec.half (inpOf m c) (wOf m c) (a1Of m c) i := by
  rw [sArr_ix2, zero_add]
  unfold RefSpec.half
  refine Finset.sum_congr rfl fun q _ => ?_
  rw [hArr_feature, E1_v0, transpose_ix2_apply]

/-- The second logit half likewise. -/
theorem sArr_half2 (c : Dev nD) (i : Fin 12288) :
    sArr (E1 m ρ) c (E1 m ρ c main_v1 : S1x256.Idx → EReal) (ix2 i (0 : Fin 1)) = RefSpec.half (inpOf m c) (wOf m c) (a2Of m c) i := by
  rw [sArr_ix2, zero_add]
  unfold RefSpec.half
  refine Finset.sum_congr rfl fun q _ => ?_
  rw [hArr_feature, E1_v1, transpose_ix2_apply]

/-! ## The elements the attention grid reads at point t (row tile t / 12, column tile t % 12) -/

/-- The first half of the logits of the row tile's row r. -/
theorem s1_elem (c : Dev nD) (t : Fin cfg1.N) (r : Fin 1024) :
    (blk1 (E3 m ρ) c 0 t : Vec Ideal S1024x1 .f32) (ix2 r (0 : Fin 1))
      = RefSpec.half (inpOf m c) (wOf m c) (a1Of m c) ⟨1024 * (t.val / 12) + r.val, by have hN : t.val < 144 := lt_of_lt_of_eq t.isLt N_1; omega⟩ := by
  rw [blk1_0_apply, E3_v2_1, final0_5, sArr_half1]

/-- The second half of the logits of the column tile's node k. -/
theorem s2_elem (c : Dev nD) (t : Fin cfg1.N) (k : Fin 1024) :
    (blk1 (E3 m ρ) c 1 t : Vec Ideal S1x1024 .f32) (ix2 (0 : Fin 1) k)
      = RefSpec.half (inpOf m c) (wOf m c) (a2Of m c) ⟨1024 * (t.val % 12) + k.val, by have hN : t.val < 144 := lt_of_lt_of_eq t.isLt N_1; omega⟩ := by
  rw [blk1_1_apply, E3_v3, transpose_ix2_apply, final0_6, sArr_half2]

/-- The adjacency word of the pair. -/
theorem adj_elem (c : Dev nD) (t : Fin cfg1.N) (r k : Fin 1024) :
    (blk1 (E3 m ρ) c 2 t : Vec Ideal S1024x1024 .i32) (ix2 r k)
      = adjOf m c (ix2 ⟨1024 * (t.val / 12) + r.val, by have hN : t.val < 144 := lt_of_lt_of_eq t.isLt N_1; omega⟩ ⟨1024 * (t.val % 12) + k.val, by have hN : t.val < 144 := lt_of_lt_of_eq t.isLt N_1; omega⟩) := by
  rw [blk1_2_apply, E3_arg1]

/-- The features of the column tile's node k. -/
theorem h_elem (c : Dev nD) (t : Fin cfg1.N) (k : Fin 1024) (q : Fin 256) :
    hTile (grid1.coords t) (blk1 (E3 m ρ) c 3 t) (ix2 k q)
      = RefSpec.feature (inpOf m c) (wOf m c) ⟨1024 * (t.val % 12) + k.val, by have hN : t.val < 144 := lt_of_lt_of_eq t.isLt N_1; omega⟩ q := by
  have e : (⟨1024 * (grid1.coords t 1).val + k.val, by have h12 : (grid1.coords t 1).val < 12 := (grid1.coords t 1).isLt; omega⟩ : Fin 12288)
      = ⟨1024 * (t.val % 12) + k.val, by have hN : t.val < 144 := lt_of_lt_of_eq t.isLt N_1; omega⟩ := Fin.ext (by
    obtain ⟨-, -, -, -, -, -, -, -, -, -, e⟩ := idx1 t
    show 1024 * (grid1.coords t (1 : Fin 2)).val + k.val = 1024 * (t.val % 12) + k.val
    rw [e])
  rw [hTile_apply, e, blk1_3_apply, E3_v2_0, final0_4, hArr_feature]

/-! ## The masked logits of the tile -/

theorem cmpi_at {s : Shape} {w : ℕ} (p : CmpIPredicate) (x y : IVec s w) (i : s.Idx) :
    cmpi p x y i = IntOp.cmpi p (x i) (y i) := rfl

/-- A [1024, 1] column spread over a [1024, 1024] tile reads the column's entry of the row. -/
theorem colSpread_apply (v : Vec Ideal S1024x1 .f32) (r k : Fin 1024) :
    broadcastTo S1024x1024 v broadcasts_S1024x1_S1024x1024 (ix2 r k) = v (ix2 r (0 : Fin 1)) :=
  broadcastTo_apply _ broadcasts_S1024x1_S1024x1024 (ix2 r k) (ix2 r (0 : Fin 1)) (fun a => match a with
    | ⟨0, _⟩ => by show r.val = if (1024 : Nat) = 1 then 0 else r.val; rw [if_neg (by decide)]
    | ⟨1, _⟩ => by show 0 = if (1 : Nat) = 1 then 0 else k.val; rw [if_pos rfl])

/-- A [1, 1024] row spread over a [1024, 1024] tile reads the row's entry of the column. -/
theorem rowSpread1024_apply (v : Vec Ideal S1x1024 .f32) (r k : Fin 1024) :
    broadcastTo S1024x1024 v broadcasts_S1x1024_S1024x1024 (ix2 r k) = v (ix2 (0 : Fin 1) k) :=
  broadcastTo_apply _ broadcasts_S1x1024_S1024x1024 (ix2 r k) (ix2 (0 : Fin 1) k) (fun a => match a with
    | ⟨0, _⟩ => by show 0 = if (1 : Nat) = 1 then 0 else r.val; rw [if_pos rfl]
    | ⟨1, _⟩ => by show k.val = if (1024 : Nat) = 1 then 0 else k.val; rw [if_neg (by decide)])

/-- The tile's masked logits at (r, k), over any blocks: the leaky relu of the two halves' sum where the adjacency
    word is positive, else the fill. -/
theorem pay8_apply (v3 : Vec Ideal S1024x1 .f32) (v5 : Vec Ideal S1x1024 .f32) (v15 : Vec Ideal S1024x1024 .i32) (r k : Fin 1024) :
    k1_pay8 (F := Ideal) v3 v5 v15 (ix2 r k)
      = Scalar.select (IntOp.cmpi .sgt (v15 (ix2 r k)) 0#32)
          (RefSpec.leakyRelu (v3 (ix2 r (0 : Fin 1)) + v5 (ix2 (0 : Fin 1) k))) (Ideal.ofBits .f32 0xD9FFCB9E#32) := by
  unfold k1_pay8
  simp only [shapeCast_self, select_apply, cmpf_apply, cmpi_at, mulf_apply, addf_apply, broadcast_apply]
  unfold RefSpec.leakyRelu
  show Scalar.select _ (Scalar.select (Ideal.cmp .oge _ (Ideal.ofBits .f32 0x00000000#32)) _ (Ideal.ofBits .f32 0x3E4CCCCD#32 * _)) (Ideal.ofBits .f32 0xD9FFCB9E#32) = _
  rw [Ideal.ofBits_zero_f32, colSpread_apply, rowSpread1024_apply]

/-- The tile's masked logits are the layer's scores of the pairs (row tile's row, column tile's node). -/
theorem score_elem (c : Dev nD) (t : Fin cfg1.N) (r k : Fin 1024) :
    k1_pay8 (F := Ideal) (blk1 (E3 m ρ) c 0 t) (blk1 (E3 m ρ) c 1 t) (blk1 (E3 m ρ) c 2 t) (ix2 r k)
      = RefSpec.score (inpOf m c) (adjOf m c) (wOf m c) (a1Of m c) (a2Of m c)
          ⟨1024 * (t.val / 12) + r.val, by have hN : t.val < 144 := lt_of_lt_of_eq t.isLt N_1; omega⟩ ⟨1024 * (t.val % 12) + k.val, by have hN : t.val < 144 := lt_of_lt_of_eq t.isLt N_1; omega⟩ := by
  rw [pay8_apply, s1_elem, s2_elem, adj_elem]
  rfl

end Cert.KernelIdeal.Hand

end
-- ==== Proof.LibLogisticTanh.lean ====
/-
  Scalar facts on the extended reals behind the LSTM cell: the two float literals the programs spell (one half in the
  kernel, one in the reference), and the identity
      1/2 · tanh (z / 2) + 1/2 = 1 / (1 + e^(-z)),
  the logistic function written through tanh. It holds at EVERY extended real: on the reals it is the usual identity
  (with a = e^(z/2): (a - 1/a)/(a + 1/a) + 1 = 2a/(a + 1/a) = 2/(1 + 1/a²)), at +∞ both sides are 1 and at -∞ both are 0.
-/
import Idealize.ShloMosaic.PureOps.Ideal

noncomputable section

namespace Cert.LstmCell

open Idealize.ShloMosaic

/-- The word 0x3F000000 is the real 1/2. -/
theorem ofBits_half : Ideal.ofBits .f32 0x3F000000#32 = ((1 / 2 : ℝ) : EReal) := by
  simp [Ideal.ofBits, Ideal.ieee, -EReal.coe_mul]; norm_num

/-- The word 0x3F800000 is 1. -/
theorem ofBits_one : Ideal.ofBits .f32 0x3F800000#32 = 1 := by
  simp [Ideal.ofBits, Ideal.ieee, -EReal.coe_mul]; norm_num

/-- On the reals: 1/2 · tanh (r/2) + 1/2 = 1 / (1 + e^(-r)). -/
theorem real_logistic_eq_tanh (r : ℝ) :
    (1 / 2 : ℝ) * Real.tanh (1 / 2 * r) + 1 / 2 = (1 + Real.exp (-r))⁻¹ := by
  have ha : 0 < Real.exp (1 / 2 * r) := Real.exp_pos _
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]; congr 1; ring
  rw [Real.tanh_eq_sinh_div_cosh, Real.sinh_eq, Real.cosh_eq, h1, h2]
  field_simp
  ring

/-- The same on the extended reals, the infinities included: tanh is ±1 there, and the logistic function 1 and 0. -/
theorem logistic_eq_tanh (z : EReal) :
    ((1 / 2 : ℝ) : EReal) * Ideal.tanh (((1 / 2 : ℝ) : EReal) * z) + ((1 / 2 : ℝ) : EReal) = Ideal.logistic z := by
  induction z using EReal.rec with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | coe r =>
    rw [← EReal.coe_mul, Ideal.tanh_coe, ← EReal.coe_mul, ← EReal.coe_add, Ideal.logistic_coe, real_logistic_eq_tanh]
  | top =>
    rw [EReal.coe_mul_top_of_pos (by norm_num), Ideal.tanh_top, Ideal.logistic_top, mul_one, ← EReal.coe_add]
    norm_num

/-- jax's expansion of the logistic function, one divided by one plus the exponential of the negation, is the
    logistic function. -/
theorem div_one_add_exp_neg (z : EReal) : Ideal.div 1 (1 + Ideal.exp (-z)) = Ideal.logistic z := rfl

end Cert.LstmCell

end
-- ==== Proof.Bridge.lean ====
/-
  The streamed softmax of the kernel and the one-pass softmax of the reference are one function.

  Fix a node i and an output feature c. The reference takes the maximum M of row i of the masked scores over all
  12288 columns, the weights exp (score − M) / Σ exp (score − M), and the weighted sum of the features. The kernel
  walks the row in 12 tiles of 1024 columns, keeping a running maximum, denominator and numerator, and divides at
  the end. With every input a real number every score is a real number (a leaky relu of a sum of two finite sums,
  or the finite fill), so the two agree: the tile-by-tile recurrence telescopes to the one-pass form, and the
  column k of the row is the lane k mod 1024 of the tile k / 1024. The final nonlinearity is written in two
  ways (exp x − 1 against 1 · (exp (x where x ≤ 0) − 1)), equal at every extended real.
-/
import proofs.«114251_j82927228552027_2_alg».proof.Proof.RefSpec
import proofs.«114251_j82927228552027_2_alg».proof.Proof.LibOnlineSoftmax
import proofs.«114251_j82927228552027_2_alg».proof.Proof.LibLogisticTanh

noncomputable section

open scoped BigOperators

namespace Cert.Bridge

open Idealize.ShloMosaic Idealize.ShloMosaic.ValueIdx OnlineSoftmax Cert.ReferenceIdeal.RefSpec

/-! ## The float words -/

/-- The word of −∞. -/
theorem ofBits_negInf : Ideal.ofBits .f32 0xFF800000#32 = (⊥ : EReal) := by
  simp [Ideal.ofBits, Ideal.ieee]

/-- An f32 word whose exponent field is not all ones denotes a real number. -/
theorem ofBits_f32_real (b : BitVec 32) (h : (b.extractLsb' 23 8).toNat ≠ 255) :
    ∃ r : ℝ, Ideal.ofBits .f32 b = (r : EReal) := by
  unfold Ideal.ofBits Ideal.ieee
  simp only []
  split
  · rename_i h'
    exfalso; apply h; norm_num at h'; exact h'
  · split <;> exact ⟨_, rfl⟩

theorem slope_real : ∃ r : ℝ, Ideal.ofBits .f32 0x3E4CCCCD#32 = (r : EReal) := ofBits_f32_real _ (by decide)
theorem fill_real : ∃ r : ℝ, Ideal.ofBits .f32 0xD9FFCB9E#32 = (r : EReal) := ofBits_f32_real _ (by decide)

/-! ## Every score and feature is a real number -/

section Finite

variable {inp : (⟨2, ![12288, 512]⟩ : Shape).Idx → EReal} {adj : (⟨2, ![12288, 12288]⟩ : Shape).Idx → BitVec 32}
  {W : (⟨2, ![512, 256]⟩ : Shape).Idx → EReal} {a a1 a2 : (⟨2, ![256, 1]⟩ : Shape).Idx → EReal}

theorem feature_real (hinp : ∀ j, ∃ r : ℝ, inp j = (r : EReal)) (hW : ∀ j, ∃ r : ℝ, W j = (r : EReal))
    (i : Fin 12288) (c : Fin 256) : ∃ r : ℝ, feature inp W i c = (r : EReal) := by
  choose fi hfi using hinp
  choose fw hfw using hW
  refine ⟨∑ k : Fin 512, fi (ix2 i k) * fw (ix2 k c), ?_⟩
  unfold feature
  rw [coe_finset_sum]
  exact Finset.sum_congr rfl fun k _ => by rw [hfi, hfw, EReal.coe_mul]

theorem half_real (hinp : ∀ j, ∃ r : ℝ, inp j = (r : EReal)) (hW : ∀ j, ∃ r : ℝ, W j = (r : EReal))
    (ha : ∀ j, ∃ r : ℝ, a j = (r : EReal)) (i : Fin 12288) : ∃ r : ℝ, half inp W a i = (r : EReal) := by
  choose ff hff using fun c => feature_real hinp hW i c
  choose fa hfa using ha
  refine ⟨∑ c : Fin 256, ff c * fa (ix2 c (0 : Fin 1)), ?_⟩
  unfold half
  rw [coe_finset_sum]
  exact Finset.sum_congr rfl fun c _ => by rw [hff, hfa, EReal.coe_mul]

theorem leakyRelu_real (x : ℝ) : ∃ r : ℝ, leakyRelu (x : EReal) = (r : EReal) := by
  obtain ⟨s, hs⟩ := slope_real
  unfold leakyRelu Scalar.select
  split
  · exact ⟨x, rfl⟩
  · exact ⟨s * x, by rw [hs, EReal.coe_mul]⟩

theorem score_real (hinp : ∀ j, ∃ r : ℝ, inp j = (r : EReal)) (hW : ∀ j, ∃ r : ℝ, W j = (r : EReal))
    (ha1 : ∀ j, ∃ r : ℝ, a1 j = (r : EReal)) (ha2 : ∀ j, ∃ r : ℝ, a2 j = (r : EReal)) (i k : Fin 12288) :
    ∃ r : ℝ, score inp adj W a1 a2 i k = (r : EReal) := by
  obtain ⟨x, hx⟩ := half_real hinp hW ha1 i
  obtain ⟨y, hy⟩ := half_real hinp hW ha2 k
  unfold score Scalar.select
  split
  · rw [hx, hy, ← EReal.coe_add]; exact leakyRelu_real _
  · exact fill_real

end Finite

/-! ## Columns as tiles × lanes -/

/-- Column `1024 j + k`: lane k of tile j. -/
def col (j : Fin 12) (k : Fin 1024) : Fin 12288 := ⟨1024 * j.val + k.val, by have := j.isLt; have := k.isLt; omega⟩

def colEquiv : Fin 12 × Fin 1024 ≃ Fin 12288 where
  toFun p := col p.1 p.2
  invFun i := (⟨i.val / 1024, by have := i.isLt; omega⟩, ⟨i.val % 1024, Nat.mod_lt _ (by norm_num)⟩)
  left_inv p := by
    obtain ⟨j, k⟩ := p
    have hk := k.isLt
    exact Prod.ext (Fin.ext (by show (1024 * j.val + k.val) / 1024 = j.val; omega))
      (Fin.ext (by show (1024 * j.val + k.val) % 1024 = k.val; omega))
  right_inv i := Fin.ext (by show 1024 * (i.val / 1024) + i.val % 1024 = i.val; omega)

theorem sum_tiles {M : Type*} [AddCommMonoid M] (f : Fin 12288 → M) :
    ∑ p : Fin 12 × Fin 1024, f (col p.1 p.2) = ∑ k : Fin 12288, f k :=
  Equiv.sum_comp colEquiv f

theorem fold_tiles (f : Fin 12288 → EReal) :
    Finset.univ.fold max ⊥ (fun p : Fin 12 × Fin 1024 => f (col p.1 p.2)) = Finset.univ.fold max ⊥ f := by
  rw [fold_max_bot_eq_sup, fold_max_bot_eq_sup]
  apply le_antisymm
  · exact Finset.sup_le fun p _ => Finset.le_sup (f := f) (Finset.mem_univ _)
  · refine Finset.sup_le fun i _ => ?_
    have h := Finset.le_sup (f := fun p : Fin 12 × Fin 1024 => f (col p.1 p.2)) (Finset.mem_univ (colEquiv.symm i))
    have e : col (colEquiv.symm i).1 (colEquiv.symm i).2 = i := colEquiv.apply_symm_apply i
    simpa only [e] using h

/-! ## The final nonlinearity, in the kernel's spelling -/

/-- x where x > 0, else exp x − 1 (one as its float word). -/
def eluK (x : EReal) : EReal :=
  Scalar.select (Ideal.cmp .ogt x 0) x (Ideal.exp x - Ideal.ofBits .f32 0x3F800000#32)

theorem eluK_eq (x : EReal) : eluK x = eluS x := by
  unfold eluK eluS Scalar.select
  rw [LstmCell.ofBits_one, one_mul]
  by_cases h : Ideal.cmp .ogt x 0 = 1
  · simp only [if_pos h]
  · simp only [if_neg h]

/-! ## The bridge -/

section Main

variable (inp : (⟨2, ![12288, 512]⟩ : Shape).Idx → EReal) (adj : (⟨2, ![12288, 12288]⟩ : Shape).Idx → BitVec 32)
  (W : (⟨2, ![512, 256]⟩ : Shape).Idx → EReal) (a1 a2 : (⟨2, ![256, 1]⟩ : Shape).Idx → EReal)

/-- Row i of the scores, by tile and lane. -/
def tileScore (i : Fin 12288) : Fin 12 → Fin 1024 → EReal := fun j k => score inp adj W a1 a2 i (col j k)
/-- Feature c of the nodes, by tile and lane. -/
def tileFeat (c : Fin 256) : Fin 12 → Fin 1024 → EReal := fun j k => feature inp W (col j k) c

/-- The streamed form, finished by the division and the nonlinearity, is the reference's function. -/
theorem streamed_eq_G (hinp : ∀ j, ∃ r : ℝ, inp j = (r : EReal)) (hW : ∀ j, ∃ r : ℝ, W j = (r : EReal))
    (ha1 : ∀ j, ∃ r : ℝ, a1 j = (r : EReal)) (ha2 : ∀ j, ∃ r : ℝ, a2 j = (r : EReal)) (i : Fin 12288) (c : Fin 256) :
    eluK (Ideal.div (runNum (extend (tileScore inp adj W a1 a2 i)) (extend (tileFeat inp W c)) 12)
        (runDen (extend (tileScore inp adj W a1 a2 i)) 12))
      = G inp adj W a1 a2 (ix2 i c) := by
  rw [G_ix2, eluK_eq]
  congr 1
  haveI : Nonempty (Fin 1024) := ⟨⟨0, by norm_num⟩⟩
  have hS : ∀ j k, ∃ r : ℝ, tileScore inp adj W a1 a2 i j k = (r : EReal) := fun j k => score_real hinp hW ha1 ha2 i (col j k)
  have hV : ∀ j k, ∃ r : ℝ, tileFeat inp W c j k = (r : EReal) := fun j k => feature_real hinp hW (col j k) c
  choose Sr hSr using hS
  choose Vr hVr using hV
  rw [stream_eq_softmax_fin (by norm_num) Sr Vr hSr hVr]
  unfold mixed weight rowTotal shifted rowTop
  rw [ofBits_negInf, max_eq_right bot_le]
  have hM : Finset.univ.fold max ⊥ (fun q : Fin 12 × Fin 1024 => tileScore inp adj W a1 a2 i q.1 q.2)
      = Finset.univ.fold max ⊥ (fun k : Fin 12288 => score inp adj W a1 a2 i k) :=
    fold_tiles (fun k => score inp adj W a1 a2 i k)
  rw [hM]
  have hL : (∑ q : Fin 12 × Fin 1024, Ideal.exp (tileScore inp adj W a1 a2 i q.1 q.2
        - Finset.univ.fold max ⊥ (fun k : Fin 12288 => score inp adj W a1 a2 i k)))
      = ∑ k : Fin 12288, Ideal.exp (score inp adj W a1 a2 i k - Finset.univ.fold max ⊥ (fun k : Fin 12288 => score inp adj W a1 a2 i k)) :=
    sum_tiles (fun k => Ideal.exp (score inp adj W a1 a2 i k - Finset.univ.fold max ⊥ (fun k : Fin 12288 => score inp adj W a1 a2 i k)))
  rw [hL]
  exact sum_tiles (fun k => Ideal.div (Ideal.exp (score inp adj W a1 a2 i k - Finset.univ.fold max ⊥ (fun k : Fin 12288 => score inp adj W a1 a2 i k)))
    (0 + ∑ k : Fin 12288, Ideal.exp (score inp adj W a1 a2 i k - Finset.univ.fold max ⊥ (fun k : Fin 12288 => score inp adj W a1 a2 i k)))
      * feature inp W k c)

end Main

end Cert.Bridge

end
-- ==== Proof.KiFinal.lean ====
/-
  The attention grid's result array is the reference's function. The block written back at a row tile's last
  column tile is, entry by entry, the finish of that row's scratch; the induction along the row makes that the
  streaming recurrence over the twelve tiles of the row's masked scores and of h; the blocks the body reads are
  the reference's half-logits, the adjacency and the features at the matching columns; and the streamed form is
  the one-pass softmax. The blocks cover the array, so the array is that function.
-/
import proofs.«114251_j82927228552027_2_alg».proof.Proof.KiRowGrid
import proofs.«114251_j82927228552027_2_alg».proof.Proof.KiRow
import proofs.«114251_j82927228552027_2_alg».proof.Proof.KiElems
import proofs.«114251_j82927228552027_2_alg».proof.Proof.Bridge

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx OnlineSoftmax Cert.ReferenceIdeal

variable (m : (ℓ : Loc nD τ sig) → Buf (Elt Ideal) ℓ) (ρ : Dev nD → PrngReg)

/-! ## The launch arrays, typed as the reference's function takes them -/

abbrev aInp (c : Dev nD) : (⟨2, ![12288, 512]⟩ : Shape).Idx → EReal := m ((c : Thread nD τ).loc main_arg0)
abbrev aAdj (c : Dev nD) : (⟨2, ![12288, 12288]⟩ : Shape).Idx → BitVec 32 := m ((c : Thread nD τ).loc main_arg1)
abbrev aW (c : Dev nD) : (⟨2, ![512, 256]⟩ : Shape).Idx → EReal := m ((c : Thread nD τ).loc main_arg2)
abbrev aA1 (c : Dev nD) : (⟨2, ![256, 1]⟩ : Shape).Idx → EReal := m ((c : Thread nD τ).loc main_arg3)
abbrev aA2 (c : Dev nD) : (⟨2, ![256, 1]⟩ : Shape).Idx → EReal := m ((c : Thread nD τ).loc main_arg4)

/-- The reference's function of the launch arrays. -/
abbrev Gm (c : Dev nD) : (⟨2, ![12288, 256]⟩ : Shape).Idx → EReal := RefSpec.G (aInp m c) (aAdj m c) (aW m c) (aA1 m c) (aA2 m c)

/-! ## Positions along a row -/

/-- Column tile `j mod 12` of row tile `I`, as a point of the grid. -/
def pt (I : ℕ) (hI : I < 12) (j : ℕ) : Fin cfg1.N :=
  ⟨12 * I + j % 12, by have h : cfg1.N = 144 := N_1; have := Nat.mod_lt j (show 0 < 12 by norm_num); omega⟩

theorem pt_of_lt (I : ℕ) (hI : I < 12) (j : ℕ) (hj : j < 12) (h : 12 * I + j < cfg1.N) : pt I hI j = ⟨12 * I + j, h⟩ :=
  Fin.ext (by show 12 * I + j % 12 = 12 * I + j; rw [Nat.mod_eq_of_lt hj])

/-- Where an entry of the output window's block sits in the result. -/
theorem emb1_4 (t : Fin cfg1.N) (r : Fin 1024) (q : Fin 256) :
    ((cfg1.win 4).blk t).view.emb (ix2 r q)
      = ix2 (⟨1024 * (t.val / 12) + r.val, by have hN : t.val < 144 := lt_of_lt_of_eq t.isLt N_1; omega⟩ : Fin 12288) q := by
  funext a
  apply Fin.ext
  obtain ⟨-, -, -, -, -, -, -, -, e0, e1, -⟩ := idx1 t
  match a with
  | ⟨0, _⟩ => show win1_4.index t (0 : Fin 2) * 1024 + 1 * r.val = 1024 * (t.val / 12) + r.val; rw [e0]; omega
  | ⟨1, _⟩ => show win1_4.index t (1 : Fin 2) * 256 + 1 * q.val = q.val; rw [e1]; omega

/-! ## The flushed block -/

section Finite

variable (c : Dev nD)
  (hinp : ∀ j, ∃ x : ℝ, aInp m c j = (x : EReal)) (hW : ∀ j, ∃ x : ℝ, aW m c j = (x : EReal))
  (ha1 : ∀ j, ∃ x : ℝ, aA1 m c j = (x : EReal)) (ha2 : ∀ j, ∃ x : ℝ, aA2 m c j = (x : EReal))

include hinp hW ha1 ha2 in
/-- Entry (r, q) of the block row tile I writes back is the reference's function at row 1024·I + r, feature q. -/
theorem entry_eq (I : ℕ) (hI : I < 12) (hn : 12 * I + 11 < cfg1.N) (r : Fin 1024) (q : Fin 256) :
    (leftAt1 (E3 m ρ) c (12 * I + 11) hn).1 (ix2 r q) = Gm m c (ix2 (⟨1024 * I + r.val, by omega⟩ : Fin 12288) q) := by
  rw [out_last (E3 m ρ) c I hn]
  have h0 : rowSt (E3 m ρ) c I 0 = Row.step (blk1 (E3 m ρ) c 0 (pt I hI 0)) (blk1 (E3 m ρ) c 1 (pt I hI 0)) (blk1 (E3 m ρ) c 2 (pt I hI 0))
      (hTile (grid1.coords (pt I hI 0)) (blk1 (E3 m ρ) c 3 (pt I hI 0))) Row.reset := by
    have h : 12 * I + 0 < cfg1.N := by have := N_1; omega
    rw [pt_of_lt I hI 0 (by norm_num) h]
    exact rowSt_zero (E3 m ρ) c I h
  have hs : ∀ j, j + 1 < 12 → rowSt (E3 m ρ) c I (j + 1)
      = Row.step (blk1 (E3 m ρ) c 0 (pt I hI (j + 1))) (blk1 (E3 m ρ) c 1 (pt I hI (j + 1))) (blk1 (E3 m ρ) c 2 (pt I hI (j + 1)))
          (hTile (grid1.coords (pt I hI (j + 1))) (blk1 (E3 m ρ) c 3 (pt I hI (j + 1)))) (rowSt (E3 m ρ) c I j) := by
    intro j hj
    have h : 12 * I + (j + 1) < cfg1.N := by have := N_1; omega
    rw [pt_of_lt I hI (j + 1) hj h]
    exact rowSt_succ (E3 m ρ) c I j hj h
  rw [Row.finish (fun j => blk1 (E3 m ρ) c 0 (pt I hI j)) (fun j => blk1 (E3 m ρ) c 1 (pt I hI j)) (fun j => blk1 (E3 m ρ) c 2 (pt I hI j))
    (fun j => hTile (grid1.coords (pt I hI j)) (blk1 (E3 m ρ) c 3 (pt I hI j))) r (rowSt (E3 m ρ) c I) h0 hs q]
  rw [show Gm m c (ix2 (⟨1024 * I + r.val, by omega⟩ : Fin 12288) q) = _ from
    (Bridge.streamed_eq_G (aInp m c) (aAdj m c) (aW m c) (aA1 m c) (aA2 m c) hinp hW ha1 ha2 ⟨1024 * I + r.val, by omega⟩ q).symm]
  have hS : ∀ j, j < 12 → Row.S (fun j => blk1 (E3 m ρ) c 0 (pt I hI j)) (fun j => blk1 (E3 m ρ) c 1 (pt I hI j)) (fun j => blk1 (E3 m ρ) c 2 (pt I hI j)) r j
      = extend (Bridge.tileScore (aInp m c) (aAdj m c) (aW m c) (aA1 m c) (aA2 m c) ⟨1024 * I + r.val, by omega⟩) j := by
    intro j hj
    rw [extend_of_lt _ hj]
    funext k
    have h : 12 * I + j < cfg1.N := by have := N_1; omega
    show k1_pay8 (F := Ideal) (blk1 (E3 m ρ) c 0 (pt I hI j)) (blk1 (E3 m ρ) c 1 (pt I hI j)) (blk1 (E3 m ρ) c 2 (pt I hI j)) (ix2 r k)
      = RefSpec.score (aInp m c) (aAdj m c) (aW m c) (aA1 m c) (aA2 m c) ⟨1024 * I + r.val, by omega⟩ (Bridge.col ⟨j, hj⟩ k)
    rw [pt_of_lt I hI j hj h, score_elem m ρ c ⟨12 * I + j, h⟩ r k]
    have e1 : (⟨1024 * ((12 * I + j) / 12) + r.val, by omega⟩ : Fin 12288) = ⟨1024 * I + r.val, by omega⟩ := Fin.ext (by show 1024 * ((12 * I + j) / 12) + r.val = 1024 * I + r.val; omega)
    have e2 : (⟨1024 * ((12 * I + j) % 12) + k.val, by omega⟩ : Fin 12288) = Bridge.col ⟨j, hj⟩ k := Fin.ext (by show 1024 * ((12 * I + j) % 12) + k.val = 1024 * j + k.val; omega)
    exact congrArg₂ (RefSpec.score (aInp m c) (aAdj m c) (aW m c) (aA1 m c) (aA2 m c)) e1 e2
  have hV : ∀ j, j < 12 → Row.Vc (fun j => hTile (grid1.coords (pt I hI j)) (blk1 (E3 m ρ) c 3 (pt I hI j))) q j
      = extend (Bridge.tileFeat (aInp m c) (aW m c) q) j := by
    intro j hj
    rw [extend_of_lt _ hj]
    funext k
    have h : 12 * I + j < cfg1.N := by have := N_1; omega
    show hTile (grid1.coords (pt I hI j)) (blk1 (E3 m ρ) c 3 (pt I hI j)) (ix2 k q)
      = RefSpec.feature (aInp m c) (aW m c) (Bridge.col ⟨j, hj⟩ k) q
    rw [pt_of_lt I hI j hj h, h_elem m ρ c ⟨12 * I + j, h⟩ k q]
    have e2 : (⟨1024 * ((12 * I + j) % 12) + k.val, by omega⟩ : Fin 12288) = Bridge.col ⟨j, hj⟩ k := Fin.ext (by show 1024 * ((12 * I + j) % 12) + k.val = 1024 * j + k.val; omega)
    exact congrArg (fun i => RefSpec.feature (aInp m c) (aW m c) i q) e2
  rw [runNum_congr hS hV, runDen_congr hS]
  rfl

include hinp hW ha1 ha2 in
/-- What a row tile's last column tile writes back is its block of the reference's function. -/
theorem flushed1_4_eq (t : Fin cfg1.N) (hf : (cfg1.win 4).flush t = true) :
    (dat1 (E3 m ρ) c).flushed 4 t = ((cfg1.win 4).blk t).view.read (Elt Ideal) (Gm m c) := by
  have h11 : t.val % 12 = 11 := (flush1_4 t).mp hf
  have hN : t.val < 144 := lt_of_lt_of_eq t.isLt N_1
  obtain ⟨n, hn⟩ := t
  obtain ⟨I, rfl⟩ : ∃ I, n = 12 * I + 11 := ⟨n / 12, by dsimp only at h11; omega⟩
  have hI : I < 12 := by dsimp only at hN; omega
  show (cfg1.win 4).cut (grid1.coords ⟨12 * I + 11, hn⟩) ((dat1 (E3 m ρ) c).after 4 ⟨12 * I + 11, hn⟩) = _
  rw [after1_4]
  funext j
  obtain ⟨r, q, rfl⟩ : ∃ (r : Fin 1024) (q : Fin 256), j = ix2 r q := ⟨j 0, j 1, eq_ix2 j⟩
  rw [View.read_apply, emb1_4]
  show (leftAt1 (E3 m ρ) c (12 * I + 11) hn).1 (ix2 r q) = _
  rw [entry_eq m ρ c hinp hW ha1 ha2 I hI hn r q]
  exact congrArg (fun i => Gm m c (ix2 i q)) (Fin.ext (by show 1024 * I + r.val = 1024 * ((12 * I + 11) / 12) + r.val; omega))

include hinp hW ha1 ha2 in
/-- The result array after the run. -/
theorem final1_4 : (dat1 (E3 m ρ) c).arrAt 4 cfg1.N = Gm m c :=
  (dat1 (E3 m ρ) c).arrAt_eq_of_cover 4 (Gm m c) (flushed1_4_eq m ρ c hinp hW ha1 ha2) cover1_4

end Finite

end Cert.KernelIdeal.Hand

end
-- ==== Proof.RefRead.lean ====
/-
  The reference's composed term, read index by index at the extended reals, is the layer's
  function `G`: each stage of the term is read at an index from its operands at an index — a matrix
  product as the sum over the contracted coordinate, a row sum as the sum over the row, a row maximum
  as the fold of max over the row, the broadcasts and the transpose by their coordinates, the
  pointwise operations element by element — and the stages compose to `G`.
-/
import proofs.«114251_j82927228552027_2_alg».proof.Proof.RefRun
import proofs.«114251_j82927228552027_2_alg».proof.Proof.RefSpec
import Idealize.ShloMosaic.Lib.ValueIdx
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Cert.ReferenceIdeal.RefRun Idealize.ShloMosaic Idealize.ShloMosaic.ValueIdx

/-! ## The three matrix products -/

/-- inp · W: rows by the 512 input features by the 256 output features. -/
abbrev dFeat : DotDims S12288x512 S512x256 S12288x256 := dot_S12288x512_S512x256_S12288x256_1_0_0_1_n_n
/-- h · a: rows by the 256 features by one column. -/
abbrev dHalf : DotDims S12288x256 S256x1 S12288x1 := dot_S12288x256_S256x1_S12288x1_1_0_0_1_n_n
/-- attention · h: rows by the 12288 nodes by the 256 features. -/
abbrev dMix : DotDims S12288x12288 S12288x256 S12288x256 := dot_S12288x12288_S12288x256_S12288x256_1_0_0_1_n_n

theorem lhs_feat_0 (i : S12288x256.Idx) (q : dFeat.contr.Idx) : (dFeat.lhsIdx i q 0).val = (i 0).val := by
  unfold DotDims.lhsIdx
  rw [dif_neg (show ¬(0 : Fin S12288x512.rank) ∈ dFeat.lhsBatch by decide), dif_pos (show (0 : Fin S12288x512.rank) ∈ dFeat.lhsNonContracting by decide)]
  rfl
theorem lhs_feat_1 (i : S12288x256.Idx) (q : dFeat.contr.Idx) : (dFeat.lhsIdx i q 1).val = (q ⟨0, by decide⟩).val :=
  dFeat.lhsIdx_val_of_single rfl i q
theorem rhs_feat_0 (i : S12288x256.Idx) (q : dFeat.contr.Idx) : (dFeat.rhsIdx i q 0).val = (q ⟨0, by decide⟩).val :=
  dFeat.rhsIdx_val_of_single rfl i q
theorem rhs_feat_1 (i : S12288x256.Idx) (q : dFeat.contr.Idx) : (dFeat.rhsIdx i q 1).val = (i 1).val := by
  unfold DotDims.rhsIdx
  rw [dif_neg (show ¬(1 : Fin S512x256.rank) ∈ dFeat.rhsBatch by decide), dif_pos (show (1 : Fin S512x256.rank) ∈ dFeat.rhsNonContracting by decide)]
  rfl

/-- The features at (i, c): the sum over the 512 input features. -/
theorem feat_apply (x : FVec Ideal S12288x512 .f32) (w : FVec Ideal S512x256 .f32) (i : Fin 12288) (c : Fin 256) :
    feat x w (ix2 i c) = ∑ k : Fin 512, x (ix2 i k) * w (ix2 k c) := by
  unfold feat
  simp only [Host.dotGeneral]
  rw [Ideal.dotGeneral_apply, ← Equiv.sum_comp (contrEquiv1 dFeat 512 rfl rfl).symm]
  refine Finset.sum_congr rfl fun k _ => ?_
  have hk := contrEquiv1_symm_val dFeat 512 rfl rfl k
  have el : dFeat.lhsIdx (ix2 i c) ((contrEquiv1 dFeat 512 rfl rfl).symm k) = ix2 i k := funext fun a => Fin.ext (by
    match a with
    | ⟨0, _⟩ => exact lhs_feat_0 _ _
    | ⟨1, _⟩ => exact (lhs_feat_1 _ _).trans hk)
  have er : dFeat.rhsIdx (ix2 i c) ((contrEquiv1 dFeat 512 rfl rfl).symm k) = ix2 k c := funext fun a => Fin.ext (by
    match a with
    | ⟨0, _⟩ => exact (rhs_feat_0 _ _).trans hk
    | ⟨1, _⟩ => exact rhs_feat_1 _ _)
  rw [el, er]

theorem lhs_half_0 (i : S12288x1.Idx) (q : dHalf.contr.Idx) : (dHalf.lhsIdx i q 0).val = (i 0).val := by
  unfold DotDims.lhsIdx
  rw [dif_neg (show ¬(0 : Fin S12288x256.rank) ∈ dHalf.lhsBatch by decide), dif_pos (show (0 : Fin S12288x256.rank) ∈ dHalf.lhsNonContracting by decide)]
  rfl
theorem lhs_half_1 (i : S12288x1.Idx) (q : dHalf.contr.Idx) : (dHalf.lhsIdx i q 1).val = (q ⟨0, by decide⟩).val :=
  dHalf.lhsIdx_val_of_single rfl i q
theorem rhs_half_0 (i : S12288x1.Idx) (q : dHalf.contr.Idx) : (dHalf.rhsIdx i q 0).val = (q ⟨0, by decide⟩).val :=
  dHalf.rhsIdx_val_of_single rfl i q
theorem rhs_half_1 (i : S12288x1.Idx) (q : dHalf.contr.Idx) : (dHalf.rhsIdx i q 1).val = (i 1).val := by
  unfold DotDims.rhsIdx
  rw [dif_neg (show ¬(1 : Fin S256x1.rank) ∈ dHalf.rhsBatch by decide), dif_pos (show (1 : Fin S256x1.rank) ∈ dHalf.rhsNonContracting by decide)]
  rfl

/-- A projection at row i: the sum over the 256 features. -/
theorem proj_apply (x : FVec Ideal S12288x256 .f32) (w : FVec Ideal S256x1 .f32) (i : Fin 12288) :
    proj x w (ix2 i (0 : Fin 1)) = ∑ k : Fin 256, x (ix2 i k) * w (ix2 k (0 : Fin 1)) := by
  unfold proj
  simp only [Host.dotGeneral]
  rw [Ideal.dotGeneral_apply, ← Equiv.sum_comp (contrEquiv1 dHalf 256 rfl rfl).symm]
  refine Finset.sum_congr rfl fun k _ => ?_
  have hk := contrEquiv1_symm_val dHalf 256 rfl rfl k
  have el : dHalf.lhsIdx (ix2 i (0 : Fin 1)) ((contrEquiv1 dHalf 256 rfl rfl).symm k) = ix2 i k := funext fun a => Fin.ext (by
    match a with
    | ⟨0, _⟩ => exact lhs_half_0 _ _
    | ⟨1, _⟩ => exact (lhs_half_1 _ _).trans hk)
  have er : dHalf.rhsIdx (ix2 i (0 : Fin 1)) ((contrEquiv1 dHalf 256 rfl rfl).symm k) = ix2 k (0 : Fin 1) := funext fun a => Fin.ext (by
    match a with
    | ⟨0, _⟩ => exact (rhs_half_0 _ _).trans hk
    | ⟨1, _⟩ => exact rhs_half_1 _ _)
  rw [el, er]

theorem lhs_mix_0 (i : S12288x256.Idx) (q : dMix.contr.Idx) : (dMix.lhsIdx i q 0).val = (i 0).val := by
  unfold DotDims.lhsIdx
  rw [dif_neg (show ¬(0 : Fin S12288x12288.rank) ∈ dMix.lhsBatch by decide), dif_pos (show (0 : Fin S12288x12288.rank) ∈ dMix.lhsNonContracting by decide)]
  rfl
theorem lhs_mix_1 (i : S12288x256.Idx) (q : dMix.contr.Idx) : (dMix.lhsIdx i q 1).val = (q ⟨0, by decide⟩).val :=
  dMix.lhsIdx_val_of_single rfl i q
theorem rhs_mix_0 (i : S12288x256.Idx) (q : dMix.contr.Idx) : (dMix.rhsIdx i q 0).val = (q ⟨0, by decide⟩).val :=
  dMix.rhsIdx_val_of_single rfl i q
theorem rhs_mix_1 (i : S12288x256.Idx) (q : dMix.contr.Idx) : (dMix.rhsIdx i q 1).val = (i 1).val := by
  unfold DotDims.rhsIdx
  rw [dif_neg (show ¬(1 : Fin S12288x256.rank) ∈ dMix.rhsBatch by decide), dif_pos (show (1 : Fin S12288x256.rank) ∈ dMix.rhsNonContracting by decide)]
  rfl

/-- The weighted average at (i, c): the sum over the 12288 nodes. -/
theorem agg_apply (x : FVec Ideal S12288x12288 .f32) (w : FVec Ideal S12288x256 .f32) (i : Fin 12288) (c : Fin 256) :
    agg x w (ix2 i c) = ∑ k : Fin 12288, x (ix2 i k) * w (ix2 k c) := by
  unfold agg
  simp only [Host.dotGeneral]
  rw [Ideal.dotGeneral_apply, ← Equiv.sum_comp (contrEquiv1 dMix 12288 rfl rfl).symm]
  refine Finset.sum_congr rfl fun k _ => ?_
  have hk := contrEquiv1_symm_val dMix 12288 rfl rfl k
  have el : dMix.lhsIdx (ix2 i c) ((contrEquiv1 dMix 12288 rfl rfl).symm k) = ix2 i k := funext fun a => Fin.ext (by
    match a with
    | ⟨0, _⟩ => exact lhs_mix_0 _ _
    | ⟨1, _⟩ => exact (lhs_mix_1 _ _).trans hk)
  have er : dMix.rhsIdx (ix2 i c) ((contrEquiv1 dMix 12288 rfl rfl).symm k) = ix2 k c := funext fun a => Fin.ext (by
    match a with
    | ⟨0, _⟩ => exact (rhs_mix_0 _ _).trans hk
    | ⟨1, _⟩ => exact rhs_mix_1 _ _)
  rw [el, er]

/-! ## The layout operations and the pointwise operations -/

/-- The pair sum at (i, k): the first column at row i plus the second column at row k. -/
theorem pairSum_apply (s1 s2 : FVec Ideal S12288x1 .f32) (i k : Fin 12288) :
    pairSum s1 s2 (ix2 i k) = s1 (ix2 i (0 : Fin 1)) + s2 (ix2 k (0 : Fin 1)) := by
  unfold pairSum
  rw [addf_apply,
    broadcastInDim_apply _ bcast_S12288x1_S12288x12288_0_1 s1 (ix2 i k) (ix2 i (0 : Fin 1)) (fun a => match a with
      | ⟨0, _⟩ => by show i.val = if (12288 : Nat) = 1 then 0 else i.val; rw [if_neg (by decide)]
      | ⟨1, _⟩ => by show 0 = if (1 : Nat) = 1 then 0 else k.val; rw [if_pos rfl]),
    broadcastInDim_apply _ bcast_S1x12288_S12288x12288_0_1 _ (ix2 i k) (ix2 (0 : Fin 1) k) (fun a => match a with
      | ⟨0, _⟩ => by show 0 = if (1 : Nat) = 1 then 0 else i.val; rw [if_pos rfl]
      | ⟨1, _⟩ => by show k.val = if (12288 : Nat) = 1 then 0 else k.val; rw [if_neg (by decide)]),
    transpose_apply [1, 0] s2 transposes_S12288x1_S1x12288_1_0 (ix2 (0 : Fin 1) k) (ix2 k (0 : Fin 1)) (fun b => match b with
      | ⟨0, _⟩ => rfl
      | ⟨1, _⟩ => rfl)]

/-- Leaky relu, element by element. -/
theorem leaky_apply (x : FVec Ideal S12288x12288 .f32) (j : S12288x12288.Idx) :
    leaky x j = RefSpec.leakyRelu (x j) := by
  unfold leaky RefSpec.leakyRelu
  rw [select_apply, cmpf_apply, mulf_apply]
  show Scalar.select (Ideal.cmp .oge (x j) (Ideal.ofBits .f32 0x00000000#32)) (x j) (Ideal.ofBits .f32 0x3E4CCCCD#32 * x j) = _
  rw [Ideal.ofBits_zero_f32]

/-- The masked logits, element by element. -/
theorem scores_apply (adj : IVec S12288x12288 32) (e : FVec Ideal S12288x12288 .f32) (j : S12288x12288.Idx) :
    scores (mask adj) e j = Scalar.select (IntOp.cmpi .sgt (adj j) 0#32) (e j) (Ideal.ofBits .f32 0xD9FFCB9E#32) := rfl

/-- A per-row value spread over the row reads that row's value. -/
theorem spread_apply (v : FVec Ideal S12288 .f32) (i k : Fin 12288) : spread v (ix2 i k) = v (ix1 i) := by
  unfold spread
  rw [broadcastInDim_apply _ bcast_S12288x1_S12288x12288_0_1 _ (ix2 i k) (ix2 i (0 : Fin 1)) (fun a => match a with
      | ⟨0, _⟩ => by show i.val = if (12288 : Nat) = 1 then 0 else i.val; rw [if_neg (by decide)]
      | ⟨1, _⟩ => by show 0 = if (1 : Nat) = 1 then 0 else k.val; rw [if_pos rfl]),
    broadcastInDim_apply _ bcast_S12288_S12288x1_0 v (ix2 i (0 : Fin 1)) (ix1 i) (fun a => match a with
      | ⟨0, _⟩ => by show i.val = if (12288 : Nat) = 1 then 0 else i.val; rw [if_neg (by decide)])]

/-! ## The two row reductions -/

/-- The row and its reduced index: inserting the coordinate k on the dropped axis of the row index i gives (i, k). -/
theorem lift_row (h : S12288x12288.Reduces [1] S12288) (i : Fin 12288) (k : Fin (S12288x12288.size 1)) :
    h.lift (ix1 i) k = ix2 i k :=
  funext fun a => Fin.ext (by match a with | ⟨0, _⟩ => rfl | ⟨1, _⟩ => rfl)

/-- The row maximum at row i: the fold of max over the row from −∞, not below −∞. -/
theorem rowMax_apply (sc : FVec Ideal S12288x12288 .f32) (i : Fin 12288) :
    rowMax sc (ix1 i) = max (Ideal.ofBits .f32 0xFF800000#32)
      ((Finset.univ : Finset (Fin 12288)).fold max (Ideal.ofBits .f32 0xFF800000#32) fun k => sc (ix2 i k)) := by
  unfold rowMax
  rw [maximumf_apply, Host.reduce_eq_fold_single FloatOps.maximumf sc _ reducesTo_S12288x12288_S12288_d1 (by decide) h_S_ (ix1 i)]
  rw [show (sc ∘ Shape.Reduces.lift (by decide : S12288x12288.Reduces [1] S12288) (ix1 i)) = fun k => sc (ix2 i k) from
    funext fun k => congrArg sc (lift_row _ i k)]
  rfl

/-- The row sum at row i: zero plus the sum over the row. -/
theorem rowSum_apply (u : FVec Ideal S12288x12288 .f32) (i : Fin 12288) :
    rowSum u (ix1 i) = 0 + ∑ k : Fin 12288, u (ix2 i k) := by
  unfold rowSum Host.reduceAdd
  simp only [Ideal.hostReduceAdd_def]
  rw [Ideal.hostReduceAdd_single reducesTo_S12288x12288_S12288_d1 (by decide)]
  show Ideal.ofBits .f32 0x00000000#32 + _ = _
  rw [Ideal.ofBits_zero_f32]
  refine congrArg (0 + ·) (Finset.sum_congr rfl fun k _ => ?_)
  exact congrArg u (lift_row _ i k)

/-! ## The soft-max pieces and the elu -/

/-- The shifted exponential at (i, k). -/
theorem expo_apply (sc : FVec Ideal S12288x12288 .f32) (i k : Fin 12288) :
    expo sc (ix2 i k) = Ideal.exp (sc (ix2 i k) - rowMax sc (ix1 i)) := by
  unfold expo
  show Ideal.exp (subf sc (spread (rowMax sc)) (ix2 i k)) = _
  rw [subf_apply, spread_apply]

/-- The attention weight at (i, k). -/
theorem attn_apply (u : FVec Ideal S12288x12288 .f32) (i k : Fin 12288) :
    attn u (ix2 i k) = Ideal.div (u (ix2 i k)) (rowSum u (ix1 i)) := by
  unfold attn
  show Ideal.div (u (ix2 i k)) (spread (rowSum u) (ix2 i k)) = _
  rw [spread_apply]

/-- Elu, element by element. -/
theorem elu_apply (x : FVec Ideal S12288x256 .f32) (j : S12288x256.Idx) : elu x j = RefSpec.eluS (x j) := by
  unfold elu RefSpec.eluS zeros
  rw [select_apply, cmpf_apply, mulf_apply]
  show Scalar.select (Ideal.cmp .ogt (x j) (Ideal.ofBits .f32 0x00000000#32)) (x j)
    (Ideal.ofBits .f32 0x3F800000#32 * (Ideal.exp (Scalar.select (Ideal.cmp .ogt (x j) (Ideal.ofBits .f32 0x00000000#32)) (Ideal.ofBits .f32 0x00000000#32) (x j)) - 1)) = _
  rw [Ideal.ofBits_zero_f32]

/-! ## The stages compose to the layer's function -/

section Compose

variable (inp : FVec Ideal S12288x512 .f32) (adj : IVec S12288x12288 32) (W : FVec Ideal S512x256 .f32)
  (a1 a2 : FVec Ideal S256x1 .f32)

/-- The features. -/
theorem feature_eq (i : Fin 12288) (c : Fin 256) : feat inp W (ix2 i c) = RefSpec.feature inp W i c :=
  feat_apply inp W i c

/-- A projection of an array that reads as the features is that half of the logit. -/
theorem half_eq (h : FVec Ideal S12288x256 .f32) (hh : ∀ i c, h (ix2 i c) = RefSpec.feature inp W i c)
    (a : FVec Ideal S256x1 .f32) (i : Fin 12288) : proj h a (ix2 i (0 : Fin 1)) = RefSpec.half inp W a i := by
  rw [proj_apply]
  unfold RefSpec.half
  exact Finset.sum_congr rfl fun c _ => by rw [hh]

/-- The masked logits of two columns that read as the two halves. -/
theorem score_eq (s1 s2 : FVec Ideal S12288x1 .f32) (h1 : ∀ i, s1 (ix2 i (0 : Fin 1)) = RefSpec.half inp W a1 i)
    (h2 : ∀ i, s2 (ix2 i (0 : Fin 1)) = RefSpec.half inp W a2 i) (i k : Fin 12288) :
    scores (mask adj) (leaky (pairSum s1 s2)) (ix2 i k) = RefSpec.score inp adj W a1 a2 i k := by
  rw [scores_apply, leaky_apply, pairSum_apply, h1, h2]
  rfl

/-- The row maximum of an array that reads as the scores. -/
theorem rowTop_eq (sc : FVec Ideal S12288x12288 .f32) (hsc : ∀ i k, sc (ix2 i k) = RefSpec.score inp adj W a1 a2 i k)
    (i : Fin 12288) : rowMax sc (ix1 i) = RefSpec.rowTop inp adj W a1 a2 i := by
  rw [rowMax_apply, show (fun k => sc (ix2 i k)) = fun k => RefSpec.score inp adj W a1 a2 i k from funext fun k => hsc i k]
  rfl

/-- The shifted exponentials of such an array. -/
theorem shifted_eq (sc : FVec Ideal S12288x12288 .f32) (hsc : ∀ i k, sc (ix2 i k) = RefSpec.score inp adj W a1 a2 i k)
    (i k : Fin 12288) : expo sc (ix2 i k) = RefSpec.shifted inp adj W a1 a2 i k := by
  rw [expo_apply, hsc, rowTop_eq inp adj W a1 a2 sc hsc]
  rfl

/-- The row sum of an array that reads as the shifted exponentials. -/
theorem rowTotal_eq (u : FVec Ideal S12288x12288 .f32) (hu : ∀ i k, u (ix2 i k) = RefSpec.shifted inp adj W a1 a2 i k)
    (i : Fin 12288) : rowSum u (ix1 i) = RefSpec.rowTotal inp adj W a1 a2 i := by
  rw [rowSum_apply]
  unfold RefSpec.rowTotal
  exact congrArg (0 + ·) (Finset.sum_congr rfl fun k _ => hu i k)

/-- The attention weights of such an array. -/
theorem weight_eq (u : FVec Ideal S12288x12288 .f32) (hu : ∀ i k, u (ix2 i k) = RefSpec.shifted inp adj W a1 a2 i k)
    (i k : Fin 12288) : attn u (ix2 i k) = RefSpec.weight inp adj W a1 a2 i k := by
  rw [attn_apply, hu, rowTotal_eq inp adj W a1 a2 u hu]
  rfl

/-- The weighted average of arrays that read as the weights and the features. -/
theorem mixed_eq (w : FVec Ideal S12288x12288 .f32) (hw : ∀ i k, w (ix2 i k) = RefSpec.weight inp adj W a1 a2 i k)
    (h : FVec Ideal S12288x256 .f32) (hh : ∀ i c, h (ix2 i c) = RefSpec.feature inp W i c) (i : Fin 12288) (c : Fin 256) :
    agg w h (ix2 i c) = RefSpec.mixed inp adj W a1 a2 i c := by
  rw [agg_apply]
  unfold RefSpec.mixed
  exact Finset.sum_congr rfl fun k _ => by rw [hw, hh]

/-- The reference's composed term is the layer's function of the five argument arrays. -/
theorem refTerm_eq : refTerm inp adj W a1 a2 = RefSpec.G inp adj W a1 a2 := by
  funext j
  obtain ⟨i, c, rfl⟩ : ∃ (i : Fin 12288) (c : Fin 256), j = ix2 i c := ⟨j 0, j 1, eq_ix2 j⟩
  rw [RefSpec.G_ix2]
  unfold refTerm
  rw [elu_apply]
  refine congrArg RefSpec.eluS ?_
  refine mixed_eq inp adj W a1 a2 _ (fun i k => ?_) _ (feature_eq inp W) i c
  refine weight_eq inp adj W a1 a2 _ (fun i k => ?_) i k
  refine shifted_eq inp adj W a1 a2 _ (fun i k => ?_) i k
  exact score_eq inp adj W a1 a2 _ _ (half_eq inp W _ (feature_eq inp W) a1) (half_eq inp W _ (feature_eq inp W) a2) i k

end Compose

/-! ## The run, with the result read as the layer's function -/

open Idealize.SL.Sem Idealize.ShloMosaic.TcCoe in
/-- Every weakly fair execution of the reference from a memory with zero counters terminates with the result array
    at the layer's function of the five argument arrays, and the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = RefSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (refTerm_eq _ _ _ _ _), (h c).2⟩) (RefRun.run (F := Ideal) m ρ)

end Cert.ReferenceIdeal.RefRead

end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.Finite.lean ====
/-
  The precondition, opened: every float input is a real number.

  The printed predicate is one truth value: the conjunction, array by array, of "every entry's absolute value
  compares below the word of +∞". Its conjuncts are split, each all-true test gives the comparison at every
  index, and an extended real whose absolute value is below +∞ is a real number.
-/
import proofs.«114251_j82927228552027_2_alg».proof.Pre_finite_inputs
import proofs.«114251_j82927228552027_2_alg».proof.Proof.Gen.Pre_finite_inputs
import proofs.«114251_j82927228552027_2_alg».proof.Proof.LibFiniteEntry
import Idealize.ShloMosaic.Lib.ReduceAll
import Idealize.ShloMosaic.Lib.ValueIdx

noncomputable section

namespace Cert.FiniteIn

open Idealize.ShloMosaic Cert.Pre_finite_inputs Cert.FiniteEntry

theorem finite_of_pre (a0 : FVec Ideal S12288x512 .f32) (a1 : IVec S12288x12288 32) (a2 : FVec Ideal S512x256 .f32)
    (a3 a4 : FVec Ideal S256x1 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h123, h4⟩ := IntOp.andi_eq_one.1 (show IntOp.andi _ _ = 1#1 from h0)
  obtain ⟨h12, h3⟩ := IntOp.andi_eq_one.1 (show IntOp.andi _ _ = 1#1 from h123)
  obtain ⟨h1, h2⟩ := IntOp.andi_eq_one.1 (show IntOp.andi _ _ = 1#1 from h12)
  exact ⟨fun i => real_of_abs_lt_top (a0 i) (Host.reduce_andi_all _ _ _ _ _ h1 i),
    fun i => real_of_abs_lt_top (a2 i) (Host.reduce_andi_all _ _ _ _ _ h2 i),
    fun i => real_of_abs_lt_top (a3 i) (Host.reduce_andi_all _ _ _ _ _ h3 i),
    fun i => real_of_abs_lt_top (a4 i) (Host.reduce_andi_all _ _ _ _ _ h4 i)⟩

end Cert.FiniteIn

end
-- ==== Proof.Algebraic.lean ====
/-
  The two idealized programs end with equal results.
  From memories agreeing on the five arguments: the kernel's program ends with its result array at the reference's
  function G of the arguments (the attention grid's write-backs fold to it, given that every float input is a real
  number — which the precondition says), and the reference's run ends with its result array at G of its own
  arguments, which are the same arrays.
-/
import proofs.«114251_j82927228552027_2_alg».proof.Defs
import proofs.«114251_j82927228552027_2_alg».proof.Proof.Gen.KernelIdeal
import proofs.«114251_j82927228552027_2_alg».proof.Proof.Gen.ReferenceIdeal
import proofs.«114251_j82927228552027_2_alg».proof.Proof.Gen.Pre_finite_inputs
import proofs.«114251_j82927228552027_2_alg».proof.Proof.KiFinal
import proofs.«114251_j82927228552027_2_alg».proof.Proof.RefRead
import proofs.«114251_j82927228552027_2_alg».proof.Proof.Finite

noncomputable section

namespace Cert.Proof.Value

open Idealize.ShloMosaic Idealize.SL.Sem

theorem algebraic : Cert.algebraic_KernelIdeal_ReferenceIdeal := by
  intro m ρ m' ρ' hpre hagree
  have hfin := fun c => Cert.FiniteIn.finite_of_pre _ _ _ _ _ (hpre c)
  refine ⟨fun c => Cert.KernelIdeal.Hand.Gm m c, ?_, ?_⟩
  · exact (θ_run Cert.KernelIdeal.defs _ _).mono
      (fun _ h c => ⟨(h c).1.trans (Cert.KernelIdeal.Hand.final1_4 m ρ c (hfin c).1 (hfin c).2.1 (hfin c).2.2.1 (hfin c).2.2.2), (h c).2⟩)
      (Cert.KernelIdeal.Hand.run_result (F := Ideal) m ρ)
  · refine (θ_run Cert.ReferenceIdeal.defs _ _).mono (fun _ h c => ⟨?_, (h c).2⟩) (Cert.ReferenceIdeal.RefRead.run_G m' ρ')
    rw [(h c).1, (hagree c).1, (hagree c).2.1, (hagree c).2.2.1, (hagree c).2.2.2.1, (hagree c).2.2.2.2]

end Cert.Proof.Value

end
-- ==== Proof.lean ====
/-
  A graph-attention layer on 12288 nodes — h = x·W; half-logits s₁ = h·a₁, s₂ = h·a₂; masked leaky-relu scores; a row
  softmax; the attention-weighted features; elu — as a TPU program of two grids (a projection, then a streaming
  softmax that walks each row of the 12288 × 12288 adjacency in twelve column tiles, keeping a running maximum,
  denominator and numerator in scratch) against its one-pass jnp reference.
  The certificate's five claims: the kernel's program, read at the word level and at the extended reals, and the
  reference each run to the end without a fault and leave their arguments unchanged (Frames); the idealization
  rewrote nothing (Frames); and, on inputs that are real numbers, the two idealized programs end with the same
  result array: the streamed softmax telescopes to the one-pass one (Value).
-/
import proofs.«114251_j82927228552027_2_alg».proof.Defs
import proofs.«114251_j82927228552027_2_alg».proof.Proof.Gen.Kernel
import proofs.«114251_j82927228552027_2_alg».proof.Proof.Gen.KernelIdeal
import proofs.«114251_j82927228552027_2_alg».proof.Proof.Gen.ReferenceIdeal
import proofs.«114251_j82927228552027_2_alg».proof.Proof.Gen.Pre_finite_inputs
import proofs.«114251_j82927228552027_2_alg».proof.Proof.Frames
import proofs.«114251_j82927228552027_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_referenceIdeal, Frames.preserves, Value.algebraic⟩

end Cert.Proof

end
